-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x20x64 : Shape := ⟨3, ![4096, 20, 64]⟩
abbrev S4096x64 : Shape := ⟨2, ![4096, 64]⟩
abbrev S4096 : Shape := ⟨1, ![4096]⟩
abbrev S4096x11x20x64 : Shape := ⟨4, ![4096, 11, 20, 64]⟩
abbrev S_ : Shape := ⟨0, ![]⟩

class Facts : Prop where
  bcast_S_S4096x20x64 : S_.BroadcastsInDim S4096x20x64 (![] : Fin 0 → Fin S4096x20x64.rank)
  reducesTo_S4096x20x64_S_d0_1_2 : S4096x20x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096x11x20x64 : S_.BroadcastsInDim S4096x11x20x64 (![] : Fin 0 → Fin S4096x11x20x64.rank)
  reducesTo_S4096x11x20x64_S_d0_1_2_3 : S4096x11x20x64.ReducesTo [0, 1, 2, 3] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_arg4 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .sle main_arg2 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 20#32
  let main_v21 : IVec S4096 32 := broadcastInDim S4096 ![] bcast_S_S4096 main_c_7
  let main_v22 : IVec S4096 1 := cmpi .sge main_arg4 main_v21
  let main_c_8 : IVec S_ 32 := constantI S_ 32 20#32
  let main_v23 : IVec S4096 32 := broadcastInDim S4096 ![] bcast_S_S4096 main_c_8
  let main_v24 : IVec S4096 1 := cmpi .sle main_arg4 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  main_v27

def fn {F : FTy → Type} [FloatOps F] (main_arg0 : FVec F S4096x20x64 .f32) (main_arg1 : FVec F S4096x64 .f32) (main_arg2 : IVec S4096 32) (main_arg3 : FVec F S4096x11x20x64 .f32) (main_arg4 : IVec S4096 32) : IVec S_ 1 :=
  let main_v0 : FVec F S4096x20x64 .f32 := Host.absf main_arg0
  let main_cst : FVec F S_ .f32 := constant S_ .f32 0x7F800000#32
  let main_v1 : FVec F S4096x20x64 .f32 := broadcastInDim S4096x20x64 ![] bcast_S_S4096x20x64 main_cst
  let main_v2 : IVec S4096x20x64 1 := cmpf .olt main_v0 main_v1
  let main_c : IVec S_ 1 := constantI S_ 1 1#1
  let main_v3 : IVec S_ 1 := (fun x v => Host.reduce IntOp.andi x v reducesTo_S4096x20x64_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x11x20x64 .f32 := Host.absf main_arg3
  let main_cst_2 : FVec F S_ .f32 := constant S_ .f32 0x7F800000#32
  let main_v10 : FVec F S4096x11x20x64 .f32 := broadcastInDim S4096x11x20x64 ![] bcast_S_S4096x11x20x64 main_cst_2
  let main_v11 : IVec S4096x11x20x64 1 := cmpf .olt main_v9 main_v10
  let main_c_3 : IVec S_ 1 := constantI S_ 1 1#1
  let main_v12 : IVec S_ 1 := (fun x v => Host.reduce IntOp.andi x v reducesTo_S4096x11x20x64_S_d0_1_2_3 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 32 := constantI S_ 32 10#32
  fn_part1 (F := F) main_arg2 main_arg4 main_v13 main_v15 main_c_5
-- ==== Kernel.lean ====
abbrev S4096x20x64 : Shape := ⟨3, ![4096, 20, 64]⟩
abbrev S4096x64 : Shape := ⟨2, ![4096, 64]⟩
abbrev S4096 : Shape := ⟨1, ![4096]⟩
abbrev S4096x11x20x64 : Shape := ⟨4, ![4096, 11, 20, 64]⟩
abbrev S45056x20x64 : Shape := ⟨3, ![45056, 20, 64]⟩
abbrev S128 : Shape := ⟨1, ![128]⟩
abbrev S16x20x64 : Shape := ⟨3, ![16, 20, 64]⟩
abbrev S_ : Shape := ⟨0, ![]⟩
abbrev S16 : Shape := ⟨1, ![16]⟩
abbrev S1 : Shape := ⟨1, ![1]⟩
abbrev S1x20x64 : Shape := ⟨3, ![1, 20, 64]⟩
abbrev S20x64 : Shape := ⟨2, ![20, 64]⟩

abbrev nBuf : Table → Nat
  | .hbm => 7
  | .local .scVector .vmem => 2
  | _ => 0

abbrev bufTy : (tb : Table) → Fin (nBuf tb) → BufTy
  | .hbm, ⟨0, _⟩ => ⟨S4096x20x64, .f32⟩
  | .hbm, ⟨1, _⟩ => ⟨S4096x64, .f32⟩
  | .hbm, ⟨2, _⟩ => ⟨S4096, .i32⟩
  | .hbm, ⟨3, _⟩ => ⟨S4096x11x20x64, .f32⟩
  | .hbm, ⟨4, _⟩ => ⟨S4096, .i32⟩
  | .hbm, ⟨5, _⟩ => ⟨S45056x20x64, .f32⟩
  | .hbm, ⟨6, _⟩ => ⟨S4096x20x64, .f32⟩
  | .local .scVector .vmem, ⟨0, _⟩ => ⟨S128, .i32⟩
  | .local .scVector .vmem, ⟨1, _⟩ => ⟨S16x20x64, .f32⟩
  | _, _ => ⟨S4096x20x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v0_scv : Ref sig .scVector := ⟨.hbm, 5, rfl⟩
abbrev main_arg2_scv : Ref sig .scVector := ⟨.hbm, 2, rfl⟩
abbrev main_v1_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off2 (k0_t1 : Fin k0_t1_loop.trips) : Fin 1 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v7 : Index := Scalar.indexCast v6
  ![v7.toNat]
def k0_off3 (i : grid0.Coords) (k0_t1 : Fin k0_t1_loop.trips) (v14 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v10 : BitVec 32 := Scalar.addi v2 v6
  let c0_i32_3 : BitVec 32 := 0#32
  let v11 : BitVec 32 := Scalar.addi v10 c0_i32_3
  let c11_i32 : BitVec 32 := 11#32
  let v12 : BitVec 32 := Scalar.muli v11 c11_i32
  let v15 : BitVec 32 := Scalar.addi v12 v14
  let c0_i32_26 : BitVec 32 := 0#32
  let c0_i32_27 : BitVec 32 := 0#32
  ![v15.toNat, 0, 0]

def k0_off4 (i : grid0.Coords) (k0_t1 : Fin k0_t1_loop.trips) (v20 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v16 : BitVec 32 := Scalar.addi v2 v6
  let c1_i32_4 : BitVec 32 := 1#32
  let v17 : BitVec 32 := Scalar.addi v16 c1_i32_4
  let c11_i32_5 : BitVec 32 := 11#32
  let v18 : BitVec 32 := Scalar.muli v17 c11_i32_5
  let v21 : BitVec 32 := Scalar.addi v18 v20
  let c0_i32_35 : BitVec 32 := 0#32
  let c0_i32_36 : BitVec 32 := 0#32
  ![v21.toNat, 0, 0]

def k0_off5 (i : grid0.Coords) (k0_t1 : Fin k0_t1_loop.trips) (v26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v22 : BitVec 32 := Scalar.addi v2 v6
  let c2_i32_6 : BitVec 32 := 2#32
  let v23 : BitVec 32 := Scalar.addi v22 c2_i32_6
  let c11_i32_7 : BitVec 32 := 11#32
  let v24 : BitVec 32 := Scalar.muli v23 c11_i32_7
  let v27 : BitVec 32 := Scalar.addi v24 v26
  let c0_i32_44 : BitVec 32 := 0#32
  let c0_i32_45 : BitVec 32 := 0#32
  ![v27.toNat, 0, 0]

def k0_off6 (i : grid0.Coords) (k0_t1 : Fin k0_t1_loop.trips) (v32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v28 : BitVec 32 := Scalar.addi v2 v6
  let c3_i32 : BitVec 32 := 3#32
  let v29 : BitVec 32 := Scalar.addi v28 c3_i32
  let c11_i32_8 : BitVec 32 := 11#32
  let v30 : BitVec 32 := Scalar.muli v29 c11_i32_8
  let v33 : BitVec 32 := Scalar.addi v30 v32
  let c0_i32_53 : BitVec 32 := 0#32
  let c0_i32_54 : BitVec 32 := 0#32
  ![v33.toNat, 0, 0]

def k0_off7 (i : grid0.Coords) (k0_t1 : Fin k0_t1_loop.trips) (v38 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v34 : BitVec 32 := Scalar.addi v2 v6
  let c4_i32 : BitVec 32 := 4#32
  let v35 : BitVec 32 := Scalar.addi v34 c4_i32
  let c11_i32_9 : BitVec 32 := 11#32
  let v36 : BitVec 32 := Scalar.muli v35 c11_i32_9
  let v39 : BitVec 32 := Scalar.addi v36 v38
  let c0_i32_62 : BitVec 32 := 0#32
  let c0_i32_63 : BitVec 32 := 0#32
  ![v39.toNat, 0, 0]

def k0_off8 (i : grid0.Coords) (k0_t1 : Fin k0_t1_loop.trips) (v44 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v40 : BitVec 32 := Scalar.addi v2 v6
  let c5_i32 : BitVec 32 := 5#32
  let v41 : BitVec 32 := Scalar.addi v40 c5_i32
  let c11_i32_10 : BitVec 32 := 11#32
  let v42 : BitVec 32 := Scalar.muli v41 c11_i32_10
  let v45 : BitVec 32 := Scalar.addi v42 v44
  let c0_i32_71 : BitVec 32 := 0#32
  let c0_i32_72 : BitVec 32 := 0#32
  ![v45.toNat, 0, 0]

def k0_off9 (i : grid0.Coords) (k0_t1 : Fin k0_t1_loop.trips) (v50 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v46 : BitVec 32 := Scalar.addi v2 v6
  let c6_i32 : BitVec 32 := 6#32
  let v47 : BitVec 32 := Scalar.addi v46 c6_i32
  let c11_i32_11 : BitVec 32 := 11#32
  let v48 : BitVec 32 := Scalar.muli v47 c11_i32_11
  let v51 : BitVec 32 := Scalar.addi v48 v50
  let c0_i32_80 : BitVec 32 := 0#32
  let c0_i32_81 : BitVec 32 := 0#32
  ![v51.toNat, 0, 0]

def k0_off10 (i : grid0.Coords) (k0_t1 : Fin k0_t1_loop.trips) (v56 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v52 : BitVec 32 := Scalar.addi v2 v6
  let c7_i32 : BitVec 32 := 7#32
  let v53 : BitVec 32 := Scalar.addi v52 c7_i32
  let c11_i32_12 : BitVec 32 := 11#32
  let v54 : BitVec 32 := Scalar.muli v53 c11_i32_12
  let v57 : BitVec 32 := Scalar.addi v54 v56
  let c0_i32_89 : BitVec 32 := 0#32
  let c0_i32_90 : BitVec 32 := 0#32
  ![v57.toNat, 0, 0]

def k0_off11 (i : grid0.Coords) (k0_t1 : Fin k0_t1_loop.trips) (v62 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v58 : BitVec 32 := Scalar.addi v2 v6
  let c8_i32_13 : BitVec 32 := 8#32
  let v59 : BitVec 32 := Scalar.addi v58 c8_i32_13
  let c11_i32_14 : BitVec 32 := 11#32
  let v60 : BitVec 32 := Scalar.muli v59 c11_i32_14
  let v63 : BitVec 32 := Scalar.addi v60 v62
  let c0_i32_98 : BitVec 32 := 0#32
  let c0_i32_99 : BitVec 32 := 0#32
  ![v63.toNat, 0, 0]

def k0_off12 (i : grid0.Coords) (k0_t1 : Fin k0_t1_loop.trips) (v68 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v64 : BitVec 32 := Scalar.addi v2 v6
  let c9_i32 : BitVec 32 := 9#32
  let v65 : BitVec 32 := Scalar.addi v64 c9_i32
  let c11_i32_15 : BitVec 32 := 11#32
  let v66 : BitVec 32 := Scalar.muli v65 c11_i32_15
  let v69 : BitVec 32 := Scalar.addi v66 v68
  let c0_i32_107 : BitVec 32 := 0#32
  let c0_i32_108 : BitVec 32 := 0#32
  ![v69.toNat, 0, 0]

def k0_off13 (i : grid0.Coords) (k0_t1 : Fin k0_t1_loop.trips) (v74 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v70 : BitVec 32 := Scalar.addi v2 v6
  let c10_i32 : BitVec 32 := 10#32
  let v71 : BitVec 32 := Scalar.addi v70 c10_i32
  let c11_i32_16 : BitVec 32 := 11#32
  let v72 : BitVec 32 := Scalar.muli v71 c11_i32_16
  let v75 : BitVec 32 := Scalar.addi v72 v74
  let c0_i32_116 : BitVec 32 := 0#32
  let c0_i32_117 : BitVec 32 := 0#32
  ![v75.toNat, 0, 0]

def k0_off14 (i : grid0.Coords) (k0_t1 : Fin k0_t1_loop.trips) (v80 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v76 : BitVec 32 := Scalar.addi v2 v6
  let c11_i32_17 : BitVec 32 := 11#32
  let v77 : BitVec 32 := Scalar.addi v76 c11_i32_17
  let c11_i32_18 : BitVec 32 := 11#32
  let v78 : BitVec 32 := Scalar.muli v77 c11_i32_18
  let v81 : BitVec 32 := Scalar.addi v78 v80
  let c0_i32_125 : BitVec 32 := 0#32
  let c0_i32_126 : BitVec 32 := 0#32
  ![v81.toNat, 0, 0]

def k0_off15 (i : grid0.Coords) (k0_t1 : Fin k0_t1_loop.trips) (v86 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v82 : BitVec 32 := Scalar.addi v2 v6
  let c12_i32 : BitVec 32 := 12#32
  let v83 : BitVec 32 := Scalar.addi v82 c12_i32
  let c11_i32_19 : BitVec 32 := 11#32
  let v84 : BitVec 32 := Scalar.muli v83 c11_i32_19
  let v87 : BitVec 32 := Scalar.addi v84 v86
  let c0_i32_134 : BitVec 32 := 0#32
  let c0_i32_135 : BitVec 32 := 0#32
  ![v87.toNat, 0, 0]

def k0_off16 (i : grid0.Coords) (k0_t1 : Fin k0_t1_loop.trips) (v92 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v88 : BitVec 32 := Scalar.addi v2 v6
  let c13_i32 : BitVec 32 := 13#32
  let v89 : BitVec 32 := Scalar.addi v88 c13_i32
  let c11_i32_20 : BitVec 32 := 11#32
  let v90 : BitVec 32 := Scalar.muli v89 c11_i32_20
  let v93 : BitVec 32 := Scalar.addi v90 v92
  let c0_i32_143 : BitVec 32 := 0#32
  let c0_i32_144 : BitVec 32 := 0#32
  ![v93.toNat, 0, 0]

def k0_off17 (i : grid0.Coords) (k0_t1 : Fin k0_t1_loop.trips) (v98 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v94 : BitVec 32 := Scalar.addi v2 v6
  let c14_i32 : BitVec 32 := 14#32
  let v95 : BitVec 32 := Scalar.addi v94 c14_i32
  let c11_i32_21 : BitVec 32 := 11#32
  let v96 : BitVec 32 := Scalar.muli v95 c11_i32_21
  let v99 : BitVec 32 := Scalar.addi v96 v98
  let c0_i32_152 : BitVec 32 := 0#32
  let c0_i32_153 : BitVec 32 := 0#32
  ![v99.toNat, 0, 0]

def k0_off18 (i : grid0.Coords) (k0_t1 : Fin k0_t1_loop.trips) (v104 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v100 : BitVec 32 := Scalar.addi v2 v6
  let c15_i32 : BitVec 32 := 15#32
  let v101 : BitVec 32 := Scalar.addi v100 c15_i32
  let c11_i32_22 : BitVec 32 := 11#32
  let v102 : BitVec 32 := Scalar.muli v101 c11_i32_22
  let v105 : BitVec 32 := Scalar.addi v102 v104
  let c0_i32_161 : BitVec 32 := 0#32
  let c0_i32_162 : BitVec 32 := 0#32
  ![v105.toNat, 0, 0]

def k0_chk16 (i : grid0.Coords) (k0_t1 : Fin k0_t1_loop.trips) (v104 : BitVec 32) : Prop :=
  (∀ a, (k0_off18 i k0_t1 v104) a + S1x20x64.size a ≤ S45056x20x64.size a)
instance k0_chk16.dec : ∀ (i : grid0.Coords) (k0_t1 : Fin k0_t1_loop.trips) (v104 : BitVec 32), Decidable (k0_chk16 i k0_t1 v104) := fun i k0_t1 v104 => decidable_of_iff' _ (Iff.of_eq (k0_chk16.eq_1 i k0_t1 v104))
theorem k0_off18_inb : ∀ (i : grid0.Coords) (k0_t1 : Fin k0_t1_loop.trips) (v104 : BitVec 32) (k0_hw16 : k0_chk16 i k0_t1 v104), ∀ a, (k0_off18 i k0_t1 v104) a + S1x20x64.size a ≤ S45056x20x64.size a := fun i k0_t1 v104 k0_hw16 => k0_hw16

def k0_off19 (i : grid0.Coords) (k0_t1 : Fin k0_t1_loop.trips) (v14 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v10 : BitVec 32 := Scalar.addi v2 v6
  let c0_i32_3 : BitVec 32 := 0#32
  let v11 : BitVec 32 := Scalar.addi v10 c0_i32_3
  let c11_i32 : BitVec 32 := 11#32
  let v12 : BitVec 32 := Scalar.muli v11 c11_i32
  let v15 : BitVec 32 := Scalar.addi v12 v14
  let c0_i32_170 : BitVec 32 := 0#32
  let c0_i32_171 : BitVec 32 := 0#32
  ![v15.toNat, 0, 0]

def k0_chk1 (i : grid0.Coords) (k0_t1 : Fin k0_t1_loop.trips) (v14 : BitVec 32) : Prop :=
  (∀ a, (k0_off3 i k0_t1 v14) a + S1x20x64.size a ≤ S45056x20x64.size a) ∧
  (∀ a, (k0_off19 i k0_t1 v14) a + S1x20x64.size a ≤ S45056x20x64.size a)
instance k0_chk1.dec : ∀ (i : grid0.Coords) (k0_t1 : Fin k0_t1_loop.trips) (v14 : BitVec 32), Decidable (k0_chk1 i k0_t1 v14) := fun i k0_t1 v14 => decidable_of_iff' _ (Iff.of_eq (k0_chk1.eq_1 i k0_t1 v14))
theorem k0_off3_inb : ∀ (i : grid0.Coords) (k0_t1 : Fin k0_t1_loop.trips) (v14 : BitVec 32) (k0_hw1 : k0_chk1 i k0_t1 v14), ∀ a, (k0_off3 i k0_t1 v14) a + S1x20x64.size a ≤ S45056x20x64.size a := fun i k0_t1 v14 k0_hw1 => k0_hw1.1
theorem k0_off19_inb : ∀ (i : grid0.Coords) (k0_t1 : Fin k0_t1_loop.trips) (v14 : BitVec 32) (k0_hw1 : k0_chk1 i k0_t1 v14), ∀ a, (k0_off19 i k0_t1 v14) a + S1x20x64.size a ≤ S45056x20x64.size a := fun i k0_t1 v14 k0_hw1 => k0_hw1.2

def k0_off20 (i : grid0.Coords) (k0_t1 : Fin k0_t1_loop.trips) (v20 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v16 : BitVec 32 := Scalar.addi v2 v6
  let c1_i32_4 : BitVec 32 := 1#32
  let v17 : BitVec 32 := Scalar.addi v16 c1_i32_4
  let c11_i32_5 : BitVec 32 := 11#32
  let v18 : BitVec 32 := Scalar.muli v17 c11_i32_5
  let v21 : BitVec 32 := Scalar.addi v18 v20
  let c0_i32_179 : BitVec 32 := 0#32
  let c0_i32_180 : BitVec 32 := 0#32
  ![v21.toNat, 0, 0]

def k0_chk2 (i : grid0.Coords) (k0_t1 : Fin k0_t1_loop.trips) (v20 : BitVec 32) : Prop :=
  (∀ a, (k0_off4 i k0_t1 v20) a + S1x20x64.size a ≤ S45056x20x64.size a) ∧
  (∀ a, (k0_off20 i k0_t1 v20) a + S1x20x64.size a ≤ S45056x20x64.size a)
instance k0_chk2.dec : ∀ (i : grid0.Coords) (k0_t1 : Fin k0_t1_loop.trips) (v20 : BitVec 32), Decidable (k0_chk2 i k0_t1 v20) := fun i k0_t1 v20 => decidable_of_iff' _ (Iff.of_eq (k0_chk2.eq_1 i k0_t1 v20))
theorem k0_off4_inb : ∀ (i : grid0.Coords) (k0_t1 : Fin k0_t1_loop.trips) (v20 : BitVec 32) (k0_hw2 : k0_chk2 i k0_t1 v20), ∀ a, (k0_off4 i k0_t1 v20) a + S1x20x64.size a ≤ S45056x20x64.size a := fun i k0_t1 v20 k0_hw2 => k0_hw2.1
theorem k0_off20_inb : ∀ (i : grid0.Coords) (k0_t1 : Fin k0_t1_loop.trips) (v20 : BitVec 32) (k0_hw2 : k0_chk2 i k0_t1 v20), ∀ a, (k0_off20 i k0_t1 v20) a + S1x20x64.size a ≤ S45056x20x64.size a := fun i k0_t1 v20 k0_hw2 => k0_hw2.2

def k0_off21 (i : grid0.Coords) (k0_t1 : Fin k0_t1_loop.trips) (v26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v22 : BitVec 32 := Scalar.addi v2 v6
  let c2_i32_6 : BitVec 32 := 2#32
  let v23 : BitVec 32 := Scalar.addi v22 c2_i32_6
  let c11_i32_7 : BitVec 32 := 11#32
  let v24 : BitVec 32 := Scalar.muli v23 c11_i32_7
  let v27 : BitVec 32 := Scalar.addi v24 v26
  let c0_i32_188 : BitVec 32 := 0#32
  let c0_i32_189 : BitVec 32 := 0#32
  ![v27.toNat, 0, 0]

def k0_chk3 (i : grid0.Coords) (k0_t1 : Fin k0_t1_loop.trips) (v26 : BitVec 32) : Prop :=
  (∀ a, (k0_off5 i k0_t1 v26) a + S1x20x64.size a ≤ S45056x20x64.size a) ∧
  (∀ a, (k0_off21 i k0_t1 v26) a + S1x20x64.size a ≤ S45056x20x64.size a)
instance k0_chk3.dec : ∀ (i : grid0.Coords) (k0_t1 : Fin k0_t1_loop.trips) (v26 : BitVec 32), Decidable (k0_chk3 i k0_t1 v26) := fun i k0_t1 v26 => decidable_of_iff' _ (Iff.of_eq (k0_chk3.eq_1 i k0_t1 v26))
theorem k0_off5_inb : ∀ (i : grid0.Coords) (k0_t1 : Fin k0_t1_loop.trips) (v26 : BitVec 32) (k0_hw3 : k0_chk3 i k0_t1 v26), ∀ a, (k0_off5 i k0_t1 v26) a + S1x20x64.size a ≤ S45056x20x64.size a := fun i k0_t1 v26 k0_hw3 => k0_hw3.1
theorem k0_off21_inb : ∀ (i : grid0.Coords) (k0_t1 : Fin k0_t1_loop.trips) (v26 : BitVec 32) (k0_hw3 : k0_chk3 i k0_t1 v26), ∀ a, (k0_off21 i k0_t1 v26) a + S1x20x64.size a ≤ S45056x20x64.size a := fun i k0_t1 v26 k0_hw3 => k0_hw3.2

def k0_off22 (i : grid0.Coords) (k0_t1 : Fin k0_t1_loop.trips) (v32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v28 : BitVec 32 := Scalar.addi v2 v6
  let c3_i32 : BitVec 32 := 3#32
  let v29 : BitVec 32 := Scalar.addi v28 c3_i32
  let c11_i32_8 : BitVec 32 := 11#32
  let v30 : BitVec 32 := Scalar.muli v29 c11_i32_8
  let v33 : BitVec 32 := Scalar.addi v30 v32
  let c0_i32_197 : BitVec 32 := 0#32
  let c0_i32_198 : BitVec 32 := 0#32
  ![v33.toNat, 0, 0]

def k0_chk4 (i : grid0.Coords) (k0_t1 : Fin k0_t1_loop.trips) (v32 : BitVec 32) : Prop :=
  (∀ a, (k0_off6 i k0_t1 v32) a + S1x20x64.size a ≤ S45056x20x64.size a) ∧
  (∀ a, (k0_off22 i k0_t1 v32) a + S1x20x64.size a ≤ S45056x20x64.size a)
instance k0_chk4.dec : ∀ (i : grid0.Coords) (k0_t1 : Fin k0_t1_loop.trips) (v32 : BitVec 32), Decidable (k0_chk4 i k0_t1 v32) := fun i k0_t1 v32 => decidable_of_iff' _ (Iff.of_eq (k0_chk4.eq_1 i k0_t1 v32))
theorem k0_off6_inb : ∀ (i : grid0.Coords) (k0_t1 : Fin k0_t1_loop.trips) (v32 : BitVec 32) (k0_hw4 : k0_chk4 i k0_t1 v32), ∀ a, (k0_off6 i k0_t1 v32) a + S1x20x64.size a ≤ S45056x20x64.size a := fun i k0_t1 v32 k0_hw4 => k0_hw4.1
theorem k0_off22_inb : ∀ (i : grid0.Coords) (k0_t1 : Fin k0_t1_loop.trips) (v32 : BitVec 32) (k0_hw4 : k0_chk4 i k0_t1 v32), ∀ a, (k0_off22 i k0_t1 v32) a + S1x20x64.size a ≤ S45056x20x64.size a := fun i k0_t1 v32 k0_hw4 => k0_hw4.2

def k0_off23 (i : grid0.Coords) (k0_t1 : Fin k0_t1_loop.trips) (v38 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v34 : BitVec 32 := Scalar.addi v2 v6
  let c4_i32 : BitVec 32 := 4#32
  let v35 : BitVec 32 := Scalar.addi v34 c4_i32
  let c11_i32_9 : BitVec 32 := 11#32
  let v36 : BitVec 32 := Scalar.muli v35 c11_i32_9
  let v39 : BitVec 32 := Scalar.addi v36 v38
  let c0_i32_206 : BitVec 32 := 0#32
  let c0_i32_207 : BitVec 32 := 0#32
  ![v39.toNat, 0, 0]

def k0_chk5 (i : grid0.Coords) (k0_t1 : Fin k0_t1_loop.trips) (v38 : BitVec 32) : Prop :=
  (∀ a, (k0_off7 i k0_t1 v38) a + S1x20x64.size a ≤ S45056x20x64.size a) ∧
  (∀ a, (k0_off23 i k0_t1 v38) a + S1x20x64.size a ≤ S45056x20x64.size a)
instance k0_chk5.dec : ∀ (i : grid0.Coords) (k0_t1 : Fin k0_t1_loop.trips) (v38 : BitVec 32), Decidable (k0_chk5 i k0_t1 v38) := fun i k0_t1 v38 => decidable_of_iff' _ (Iff.of_eq (k0_chk5.eq_1 i k0_t1 v38))
theorem k0_off7_inb : ∀ (i : grid0.Coords) (k0_t1 : Fin k0_t1_loop.trips) (v38 : BitVec 32) (k0_hw5 : k0_chk5 i k0_t1 v38), ∀ a, (k0_off7 i k0_t1 v38) a + S1x20x64.size a ≤ S45056x20x64.size a := fun i k0_t1 v38 k0_hw5 => k0_hw5.1
theorem k0_off23_inb : ∀ (i : grid0.Coords) (k0_t1 : Fin k0_t1_loop.trips) (v38 : BitVec 32) (k0_hw5 : k0_chk5 i k0_t1 v38), ∀ a, (k0_off23 i k0_t1 v38) a + S1x20x64.size a ≤ S45056x20x64.size a := fun i k0_t1 v38 k0_hw5 => k0_hw5.2

def k0_off24 (i : grid0.Coords) (k0_t1 : Fin k0_t1_loop.trips) (v44 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v40 : BitVec 32 := Scalar.addi v2 v6
  let c5_i32 : BitVec 32 := 5#32
  let v41 : BitVec 32 := Scalar.addi v40 c5_i32
  let c11_i32_10 : BitVec 32 := 11#32
  let v42 : BitVec 32 := Scalar.muli v41 c11_i32_10
  let v45 : BitVec 32 := Scalar.addi v42 v44
  let c0_i32_215 : BitVec 32 := 0#32
  let c0_i32_216 : BitVec 32 := 0#32
  ![v45.toNat, 0, 0]

def k0_chk6 (i : grid0.Coords) (k0_t1 : Fin k0_t1_loop.trips) (v44 : BitVec 32) : Prop :=
  (∀ a, (k0_off8 i k0_t1 v44) a + S1x20x64.size a ≤ S45056x20x64.size a) ∧
  (∀ a, (k0_off24 i k0_t1 v44) a + S1x20x64.size a ≤ S45056x20x64.size a)
instance k0_chk6.dec : ∀ (i : grid0.Coords) (k0_t1 : Fin k0_t1_loop.trips) (v44 : BitVec 32), Decidable (k0_chk6 i k0_t1 v44) := fun i k0_t1 v44 => decidable_of_iff' _ (Iff.of_eq (k0_chk6.eq_1 i k0_t1 v44))
theorem k0_off8_inb : ∀ (i : grid0.Coords) (k0_t1 : Fin k0_t1_loop.trips) (v44 : BitVec 32) (k0_hw6 : k0_chk6 i k0_t1 v44), ∀ a, (k0_off8 i k0_t1 v44) a + S1x20x64.size a ≤ S45056x20x64.size a := fun i k0_t1 v44 k0_hw6 => k0_hw6.1
theorem k0_off24_inb : ∀ (i : grid0.Coords) (k0_t1 : Fin k0_t1_loop.trips) (v44 : BitVec 32) (k0_hw6 : k0_chk6 i k0_t1 v44), ∀ a, (k0_off24 i k0_t1 v44) a + S1x20x64.size a ≤ S45056x20x64.size a := fun i k0_t1 v44 k0_hw6 => k0_hw6.2

def k0_off25 (i : grid0.Coords) (k0_t1 : Fin k0_t1_loop.trips) (v50 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v46 : BitVec 32 := Scalar.addi v2 v6
  let c6_i32 : BitVec 32 := 6#32
  let v47 : BitVec 32 := Scalar.addi v46 c6_i32
  let c11_i32_11 : BitVec 32 := 11#32
  let v48 : BitVec 32 := Scalar.muli v47 c11_i32_11
  let v51 : BitVec 32 := Scalar.addi v48 v50
  let c0_i32_224 : BitVec 32 := 0#32
  let c0_i32_225 : BitVec 32 := 0#32
  ![v51.toNat, 0, 0]

def k0_chk7 (i : grid0.Coords) (k0_t1 : Fin k0_t1_loop.trips) (v50 : BitVec 32) : Prop :=
  (∀ a, (k0_off9 i k0_t1 v50) a + S1x20x64.size a ≤ S45056x20x64.size a) ∧
  (∀ a, (k0_off25 i k0_t1 v50) a + S1x20x64.size a ≤ S45056x20x64.size a)
instance k0_chk7.dec : ∀ (i : grid0.Coords) (k0_t1 : Fin k0_t1_loop.trips) (v50 : BitVec 32), Decidable (k0_chk7 i k0_t1 v50) := fun i k0_t1 v50 => decidable_of_iff' _ (Iff.of_eq (k0_chk7.eq_1 i k0_t1 v50))
theorem k0_off9_inb : ∀ (i : grid0.Coords) (k0_t1 : Fin k0_t1_loop.trips) (v50 : BitVec 32) (k0_hw7 : k0_chk7 i k0_t1 v50), ∀ a, (k0_off9 i k0_t1 v50) a + S1x20x64.size a ≤ S45056x20x64.size a := fun i k0_t1 v50 k0_hw7 => k0_hw7.1
theorem k0_off25_inb : ∀ (i : grid0.Coords) (k0_t1 : Fin k0_t1_loop.trips) (v50 : BitVec 32) (k0_hw7 : k0_chk7 i k0_t1 v50), ∀ a, (k0_off25 i k0_t1 v50) a + S1x20x64.size a ≤ S45056x20x64.size a := fun i k0_t1 v50 k0_hw7 => k0_hw7.2

def k0_off26 (i : grid0.Coords) (k0_t1 : Fin k0_t1_loop.trips) (v56 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v52 : BitVec 32 := Scalar.addi v2 v6
  let c7_i32 : BitVec 32 := 7#32
  let v53 : BitVec 32 := Scalar.addi v52 c7_i32
  let c11_i32_12 : BitVec 32 := 11#32
  let v54 : BitVec 32 := Scalar.muli v53 c11_i32_12
  let v57 : BitVec 32 := Scalar.addi v54 v56
  let c0_i32_233 : BitVec 32 := 0#32
  let c0_i32_234 : BitVec 32 := 0#32
  ![v57.toNat, 0, 0]

def k0_chk8 (i : grid0.Coords) (k0_t1 : Fin k0_t1_loop.trips) (v56 : BitVec 32) : Prop :=
  (∀ a, (k0_off10 i k0_t1 v56) a + S1x20x64.size a ≤ S45056x20x64.size a) ∧
  (∀ a, (k0_off26 i k0_t1 v56) a + S1x20x64.size a ≤ S45056x20x64.size a)
instance k0_chk8.dec : ∀ (i : grid0.Coords) (k0_t1 : Fin k0_t1_loop.trips) (v56 : BitVec 32), Decidable (k0_chk8 i k0_t1 v56) := fun i k0_t1 v56 => decidable_of_iff' _ (Iff.of_eq (k0_chk8.eq_1 i k0_t1 v56))
theorem k0_off10_inb : ∀ (i : grid0.Coords) (k0_t1 : Fin k0_t1_loop.trips) (v56 : BitVec 32) (k0_hw8 : k0_chk8 i k0_t1 v56), ∀ a, (k0_off10 i k0_t1 v56) a + S1x20x64.size a ≤ S45056x20x64.size a := fun i k0_t1 v56 k0_hw8 => k0_hw8.1
theorem k0_off26_inb : ∀ (i : grid0.Coords) (k0_t1 : Fin k0_t1_loop.trips) (v56 : BitVec 32) (k0_hw8 : k0_chk8 i k0_t1 v56), ∀ a, (k0_off26 i k0_t1 v56) a + S1x20x64.size a ≤ S45056x20x64.size a := fun i k0_t1 v56 k0_hw8 => k0_hw8.2

def k0_off27 (i : grid0.Coords) (k0_t1 : Fin k0_t1_loop.trips) (v62 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v58 : BitVec 32 := Scalar.addi v2 v6
  let c8_i32_13 : BitVec 32 := 8#32
  let v59 : BitVec 32 := Scalar.addi v58 c8_i32_13
  let c11_i32_14 : BitVec 32 := 11#32
  let v60 : BitVec 32 := Scalar.muli v59 c11_i32_14
  let v63 : BitVec 32 := Scalar.addi v60 v62
  let c0_i32_242 : BitVec 32 := 0#32
  let c0_i32_243 : BitVec 32 := 0#32
  ![v63.toNat, 0, 0]

def k0_chk9 (i : grid0.Coords) (k0_t1 : Fin k0_t1_loop.trips) (v62 : BitVec 32) : Prop :=
  (∀ a, (k0_off11 i k0_t1 v62) a + S1x20x64.size a ≤ S45056x20x64.size a) ∧
  (∀ a, (k0_off27 i k0_t1 v62) a + S1x20x64.size a ≤ S45056x20x64.size a)
instance k0_chk9.dec : ∀ (i : grid0.Coords) (k0_t1 : Fin k0_t1_loop.trips) (v62 : BitVec 32), Decidable (k0_chk9 i k0_t1 v62) := fun i k0_t1 v62 => decidable_of_iff' _ (Iff.of_eq (k0_chk9.eq_1 i k0_t1 v62))
theorem k0_off11_inb : ∀ (i : grid0.Coords) (k0_t1 : Fin k0_t1_loop.trips) (v62 : BitVec 32) (k0_hw9 : k0_chk9 i k0_t1 v62), ∀ a, (k0_off11 i k0_t1 v62) a + S1x20x64.size a ≤ S45056x20x64.size a := fun i k0_t1 v62 k0_hw9 => k0_hw9.1
theorem k0_off27_inb : ∀ (i : grid0.Coords) (k0_t1 : Fin k0_t1_loop.trips) (v62 : BitVec 32) (k0_hw9 : k0_chk9 i k0_t1 v62), ∀ a, (k0_off27 i k0_t1 v62) a + S1x20x64.size a ≤ S45056x20x64.size a := fun i k0_t1 v62 k0_hw9 => k0_hw9.2

def k0_off28 (i : grid0.Coords) (k0_t1 : Fin k0_t1_loop.trips) (v68 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v64 : BitVec 32 := Scalar.addi v2 v6
  let c9_i32 : BitVec 32 := 9#32
  let v65 : BitVec 32 := Scalar.addi v64 c9_i32
  let c11_i32_15 : BitVec 32 := 11#32
  let v66 : BitVec 32 := Scalar.muli v65 c11_i32_15
  let v69 : BitVec 32 := Scalar.addi v66 v68
  let c0_i32_251 : BitVec 32 := 0#32
  let c0_i32_252 : BitVec 32 := 0#32
  ![v69.toNat, 0, 0]

def k0_chk10 (i : grid0.Coords) (k0_t1 : Fin k0_t1_loop.trips) (v68 : BitVec 32) : Prop :=
  (∀ a, (k0_off12 i k0_t1 v68) a + S1x20x64.size a ≤ S45056x20x64.size a) ∧
  (∀ a, (k0_off28 i k0_t1 v68) a + S1x20x64.size a ≤ S45056x20x64.size a)
instance k0_chk10.dec : ∀ (i : grid0.Coords) (k0_t1 : Fin k0_t1_loop.trips) (v68 : BitVec 32), Decidable (k0_chk10 i k0_t1 v68) := fun i k0_t1 v68 => decidable_of_iff' _ (Iff.of_eq (k0_chk10.eq_1 i k0_t1 v68))
theorem k0_off12_inb : ∀ (i : grid0.Coords) (k0_t1 : Fin k0_t1_loop.trips) (v68 : BitVec 32) (k0_hw10 : k0_chk10 i k0_t1 v68), ∀ a, (k0_off12 i k0_t1 v68) a + S1x20x64.size a ≤ S45056x20x64.size a := fun i k0_t1 v68 k0_hw10 => k0_hw10.1
theorem k0_off28_inb : ∀ (i : grid0.Coords) (k0_t1 : Fin k0_t1_loop.trips) (v68 : BitVec 32) (k0_hw10 : k0_chk10 i k0_t1 v68), ∀ a, (k0_off28 i k0_t1 v68) a + S1x20x64.size a ≤ S45056x20x64.size a := fun i k0_t1 v68 k0_hw10 => k0_hw10.2

def k0_off29 (i : grid0.Coords) (k0_t1 : Fin k0_t1_loop.trips) (v74 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v70 : BitVec 32 := Scalar.addi v2 v6
  let c10_i32 : BitVec 32 := 10#32
  let v71 : BitVec 32 := Scalar.addi v70 c10_i32
  let c11_i32_16 : BitVec 32 := 11#32
  let v72 : BitVec 32 := Scalar.muli v71 c11_i32_16
  let v75 : BitVec 32 := Scalar.addi v72 v74
  let c0_i32_260 : BitVec 32 := 0#32
  let c0_i32_261 : BitVec 32 := 0#32
  ![v75.toNat, 0, 0]

def k0_chk11 (i : grid0.Coords) (k0_t1 : Fin k0_t1_loop.trips) (v74 : BitVec 32) : Prop :=
  (∀ a, (k0_off13 i k0_t1 v74) a + S1x20x64.size a ≤ S45056x20x64.size a) ∧
  (∀ a, (k0_off29 i k0_t1 v74) a + S1x20x64.size a ≤ S45056x20x64.size a)
instance k0_chk11.dec : ∀ (i : grid0.Coords) (k0_t1 : Fin k0_t1_loop.trips) (v74 : BitVec 32), Decidable (k0_chk11 i k0_t1 v74) := fun i k0_t1 v74 => decidable_of_iff' _ (Iff.of_eq (k0_chk11.eq_1 i k0_t1 v74))
theorem k0_off13_inb : ∀ (i : grid0.Coords) (k0_t1 : Fin k0_t1_loop.trips) (v74 : BitVec 32) (k0_hw11 : k0_chk11 i k0_t1 v74), ∀ a, (k0_off13 i k0_t1 v74) a + S1x20x64.size a ≤ S45056x20x64.size a := fun i k0_t1 v74 k0_hw11 => k0_hw11.1
theorem k0_off29_inb : ∀ (i : grid0.Coords) (k0_t1 : Fin k0_t1_loop.trips) (v74 : BitVec 32) (k0_hw11 : k0_chk11 i k0_t1 v74), ∀ a, (k0_off29 i k0_t1 v74) a + S1x20x64.size a ≤ S45056x20x64.size a := fun i k0_t1 v74 k0_hw11 => k0_hw11.2

def k0_off30 (i : grid0.Coords) (k0_t1 : Fin k0_t1_loop.trips) (v80 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v76 : BitVec 32 := Scalar.addi v2 v6
  let c11_i32_17 : BitVec 32 := 11#32
  let v77 : BitVec 32 := Scalar.addi v76 c11_i32_17
  let c11_i32_18 : BitVec 32 := 11#32
  let v78 : BitVec 32 := Scalar.muli v77 c11_i32_18
  let v81 : BitVec 32 := Scalar.addi v78 v80
  let c0_i32_269 : BitVec 32 := 0#32
  let c0_i32_270 : BitVec 32 := 0#32
  ![v81.toNat, 0, 0]

def k0_chk12 (i : grid0.Coords) (k0_t1 : Fin k0_t1_loop.trips) (v80 : BitVec 32) : Prop :=
  (∀ a, (k0_off14 i k0_t1 v80) a + S1x20x64.size a ≤ S45056x20x64.size a) ∧
  (∀ a, (k0_off30 i k0_t1 v80) a + S1x20x64.size a ≤ S45056x20x64.size a)
instance k0_chk12.dec : ∀ (i : grid0.Coords) (k0_t1 : Fin k0_t1_loop.trips) (v80 : BitVec 32), Decidable (k0_chk12 i k0_t1 v80) := fun i k0_t1 v80 => decidable_of_iff' _ (Iff.of_eq (k0_chk12.eq_1 i k0_t1 v80))
theorem k0_off14_inb : ∀ (i : grid0.Coords) (k0_t1 : Fin k0_t1_loop.trips) (v80 : BitVec 32) (k0_hw12 : k0_chk12 i k0_t1 v80), ∀ a, (k0_off14 i k0_t1 v80) a + S1x20x64.size a ≤ S45056x20x64.size a := fun i k0_t1 v80 k0_hw12 => k0_hw12.1
theorem k0_off30_inb : ∀ (i : grid0.Coords) (k0_t1 : Fin k0_t1_loop.trips) (v80 : BitVec 32) (k0_hw12 : k0_chk12 i k0_t1 v80), ∀ a, (k0_off30 i k0_t1 v80) a + S1x20x64.size a ≤ S45056x20x64.size a := fun i k0_t1 v80 k0_hw12 => k0_hw12.2

def k0_off31 (i : grid0.Coords) (k0_t1 : Fin k0_t1_loop.trips) (v86 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v82 : BitVec 32 := Scalar.addi v2 v6
  let c12_i32 : BitVec 32 := 12#32
  let v83 : BitVec 32 := Scalar.addi v82 c12_i32
  let c11_i32_19 : BitVec 32 := 11#32
  let v84 : BitVec 32 := Scalar.muli v83 c11_i32_19
  let v87 : BitVec 32 := Scalar.addi v84 v86
  let c0_i32_278 : BitVec 32 := 0#32
  let c0_i32_279 : BitVec 32 := 0#32
  ![v87.toNat, 0, 0]

def k0_chk13 (i : grid0.Coords) (k0_t1 : Fin k0_t1_loop.trips) (v86 : BitVec 32) : Prop :=
  (∀ a, (k0_off15 i k0_t1 v86) a + S1x20x64.size a ≤ S45056x20x64.size a) ∧
  (∀ a, (k0_off31 i k0_t1 v86) a + S1x20x64.size a ≤ S45056x20x64.size a)
instance k0_chk13.dec : ∀ (i : grid0.Coords) (k0_t1 : Fin k0_t1_loop.trips) (v86 : BitVec 32), Decidable (k0_chk13 i k0_t1 v86) := fun i k0_t1 v86 => decidable_of_iff' _ (Iff.of_eq (k0_chk13.eq_1 i k0_t1 v86))
theorem k0_off15_inb : ∀ (i : grid0.Coords) (k0_t1 : Fin k0_t1_loop.trips) (v86 : BitVec 32) (k0_hw13 : k0_chk13 i k0_t1 v86), ∀ a, (k0_off15 i k0_t1 v86) a + S1x20x64.size a ≤ S45056x20x64.size a := fun i k0_t1 v86 k0_hw13 => k0_hw13.1
theorem k0_off31_inb : ∀ (i : grid0.Coords) (k0_t1 : Fin k0_t1_loop.trips) (v86 : BitVec 32) (k0_hw13 : k0_chk13 i k0_t1 v86), ∀ a, (k0_off31 i k0_t1 v86) a + S1x20x64.size a ≤ S45056x20x64.size a := fun i k0_t1 v86 k0_hw13 => k0_hw13.2

def k0_off32 (i : grid0.Coords) (k0_t1 : Fin k0_t1_loop.trips) (v92 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v88 : BitVec 32 := Scalar.addi v2 v6
  let c13_i32 : BitVec 32 := 13#32
  let v89 : BitVec 32 := Scalar.addi v88 c13_i32
  let c11_i32_20 : BitVec 32 := 11#32
  let v90 : BitVec 32 := Scalar.muli v89 c11_i32_20
  let v93 : BitVec 32 := Scalar.addi v90 v92
  let c0_i32_287 : BitVec 32 := 0#32
  let c0_i32_288 : BitVec 32 := 0#32
  ![v93.toNat, 0, 0]

def k0_chk14 (i : grid0.Coords) (k0_t1 : Fin k0_t1_loop.trips) (v92 : BitVec 32) : Prop :=
  (∀ a, (k0_off16 i k0_t1 v92) a + S1x20x64.size a ≤ S45056x20x64.size a) ∧
  (∀ a, (k0_off32 i k0_t1 v92) a + S1x20x64.size a ≤ S45056x20x64.size a)
instance k0_chk14.dec : ∀ (i : grid0.Coords) (k0_t1 : Fin k0_t1_loop.trips) (v92 : BitVec 32), Decidable (k0_chk14 i k0_t1 v92) := fun i k0_t1 v92 => decidable_of_iff' _ (Iff.of_eq (k0_chk14.eq_1 i k0_t1 v92))
theorem k0_off16_inb : ∀ (i : grid0.Coords) (k0_t1 : Fin k0_t1_loop.trips) (v92 : BitVec 32) (k0_hw14 : k0_chk14 i k0_t1 v92), ∀ a, (k0_off16 i k0_t1 v92) a + S1x20x64.size a ≤ S45056x20x64.size a := fun i k0_t1 v92 k0_hw14 => k0_hw14.1
theorem k0_off32_inb : ∀ (i : grid0.Coords) (k0_t1 : Fin k0_t1_loop.trips) (v92 : BitVec 32) (k0_hw14 : k0_chk14 i k0_t1 v92), ∀ a, (k0_off32 i k0_t1 v92) a + S1x20x64.size a ≤ S45056x20x64.size a := fun i k0_t1 v92 k0_hw14 => k0_hw14.2

def k0_off33 (i : grid0.Coords) (k0_t1 : Fin k0_t1_loop.trips) (v98 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v94 : BitVec 32 := Scalar.addi v2 v6
  let c14_i32 : BitVec 32 := 14#32
  let v95 : BitVec 32 := Scalar.addi v94 c14_i32
  let c11_i32_21 : BitVec 32 := 11#32
  let v96 : BitVec 32 := Scalar.muli v95 c11_i32_21
  let v99 : BitVec 32 := Scalar.addi v96 v98
  let c0_i32_296 : BitVec 32 := 0#32
  let c0_i32_297 : BitVec 32 := 0#32
  ![v99.toNat, 0, 0]

def k0_chk15 (i : grid0.Coords) (k0_t1 : Fin k0_t1_loop.trips) (v98 : BitVec 32) : Prop :=
  (∀ a, (k0_off17 i k0_t1 v98) a + S1x20x64.size a ≤ S45056x20x64.size a) ∧
  (∀ a, (k0_off33 i k0_t1 v98) a + S1x20x64.size a ≤ S45056x20x64.size a)
instance k0_chk15.dec : ∀ (i : grid0.Coords) (k0_t1 : Fin k0_t1_loop.trips) (v98 : BitVec 32), Decidable (k0_chk15 i k0_t1 v98) := fun i k0_t1 v98 => decidable_of_iff' _ (Iff.of_eq (k0_chk15.eq_1 i k0_t1 v98))
theorem k0_off17_inb : ∀ (i : grid0.Coords) (k0_t1 : Fin k0_t1_loop.trips) (v98 : BitVec 32) (k0_hw15 : k0_chk15 i k0_t1 v98), ∀ a, (k0_off17 i k0_t1 v98) a + S1x20x64.size a ≤ S45056x20x64.size a := fun i k0_t1 v98 k0_hw15 => k0_hw15.1
theorem k0_off33_inb : ∀ (i : grid0.Coords) (k0_t1 : Fin k0_t1_loop.trips) (v98 : BitVec 32) (k0_hw15 : k0_chk15 i k0_t1 v98), ∀ a, (k0_off33 i k0_t1 v98) a + S1x20x64.size a ≤ S45056x20x64.size a := fun i k0_t1 v98 k0_hw15 => k0_hw15.2

def k0_off34 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v362 : BitVec 32 := Scalar.addi v2 v6
  let c0_i32_311_r1 : BitVec 32 := 0#32
  let c0_i32_312_r1 : BitVec 32 := 0#32
  ![v362.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x11x20x64_S45056x20x64 : S4096x11x20x64.ShapeCasts S45056x20x64
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S16x20x64_S1x20x64_0_0_0 : ∀ a, (![0, 0, 0] : Fin 3 → Nat) a + S1x20x64.size a ≤ S16x20x64.size a
  squeezes_S1x20x64_S20x64 : S1x20x64.Squeezes S20x64
  inb_S16x20x64_S1x20x64_1_0_0 : ∀ a, (![1, 0, 0] : Fin 3 → Nat) a + S1x20x64.size a ≤ S16x20x64.size a
  inb_S16x20x64_S1x20x64_2_0_0 : ∀ a, (![2, 0, 0] : Fin 3 → Nat) a + S1x20x64.size a ≤ S16x20x64.size a
  inb_S16x20x64_S1x20x64_3_0_0 : ∀ a, (![3, 0, 0] : Fin 3 → Nat) a + S1x20x64.size a ≤ S16x20x64.size a
  inb_S16x20x64_S1x20x64_4_0_0 : ∀ a, (![4, 0, 0] : Fin 3 → Nat) a + S1x20x64.size a ≤ S16x20x64.size a
  inb_S16x20x64_S1x20x64_5_0_0 : ∀ a, (![5, 0, 0] : Fin 3 → Nat) a + S1x20x64.size a ≤ S16x20x64.size a
  inb_S16x20x64_S1x20x64_6_0_0 : ∀ a, (![6, 0, 0] : Fin 3 → Nat) a + S1x20x64.size a ≤ S16x20x64.size a
  inb_S16x20x64_S1x20x64_7_0_0 : ∀ a, (![7, 0, 0] : Fin 3 → Nat) a + S1x20x64.size a ≤ S16x20x64.size a
  inb_S16x20x64_S1x20x64_8_0_0 : ∀ a, (![8, 0, 0] : Fin 3 → Nat) a + S1x20x64.size a ≤ S16x20x64.size a
  inb_S16x20x64_S1x20x64_9_0_0 : ∀ a, (![9, 0, 0] : Fin 3 → Nat) a + S1x20x64.size a ≤ S16x20x64.size a
  inb_S16x20x64_S1x20x64_10_0_0 : ∀ a, (![10, 0, 0] : Fin 3 → Nat) a + S1x20x64.size a ≤ S16x20x64.size a
  inb_S16x20x64_S1x20x64_11_0_0 : ∀ a, (![11, 0, 0] : Fin 3 → Nat) a + S1x20x64.size a ≤ S16x20x64.size a
  inb_S16x20x64_S1x20x64_12_0_0 : ∀ a, (![12, 0, 0] : Fin 3 → Nat) a + S1x20x64.size a ≤ S16x20x64.size a
  inb_S16x20x64_S1x20x64_13_0_0 : ∀ a, (![13, 0, 0] : Fin 3 → Nat) a + S1x20x64.size a ≤ S16x20x64.size a
  inb_S16x20x64_S1x20x64_14_0_0 : ∀ a, (![14, 0, 0] : Fin 3 → Nat) a + S1x20x64.size a ≤ S16x20x64.size a
  inb_S16x20x64_S1x20x64_15_0_0 : ∀ a, (![15, 0, 0] : Fin 3 → Nat) a + S1x20x64.size a ≤ S16x20x64.size a
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_t1_ok : k0_t1_loop.OK
  k0_off2_inb : ∀ k0_t1 : Fin k0_t1_loop.trips, ∀ a, (k0_off2 k0_t1) a + S16.size a ≤ S128.size a
  k0_off34_inb : ∀ (i : grid0.Coords) (k0_t1 : Fin k0_t1_loop.trips), ∀ a, (k0_off34 i k0_t1) a + S16x20x64.size a ≤ S4096x20x64.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096x20x64 : Shape := ⟨3, ![4096, 20, 64]⟩
abbrev S4096x64 : Shape := ⟨2, ![4096, 64]⟩
abbrev S4096 : Shape := ⟨1, ![4096]⟩
abbrev S4096x11x20x64 : Shape := ⟨4, ![4096, 11, 20, 64]⟩
abbrev S4096x1x1x1 : Shape := ⟨4, ![4096, 1, 1, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x1 : Shape := ⟨2, ![4096, 1]⟩
abbrev S4096x1x20x64 : Shape := ⟨4, ![4096, 1, 20, 64]⟩

abbrev nBuf : Space → Nat
  | .hbm => 30
  | .vmem => 0
  | .smem => 0
  | _ => 0

abbrev bufTy : (tb : Table) → Fin (tcTables nBuf tb) → BufTy
  | .hbm, ⟨0, _⟩ => ⟨S4096x20x64, .f32⟩
  | .hbm, ⟨1, _⟩ => ⟨S4096x64, .f32⟩
  | .hbm, ⟨2, _⟩ => ⟨S4096, .i32⟩
  | .hbm, ⟨3, _⟩ => ⟨S4096x11x20x64, .f32⟩
  | .hbm, ⟨4, _⟩ => ⟨S4096, .i32⟩
  | .hbm, ⟨5, _⟩ => ⟨S4096x1x1x1, .i32⟩
  | .hbm, ⟨6, _⟩ => ⟨S_, .i32⟩
  | .hbm, ⟨7, _⟩ => ⟨S4096x1x1x1, .i32⟩
  | .hbm, ⟨8, _⟩ => ⟨S4096x1x1x1, .i1⟩
  | .hbm, ⟨9, _⟩ => ⟨S_, .i32⟩
  | .hbm, ⟨10, _⟩ => ⟨S4096x1x1x1, .i32⟩
  | .hbm, ⟨11, _⟩ => ⟨S4096x1x1x1, .i32⟩
  | .hbm, ⟨12, _⟩ => ⟨S4096x1x1x1, .i32⟩
  | .hbm, ⟨13, _⟩ => ⟨S4096x1x1, .i32⟩
  | .hbm, ⟨14, _⟩ => ⟨S1, .i32⟩
  | .hbm, ⟨15, _⟩ => ⟨S_, .i32⟩
  | .hbm, ⟨16, _⟩ => ⟨S4096x1x1, .i32⟩
  | .hbm, ⟨17, _⟩ => ⟨S4096x1x1, .i1⟩
  | .hbm, ⟨18, _⟩ => ⟨S1x1x1, .i32⟩
  | .hbm, ⟨19, _⟩ => ⟨S4096x1x1, .i32⟩
  | .hbm, ⟨20, _⟩ => ⟨S4096x1x1, .i1⟩
  | .hbm, ⟨21, _⟩ => ⟨S4096x1x1, .i1⟩
  | .hbm, ⟨22, _⟩ => ⟨S_, .i1⟩
  | .hbm, ⟨23, _⟩ => ⟨S4096x1, .i1⟩
  | .hbm, ⟨24, _⟩ => ⟨S4096x1x20x64, .f32⟩
  | .hbm, ⟨25, _⟩ => ⟨S4096x1x20x64, .i1⟩
  | .hbm, ⟨26, _⟩ => ⟨S_, .f32⟩
  | .hbm, ⟨27, _⟩ => ⟨S4096x1x20x64, .f32⟩
  | .hbm, ⟨28, _⟩ => ⟨S4096x1x20x64, .f32⟩
  | .hbm, ⟨29, _⟩ => ⟨S4096x20x64, .f32⟩
  | _, _ => ⟨S4096x20x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩

abbrev nD : Nat := 1
abbrev τ : Topo := Topo.v7x

variable {F : FTy → Type} [FloatOps F]

class Facts₀ : Prop where
  bcast_S4096_S4096x1x1x1_0 : S4096.BroadcastsInDim S4096x1x1x1 (![0] : Fin 1 → Fin S4096x1x1x1.rank)
  bcast_S_S4096x1x1x1 : S_.BroadcastsInDim S4096x1x1x1 (![] : Fin 0 → Fin S4096x1x1x1.rank)
  shapeCasts_S4096x1x1x1_S4096x1x1 : S4096x1x1x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S4096x1_S4096x1x20x64_0_1 : S4096x1.BroadcastsInDim S4096x1x20x64 (![0, 1] : Fin 2 → Fin S4096x1x20x64.rank)
  bcast_S_S4096x1x20x64 : S_.BroadcastsInDim S4096x1x20x64 (![] : Fin 0 → Fin S4096x1x20x64.rank)
  shapeCasts_S4096x1x20x64_S4096x20x64 : S4096x1x20x64.ShapeCasts S4096x20x64
  gather_S4096x11x20x64_S4096x1x1_S4096x1x20x64_23_1_0_0_1_2_112064_wf : GatherDims.WF S4096x11x20x64 S4096x1x1 S4096x1x20x64 [2, 3] [1] [0] [1] [0] 2 ![1, 1, 20, 64]

variable [Facts₀]

def gather_S4096x11x20x64_S4096x1x1_S4096x1x20x64_23_1_0_0_1_2_112064 : GatherDims S4096x11x20x64 S4096x1x1 S4096x1x20x64 where
  offsetDims := [2, 3]
  collapsedSliceDims := [1]
  operandBatchingDims := [0]
  startIndicesBatchingDims := [0]
  startIndexMap := [1]
  indexVectorDim := 2
  sliceSizes := ![1, 1, 20, 64]
  wf := gather_S4096x11x20x64_S4096x1x1_S4096x1x20x64_23_1_0_0_1_2_112064_wf

class Facts : Prop extends Facts₀ where

variable [Facts]
-- ==== Proof.Spec.lean ====
/-
  The specification both programs meet: the result's row `b` is row `(b, step b)` of the weights, where `step b` is the
  word the steps array holds at `b`. The step is read modulo eleven so that the function is total; where every step is
  at most ten (`StepsOK`) the reduction is the identity.
-/
import Idealize.ShloMosaic.Lib.ValueIdx
import Idealize.ShloMosaic.PureOps

namespace Cert.Spec

open Idealize.ShloMosaic Idealize.ShloMosaic.ValueIdx

/-- The steps array's words all name one of the eleven steps. -/
def StepsOK (s : (⟨1, ![4096]⟩ : Shape).Idx → BitVec 32) : Prop := ∀ b : Fin 4096, (s (ix1 b)).toNat ≤ 10

/-- The step of batch element `b`, as an index into the axis of eleven steps. -/
def stepOf (s : (⟨1, ![4096]⟩ : Shape).Idx → BitVec 32) (b : Fin 4096) : Fin 11 :=
  ⟨(s (ix1 b)).toNat % 11, Nat.mod_lt _ (by decide)⟩

theorem stepOf_val {s : (⟨1, ![4096]⟩ : Shape).Idx → BitVec 32} (h : StepsOK s) (b : Fin 4096) :
    (stepOf s b).val = (s (ix1 b)).toNat := Nat.mod_eq_of_lt (Nat.lt_succ_of_le (h b))

/-- Row `b` of the result is row `(b, step b)` of the weights. -/
def gathered {α : Type} (w : (⟨4, ![4096, 11, 20, 64]⟩ : Shape).Idx → α) (s : (⟨1, ![4096]⟩ : Shape).Idx → BitVec 32) :
    (⟨3, ![4096, 20, 64]⟩ : Shape).Idx → α :=
  fun j => w (ix4 (j 0) (stepOf s (j 0)) (j 1) (j 2))

end Cert.Spec
-- ==== Proof.PreSteps.lean ====
/-
  The precondition gives the steps' range. The input-domain predicate is a conjunction of conditions that hold at every index, each a
  reduction by `and` over every axis of a one-bit array; that it is 1 says each conjunct is 1, and a full reduction by `and` that is 1
  met a 1 at every index. The two conjuncts over the steps array say `0 ≤ steps[b]` and `steps[b] ≤ 10`, compared signed;
  a 32-bit word that is nonnegative signed reads the same unsigned, so `steps[b]` is at most ten as a natural number.
  Generic in the float instance: the float conjuncts are split off and never read.
-/
import proofs.«205373_g65798898975314_cont_9to1c4b_285_22_alg».proof.Pre_input_domain
import proofs.«205373_g65798898975314_cont_9to1c4b_285_22_alg».proof.Proof.Spec
import Idealize.ShloMosaic.Lib.ReduceAll
import Idealize.ShloMosaic.Lib.ValueIdx

namespace Cert.Proof.PreSteps

open Idealize.ShloMosaic Idealize.ShloMosaic.ValueIdx

/-- The scalar shape has one index. -/
instance subsingleton_scalar_idx : Subsingleton Cert.Pre_input_domain.S_.Idx := ⟨fun a b => funext fun d => d.elim0⟩

/-- A 32-bit word that is between 0 and 10 as a signed integer is at most 10 as a natural number. -/
theorem toNat_le_ten (v : BitVec 32) (h0 : IntOp.cmpi .sge v 0#32 = 1#1) (h10 : IntOp.cmpi .sle v 10#32 = 1#1) :
    v.toNat ≤ 10 := by
  rw [IntOp.cmpi_sge, show (0#32 : BitVec 32).toInt = 0 from by decide] at h0
  rw [IntOp.cmpi_sle, show (10#32 : BitVec 32).toInt = 10 from by decide] at h10
  have hlt := v.isLt
  rw [BitVec.toInt_eq_toNat_cond] at h0 h10
  by_cases hc : 2 * v.toNat < 2 ^ 32
  · rw [if_pos hc] at h10
    omega
  · rw [if_neg hc] at h0
    omega

/-- The precondition decoded at the steps array: every word names one of the eleven steps. -/
theorem steps_ok {F : FTy → Type} [FloatOps F] [Cert.Pre_input_domain.Facts]
    (a0 : FVec F Cert.Pre_input_domain.S4096x20x64 .f32) (a1 : FVec F Cert.Pre_input_domain.S4096x64 .f32)
    (a2 : IVec Cert.Pre_input_domain.S4096 32)
    (a3 : FVec F Cert.Pre_input_domain.S4096x11x20x64 .f32) (a4 : IVec Cert.Pre_input_domain.S4096 32)
    (h : Cert.Pre_input_domain.fn (F := F) a0 a1 a2 a3 a4 = fun _ => 1#1) : Cert.Spec.StepsOK a2 := by
  intro b
  have e := congrFun h ix0
  dsimp only [Cert.Pre_input_domain.fn, Cert.Pre_input_domain.fn_part1] at e
  -- the conjunction, split down to the conjunct over the steps array
  obtain ⟨e1, -⟩ := IntOp.andi_eq_one.1 e
  obtain ⟨-, e2⟩ := IntOp.andi_eq_one.1 e1
  -- a full reduction by `and` that is 1 has a 1 at every index
  have e3 := Host.reduce_andi_all _ _ _ _ ix0 e2 (ix1 b)
  obtain ⟨h0, h10⟩ := IntOp.andi_eq_one.1 e3
  exact toNat_le_ten _ h0 h10

end Cert.Proof.PreSteps
-- ==== Proof.RefSide.lean ====
/-
  The reference's run, its result named by the specification. Where every step is at most ten, the reference's composed
  term for the result, read at an index `(b, r, l)`, is the weights at `(b, step b, r, l)`: a nonnegative step is not
  wrapped; a step between 0 and 10 passes the range mask, so the select takes the gathered value and never the fill; and
  the gather reads, in batch row `b`, the row its start index names, which the clamp to `[0, 10]` leaves alone.
-/
import proofs.«205373_g65798898975314_cont_9to1c4b_285_22_alg».proof.Proof.Gen.ReferenceIdeal.Read
import proofs.«205373_g65798898975314_cont_9to1c4b_285_22_alg».proof.Proof.Spec
import Idealize.ShloMosaic.Lib.ValueIdx
import Idealize.ShloMosaic.Lib.Affine
import Idealize.ShloMosaic.PureOps.Reduce

noncomputable section

namespace Cert.Proof.RefSide

open Idealize.ShloMosaic Idealize.SL.Sem
open Cert.ReferenceIdeal Cert.ReferenceIdeal.Gen Cert.ReferenceIdeal.Read Idealize.ShloMosaic.TcCoe Idealize.ShloMosaic.ValueIdx

variable {F : FTy → Type} [FloatOps F]

/-! ## Words -/

/-- A word that is at most ten unsigned is not negative signed. -/
theorem slt_zero_of_le_ten {v : BitVec 32} (h : v.toNat ≤ 10) : IntOp.cmpi .slt v 0#32 = 0#1 := by
  have hv : v.toInt = v.toNat := BitVec.toInt_eq_toNat_of_lt (by omega)
  refine eq_zero_of_ne_one fun e => ?_
  rw [IntOp.cmpi_slt, hv, show (0#32 : BitVec 32).toInt = 0 from by decide] at e
  omega

/-- A word that is at most ten unsigned passes the range mask `0 ≤ v ≤ 10`, compared signed. -/
theorem mask_of_le_ten {v : BitVec 32} (h : v.toNat ≤ 10) :
    IntOp.andi (IntOp.cmpi .sge v 0#32) (IntOp.cmpi .sle v 10#32) = 1#1 := by
  have hv : v.toInt = v.toNat := BitVec.toInt_eq_toNat_of_lt (by omega)
  refine IntOp.andi_eq_one.2 ⟨IntOp.cmpi_sge.2 ?_, IntOp.cmpi_sle.2 ?_⟩
  · rw [hv, show (0#32 : BitVec 32).toInt = 0 from by decide]; omega
  · rw [hv, show (10#32 : BitVec 32).toInt = 10 from by decide]; omega

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-- A reduction by `and` from 1 of an array of ones is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The stages, read at an index where every step is at most ten -/

/-- Every word of a steps array that is in range is at most ten, at any index. -/
theorem le_ten {x2 : S4096.Idx → BitVec 32} (hs : Cert.Spec.StepsOK x2) (k : S4096.Idx) : (x2 k).toNat ≤ 10 := by
  have e : (x2 (ix1 (k 0))).toNat ≤ 10 := hs (k 0)
  rw [eq_ix1 k]
  exact e

/-- The wrap of a negative step by eleven leaves a step in range alone. -/
theorem v4_apply {x2 : S4096.Idx → BitVec 32} (hs : Cert.Spec.StepsOK x2) (i : S4096x1x1x1.Idx) :
    val_main_call0_v4 (F := F) x2 i = x2 (idx_main_v0 i) := by
  rw [val_main_call0_v4_apply, val_main_call0_v1_apply, val_main_v0_apply, val_main_call0_v0_apply, val_main_call0_c_apply,
    slt_zero_of_le_ten (le_ten hs _), select_zero]

/-- The start indices are the steps. -/
theorem v5_apply {x2 : S4096.Idx → BitVec 32} (hs : Cert.Spec.StepsOK x2) (i : S4096x1x1.Idx) :
    val_main_call0_v5 (F := F) x2 i = x2 (idx_main_v0 (idx_main_call0_v5 i)) := by
  rw [val_main_call0_v5_apply, v4_apply hs]

/-- The range mask is 1 at every index. -/
theorem v11_apply {x2 : S4096.Idx → BitVec 32} (hs : Cert.Spec.StepsOK x2) (i : S4096x1x1.Idx) :
    val_main_call0_v11 (F := F) x2 i = 1#1 := by
  rw [val_main_call0_v11_apply, val_main_call0_v7_apply, val_main_call0_v10_apply, v5_apply hs, val_main_call0_v6_apply,
    val_main_call0_c_2_apply, val_main_call0_v9_apply, val_main_call0_v8_apply, val_main_call0_c_1_apply]
  exact mask_of_le_ten (le_ten hs _)

/-- So is its reduction over the size-one axis. -/
theorem v12_apply {x2 : S4096.Idx → BitVec 32} (hs : Cert.Spec.StepsOK x2) (k : S4096x1.Idx) :
    val_main_call0_v12 (F := F) x2 k = 1#1 := by
  unfold val_main_call0_v12
  exact reduce_andi_one _ _ _ _ (v11_apply hs) rfl k

/-! ## The gather, read at an index -/

/-- The start-indices index `[b, q, 0]` of result index `(b, q, r, l)`. -/
abbrev sidx (y : S4096x1x20x64.Idx) : S4096x1x1.Idx := fun a => match a with
  | ⟨0, _⟩ => ⟨(y 0).val, (y 0).isLt⟩
  | ⟨1, _⟩ => ⟨(y 1).val, (y 1).isLt⟩
  | ⟨2, _⟩ => ⟨0, Nat.one_pos⟩

/-- The reference's gather: batch axis 0 of the weights against batch axis 0 of the start indices, the start index naming
    the row on axis 1 (collapsed), axes 2 and 3 read whole. -/
abbrev gd : GatherDims S4096x11x20x64 S4096x1x1 S4096x1x20x64 :=
  gather_S4096x11x20x64_S4096x1x1_S4096x1x20x64_23_1_0_0_1_2_112064

theorem operandIdx_val0 (idx : IVec S4096x1x1 32) (y : S4096x1x20x64.Idx) :
    (gd.operandIdx y idx ⟨0, by decide⟩).val = (y 0).val := by
  show gd.start y idx _ + gd.batchCoord y _ + gd.offCoord y _ = _
  have h1 : gd.start y idx ⟨0, by decide⟩ = 0 := rfl
  have h2 : gd.batchCoord y ⟨0, by decide⟩ = (y 0).val := rfl
  have h3 : gd.offCoord y ⟨0, by decide⟩ = 0 := rfl
  rw [h1, h2, h3]; omega

theorem operandIdx_val2 (idx : IVec S4096x1x1 32) (y : S4096x1x20x64.Idx) :
    (gd.operandIdx y idx ⟨2, by decide⟩).val = (y 2).val := by
  show gd.start y idx _ + gd.batchCoord y _ + gd.offCoord y _ = _
  have h1 : gd.start y idx ⟨2, by decide⟩ = 0 := rfl
  have h2 : gd.batchCoord y ⟨2, by decide⟩ = 0 := rfl
  have h3 : gd.offCoord y ⟨2, by decide⟩ = (y 2).val := rfl
  rw [h1, h2, h3]; omega

theorem operandIdx_val3 (idx : IVec S4096x1x1 32) (y : S4096x1x20x64.Idx) :
    (gd.operandIdx y idx ⟨3, by decide⟩).val = (y 3).val := by
  show gd.start y idx _ + gd.batchCoord y _ + gd.offCoord y _ = _
  have h1 : gd.start y idx ⟨3, by decide⟩ = 0 := rfl
  have h2 : gd.batchCoord y ⟨3, by decide⟩ = 0 := rfl
  have h3 : gd.offCoord y ⟨3, by decide⟩ = (y 3).val := rfl
  rw [h1, h2, h3]; omega

theorem siIdx_eq (y : S4096x1x20x64.Idx) (c : Fin gd.startIndexMap.length) : gd.siIdx y c = sidx y := by
  funext b
  refine Fin.ext ?_
  match b with
  | ⟨0, _⟩ => rfl
  | ⟨1, _⟩ => rfl
  | ⟨2, _⟩ =>
    have := c.isLt
    have hl : gd.startIndexMap.length = 1 := rfl
    show c.val = 0
    omega

theorem operandIdx_val1 (idx : IVec S4096x1x1 32) (y : S4096x1x20x64.Idx) :
    (gd.operandIdx y idx ⟨1, by decide⟩).val = min (idx (sidx y)).toInt.toNat 10 := by
  show gd.start y idx _ + gd.batchCoord y _ + gd.offCoord y _ = _
  have h2 : gd.batchCoord y ⟨1, by decide⟩ = 0 := rfl
  have h3 : gd.offCoord y ⟨1, by decide⟩ = 0 := rfl
  have h1 : gd.start y idx ⟨1, by decide⟩
      = min (idx (gd.siIdx y ⟨0, by decide⟩)).toInt.toNat 10 := rfl
  rw [h1, h2, h3, siIdx_eq]; omega

/-! ## The reference's result is the specification's -/

/-- The steps index the chain of layout operations reads for result index `j` is `j`'s batch coordinate. -/
theorem steps_idx (j : S4096x20x64.Idx) : idx_main_v0 (idx_main_call0_v5 (sidx (idx_main_v2 j))) = ix1 (j 0) := by
  have h0 : (j 0).val < 4096 := (j 0).isLt
  have h1 : (j 1).val < 20 := (j 1).isLt
  have h2 : (j 2).val < 64 := (j 2).isLt
  funext d
  refine Fin.ext ?_
  match d with
  | ⟨0, _⟩ =>
    show (((((j 0).val * 20 + (j 1).val) * 64 + (j 2).val) / 1280 * 1 + 0) * 1 + 0) / 1 = (j 0).val
    omega

/-- Where every step is at most ten, the reference's value at `(b, r, l)` is the weights at `(b, step b, r, l)`. -/
theorem ref_apply (x2 : S4096.Idx → BitVec 32) (x3 : S4096x11x20x64.Idx → F .f32) (hs : Cert.Spec.StepsOK x2)
    (j : S4096x20x64.Idx) : val_main_v2 (F := F) x2 x3 j = Cert.Spec.gathered x3 x2 j := by
  rw [val_main_v2_apply, val_main_v1_apply, val_main_call0_v14_apply, v12_apply hs, select_one]
  unfold val_main_call0_v13 Host.gather
  show x3 _ = x3 _
  congr 1
  have h0 : (j 0).val < 4096 := (j 0).isLt
  have h1 : (j 1).val < 20 := (j 1).isLt
  have h2 : (j 2).val < 64 := (j 2).isLt
  funext a
  refine Fin.ext ?_
  match a with
  | ⟨0, _⟩ =>
    rw [operandIdx_val0]
    show (((j 0).val * 20 + (j 1).val) * 64 + (j 2).val) / 1280 = (j 0).val
    omega
  | ⟨1, _⟩ =>
    have hb : (x2 (ix1 (j 0))).toNat ≤ 10 := hs (j 0)
    have hstep : (Cert.Spec.stepOf x2 (j 0)).val = (x2 (ix1 (j 0))).toNat := Cert.Spec.stepOf_val hs (j 0)
    have hint : (x2 (ix1 (j 0))).toInt = ((x2 (ix1 (j 0))).toNat : Int) := BitVec.toInt_eq_toNat_of_lt (by omega)
    rw [operandIdx_val1, v5_apply hs, steps_idx]
    show min (x2 (ix1 (j 0))).toInt.toNat 10 = (Cert.Spec.stepOf x2 (j 0)).val
    rw [hstep, hint, Int.toNat_natCast]
    omega
  | ⟨2, _⟩ =>
    rw [operandIdx_val2]
    show (((j 0).val * 20 + (j 1).val) * 64 + (j 2).val) / 64 % 20 = (j 1).val
    omega
  | ⟨3, _⟩ =>
    rw [operandIdx_val3]
    show (((j 0).val * 20 + (j 1).val) * 64 + (j 2).val) % 64 = (j 2).val
    omega

/-- The same, as arrays. -/
theorem ref_eq (x2 : S4096.Idx → BitVec 32) (x3 : S4096x11x20x64.Idx → F .f32) (hs : Cert.Spec.StepsOK x2) :
    val_main_v2 (F := F) x2 x3 = Cert.Spec.gathered x3 x2 :=
  funext (ref_apply x2 x3 hs)

/-! ## The run -/

/-- The reference's run with its result named by the specification: on every device, from any memory whose steps array
    is in range, every weakly fair execution of the reference terminates with the result array at the specification's
    gather of the weights by the steps, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg)
    (hs : ∀ c : Dev Cert.ReferenceIdeal.nD, Cert.Spec.StepsOK
      (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ Cert.ReferenceIdeal.τ).loc Cert.ReferenceIdeal.main_v2)
          = Cert.Spec.gathered (m ((c.tc : Thread _ Cert.ReferenceIdeal.τ).loc Cert.ReferenceIdeal.main_arg3))
              (m ((c.tc : Thread _ Cert.ReferenceIdeal.τ).loc Cert.ReferenceIdeal.main_arg2))
        ∧ r.2.mem ((c.tc : Thread _ Cert.ReferenceIdeal.τ).loc Cert.ReferenceIdeal.main_arg4) = m ((c.tc : Thread _ Cert.ReferenceIdeal.τ).loc Cert.ReferenceIdeal.main_arg4)
        ∧ r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)
        ∧ r.2.mem ((c.tc : Thread _ Cert.ReferenceIdeal.τ).loc Cert.ReferenceIdeal.main_arg2) = m ((c.tc : Thread _ Cert.ReferenceIdeal.τ).loc Cert.ReferenceIdeal.main_arg2)
        ∧ r.2.mem ((c.tc : Thread _ Cert.ReferenceIdeal.τ).loc Cert.ReferenceIdeal.main_arg3) = m ((c.tc : Thread _ Cert.ReferenceIdeal.τ).loc Cert.ReferenceIdeal.main_arg3)
        ∧ r.2.mem ((c.tc : Thread _ Cert.ReferenceIdeal.τ).loc Cert.ReferenceIdeal.main_arg4) = m ((c.tc : Thread _ Cert.ReferenceIdeal.τ).loc Cert.ReferenceIdeal.main_arg4)) :=
  (θ_run _ _ _).mono
    (fun _ h c => ⟨(h c).1.trans ((val_main_v2_eq (F := Ideal) _ _).trans (ref_eq (F := Ideal) _ _ (hs c))), (h c).2⟩)
    (Cert.ReferenceIdeal.Value.run (F := Ideal) m ρ)

end Cert.Proof.RefSide

end
-- ==== Proof.Reshape.lean ====
/-
  The flattened table read at row `11 b + step b` is the weights read at `(b, step b)`: reshaping `[4096, 11, 20, 64]` to
  `[45056, 20, 64]` keeps the row-major position, and `((b · 11 + t) · 20 + r) · 64 + l` is the position of both
  `(b, t, r, l)` and `(11 b + t, r, l)`.
-/
import proofs.«205373_g65798898975314_cont_9to1c4b_285_22_alg».proof.Proof.Spec
import Idealize.ShloMosaic.Lib.Pipeline.Value
import Idealize.ShloMosaic.Lib.ValueIdx
import Idealize.ShloMosaic.PureOps

namespace Cert.Proof.Reshape

open Idealize.ShloMosaic Idealize.ShloMosaic.ValueIdx

/-- Row `b` of the result read off the flattened table at row `11 b + step b` is the specification's gather. -/
theorem rows_eq_gathered {α : Type} (w : (⟨4, ![4096, 11, 20, 64]⟩ : Shape).Idx → α)
    (s : (⟨1, ![4096]⟩ : Shape).Idx → BitVec 32)
    (h : (⟨4, ![4096, 11, 20, 64]⟩ : Shape).ShapeCasts ⟨3, ![45056, 20, 64]⟩) :
    (fun j : (⟨3, ![4096, 20, 64]⟩ : Shape).Idx =>
        (shapeCast ⟨3, ![45056, 20, 64]⟩ w h) (ix3 ⟨(j 0).val * 11 + (Cert.Spec.stepOf s (j 0)).val,
          by have h1 : (j 0).val < 4096 := (j 0).isLt; have h2 := (Cert.Spec.stepOf s (j 0)).isLt; omega⟩ (j 1) (j 2)))
      = Cert.Spec.gathered w s := by
  funext j
  have h0 : (j 0).val < 4096 := (j 0).isLt
  have h1 : (j 1).val < 20 := (j 1).isLt
  have h2 : (j 2).val < 64 := (j 2).isLt
  have ht : (Cert.Spec.stepOf s (j 0)).val < 11 := (Cert.Spec.stepOf s (j 0)).isLt
  refine shapeCast_apply w h _ (ix4 (j 0) (Cert.Spec.stepOf s (j 0)) (j 1) (j 2)) ?_
  rw [Shape.rowMajor_val_four, Shape.rowMajor_val_three]
  show (((j 0).val * 11 + (Cert.Spec.stepOf s (j 0)).val) * 20 + (j 1).val) * 64 + (j 2).val
    = (((j 0).val * 11 + (Cert.Spec.stepOf s (j 0)).val) * 20 + (j 1).val) * 64 + (j 2).val
  rfl

end Cert.Proof.Reshape
-- ==== Proof.Words.lean ====
/-
  Arithmetic on 32-bit words, without overflow: the table row a tile's trip reads for its `j`-th batch element.
  With tile coordinates `a < 16`, `b < 2`, trip `k < 8` and lane `j < 16` the batch element is
  `256 a + 128 b + 16 k + j < 4096`, and with a step `v ≤ 10` the flattened row `11 · element + v` stays below
  `45056`, far from `2 ^ 32`: every operation of the chain is the operation on natural numbers.
-/
import Idealize.ShloMosaic.Lib.ValueIdx
import Idealize.ShloMosaic.PureOps

namespace Cert.Words

open Idealize.ShloMosaic Idealize.ShloMosaic.ValueIdx

/-- The batch element, as a word: no operation wraps. -/
theorem elem_toNat (a b k j : ℕ) (ha : a < 16) (hb : b < 2) (hk : k < 8) (hj : j < 16) :
    ((BitVec.ofNat 32 a * 2#32 + BitVec.ofNat 32 b) * 128#32 + (0#32 + (0#32 + BitVec.ofNat 32 k * 1#32) * 1#32) * 16#32 + BitVec.ofNat 32 j).toNat
      = 256 * a + 128 * b + 16 * k + j := by
  simp only [BitVec.toNat_add, BitVec.toNat_mul, BitVec.toNat_ofNat]
  omega

/-- The flattened table row, as a word: eleven times the batch element plus the step. -/
theorem row_toNat (a b k j : ℕ) (v : BitVec 32) (ha : a < 16) (hb : b < 2) (hk : k < 8) (hj : j < 16) (hv : v.toNat ≤ 10) :
    (((BitVec.ofNat 32 a * 2#32 + BitVec.ofNat 32 b) * 128#32 + (0#32 + (0#32 + BitVec.ofNat 32 k * 1#32) * 1#32) * 16#32 + BitVec.ofNat 32 j) * 11#32 + v).toNat
      = (256 * a + 128 * b + 16 * k + j) * 11 + v.toNat := by
  have h := elem_toNat a b k j ha hb hk hj
  rw [BitVec.toNat_add, BitVec.toNat_mul, h]
  simp only [BitVec.toNat_ofNat]
  omega

end Cert.Words
-- ==== Proof.SetupI.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.KernelIdeal
import proofs.«205373_g65798898975314_cont_9to1c4b_285_22_alg».proof.Proof.Gen.KernelIdeal.Skeleton
import proofs.«205373_g65798898975314_cont_9to1c4b_285_22_alg».proof.Proof.Spec
import proofs.«205373_g65798898975314_cont_9to1c4b_285_22_alg».proof.Proof.Words
import Idealize.ShloMosaic.Lib.Pipeline.Value
import Idealize.ShloMosaic.Lib.ValueIdx

noncomputable section

namespace Cert.Proof.SetupI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

open Idealize.ShloMosaic.ValueIdx

/-! ## The arrays as a vector subcore names them, a tile's thread, its output chunks -/

abbrev tblV : Memref sig .scVector .hbm S45056x20x64 .f32 := Memref.whole main_v0_scv
abbrev stpV : Memref sig .scVector .hbm S4096 .i32 := Memref.whole main_arg2_scv
abbrev outV : Memref sig .scVector .hbm S4096x20x64 .f32 := Memref.whole main_v1_scv
abbrev sS : Memref sig .scVector .vmem S128 .i32 := Memref.whole cc0_scratch0
abbrev sR : Memref sig .scVector .vmem S16x20x64 .f32 := Memref.whole cc0_scratch1

abbrev cV (L : grid0.Coords) : Fin τ.nSC := (L 0).castLE hcore0
abbrev jV (L : grid0.Coords) : Fin τ.nSub := (L 1).castLE hsub0
/-- The vector subcore at grid coordinates `L` of device `d`. -/
abbrev thr (d : Dev nD) (L : grid0.Coords) : Thread nD τ := V d (cV L) (jV L)

/-- The sixteen rows of the result that trip `k` of tile `L` writes, as the trip's copy-out slices them. -/
abbrev outChunk (L : grid0.Coords) (k : Fin k0_t1_loop.trips) : Memref sig .scVector .hbm S16x20x64 .f32 :=
  (outV).slice (Rect.unit (s := S4096x20x64) (k0_off34 L k) S16x20x64.size (k0_off34_inb L k)) (fun _ => rfl)

/-- The grid coordinates of subcore `i` of SparseCore `c`. -/
def coordsOf (c : Fin 2) (i : Fin 16) : grid0.Coords :=
  fun | 0 => c | 1 => i | ⟨_ + 2, h⟩ => absurd h (Nat.not_lt.2 (Nat.le_add_left _ _))

/-! ## Read shares

The steps and the table are only read. Each SparseCore takes a share of them, each of its tiles a share of that, and a
tile splits its share of the table once more, one part per lane of a trip: sixteen copies read the table at once. -/

def qCore (c : ℕ) : PosShare TreeShare := Transfers.shareTokN fullShare c
def qTile (c i : ℕ) : PosShare TreeShare := Transfers.shareTokN (qCore c) i
def qLane (c i j : ℕ) : PosShare TreeShare := Transfers.shareTokN (qTile c i) j

/-! ## What the kernel computes

`rowsOf tb s`: row `b` of the result is row `11 b + step b` of the flattened table `tb`. -/

def rowsOf {α : Type} (tb : S45056x20x64.Idx → α) (s : S4096.Idx → BitVec 32) : S4096x20x64.Idx → α :=
  fun j => tb (ix3 ⟨(j 0).val * 11 + (Cert.Spec.stepOf s (j 0)).val,
    by have h1 : (j 0).val < 4096 := (j 0).isLt; have h2 := (Cert.Spec.stepOf s (j 0)).isLt; omega⟩ (j 1) (j 2))

variable [FloatOps F]

/-- The steps, the flattened table (the weights reshaped, as @main hands it to the kernel) and the result's launch
    contents, on device `d`. -/
abbrev stpOf (d : Dev nD) : S4096.Idx → BitVec 32 := m ((SparseCore.T d : Thread nD τ).loc main_arg2)
abbrev tblOf (d : Dev nD) : S45056x20x64.Idx → Elt F .f32 :=
  shapeCast S45056x20x64 (m ((SparseCore.T d : Thread nD τ).loc main_arg3)) shapeCasts_S4096x11x20x64_S45056x20x64
abbrev outOf (d : Dev nD) : S4096x20x64.Idx → Elt F .f32 := m ((SparseCore.T d : Thread nD τ).loc main_v1)

/-- What a tile is handed: its shares of the steps and of the table, and its eight chunks of the result at the launch
    contents. -/
def goRes (d : Dev nD) (L : grid0.Coords) : sProp 𝕄 :=
  iprop(((stpV).view.loc (thr d L) ↦{qTile (L 0).val (L 1).val} stpOf m d)
    ∗ ((tblV).view.loc (thr d L) ↦{qTile (L 0).val (L 1).val} tblOf m d)
    ∗ bigSep Finset.univ fun k : Fin k0_t1_loop.trips =>
        (outChunk L k).view.loc (thr d L) ↦[(outChunk L k).view.set]{fullShare} outOf m d)

/-- What it hands back: its eight chunks at the gathered rows. -/
def tdRes (d : Dev nD) (L : grid0.Coords) : sProp 𝕄 :=
  bigSep Finset.univ fun k : Fin k0_t1_loop.trips =>
    (outChunk L k).view.loc (thr d L) ↦[(outChunk L k).view.set]{fullShare} rowsOf (tblOf m d) (stpOf m d)

end Cert.Proof.SetupI
end
-- ==== Proof.LaunchI.lean ====
/-
  The launch side of the kernel's run. @main on the TensorCore flattens the weights into the table, starts the two
  SparseCores and waits for them. The steps and the table are only read: each SparseCore takes a read share of them,
  each of its sixteen tiles a share of that. The result array is cut into 2 × 16 × 8 chunks of sixteen rows, chunk
  `(c, i, k)` at rows `[256 i + 128 c + 16 k, + 16)`: pairwise disjoint, covering the 4096 rows. A tile is handed its
  eight chunks at the launch contents and hands them back at the gathered rows; joined, the chunks are the whole
  result at the one function `rowsOf` of the table and the steps.
-/
import proofs.«205373_g65798898975314_cont_9to1c4b_285_22_alg».proof.Proof.SetupI

set_option maxRecDepth 8192

noncomputable section

namespace Cert.Proof.LaunchI

open Cert.KernelIdeal Cert.KernelIdeal.Gen
open Cert.Proof.SetupI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The arrays' locations, a tile's chunks -/

abbrev stpLoc (d : Dev nD) : Loc nD τ sig := (SparseCore.T d).loc main_arg2
abbrev tblLoc (d : Dev nD) : Loc nD τ sig := (SparseCore.T d).loc main_v0
abbrev outLoc (d : Dev nD) : Loc nD τ sig := (SparseCore.T d).loc main_v1

/-- The eight chunks of tile `L`, each at the contents `f`. -/
def chunksAt (d : Dev nD) (L : grid0.Coords) (f : S4096x20x64.Idx → Elt F .f32) : sProp 𝕄 :=
  bigSep Finset.univ fun k : Fin k0_t1_loop.trips =>
    (outChunk L k).view.loc (thr d L) ↦[(outChunk L k).view.set]{fullShare} f

theorem goRes_eq (d : Dev nD) (L : grid0.Coords) :
    goRes m d L = iprop(((stpV).view.loc (thr d L) ↦{qTile (L 0).val (L 1).val} stpOf m d)
      ∗ ((tblV).view.loc (thr d L) ↦{qTile (L 0).val (L 1).val} tblOf m d) ∗ chunksAt d L (outOf m d)) := rfl
theorem tdRes_eq (d : Dev nD) (L : grid0.Coords) : tdRes m d L = chunksAt d L (rowsOf (tblOf m d) (stpOf m d)) := rfl

/-! ## What the handshakes carry -/

/-- What SparseCore `c` is handed: its share of the steps and of the table, and its tiles' chunks at the launch contents. -/
def stRes (d : Dev nD) (c : Fin 2) : sProp 𝕄 :=
  iprop((stpLoc d ↦{qCore c.val} stpOf m d) ∗ (tblLoc d ↦{qCore c.val} tblOf m d)
    ∗ bigSep Finset.univ fun i : Fin 16 => chunksAt d (coordsOf c i) (outOf m d))

/-- What it hands back: its tiles' chunks at the gathered rows. -/
def dnRes (d : Dev nD) (c : Fin 2) : sProp 𝕄 :=
  bigSep Finset.univ fun i : Fin 16 => chunksAt d (coordsOf c i) (rowsOf (tblOf m d) (stpOf m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (coordsOf (Fin.cast nCore_zero c) (Fin.cast nSub_zero i))
  td := fun q d c i => match q with | 0 => tdRes m d (coordsOf (Fin.cast nCore_zero c) (Fin.cast nSub_zero i))
  x := fun _ _ => iprop(emp)

instance chunksAt_storable (d : Dev nD) (L : grid0.Coords) (f : S4096x20x64.Idx → Elt F .f32) :
    BI.Storable (upEmb : UEmb _ 𝕄) (chunksAt (F := F) d L f) := by
  unfold chunksAt; infer_instance
instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance
instance goRes_storable (d : Dev nD) (L : grid0.Coords) : BI.Storable (upEmb : UEmb _ 𝕄) (goRes m d L) := by
  rw [goRes_eq]; infer_instance
instance tdRes_storable (d : Dev nD) (L : grid0.Coords) : BI.Storable (upEmb : UEmb _ 𝕄) (tdRes m d L) := by
  rw [tdRes_eq]; infer_instance

instance P_storable : (P (F := F) m).IsStorable where
  st q d c := match q with | 0 => stRes_storable m d _
  dn q d c := match q with | 0 => dnRes_storable m d _
  go q d c i := match q with | 0 => goRes_storable m d _
  td q d c i := match q with | 0 => tdRes_storable m d _

/-! ## A SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A tile's share of the steps, as the tile names the array, is token `i` of its SparseCore's share. -/
theorem stp_tile (d : Dev nD) (c : Fin 2) (i : Fin 16) :
    ((stpV).view.loc (thr d (coordsOf c i)) ↦{qTile ((coordsOf c i) 0).val ((coordsOf c i) 1).val} stpOf m d : sProp 𝕄)
      = (stpLoc d ↦{Transfers.shareTok (qCore c.val) 16 i} stpOf m d) := rfl
theorem tbl_tile (d : Dev nD) (c : Fin 2) (i : Fin 16) :
    ((tblV).view.loc (thr d (coordsOf c i)) ↦{qTile ((coordsOf c i) 0).val ((coordsOf c i) 1).val} tblOf m d : sProp 𝕄)
      = (tblLoc d ↦{Transfers.shareTok (qCore c.val) 16 i} tblOf m d) := rfl

theorem vecSplit : (K (F := F)).VecSplit' (P m) 0 := by
  intro d c
  show stRes m d (Fin.cast nCore_zero c) ⊢ |={Set.univ}=> iprop(
      (bigSep Finset.univ fun i : Fin ((K (F := F)).nSub 0) => goRes m d (coordsOf (Fin.cast nCore_zero c) (Fin.cast nSub_zero i)))
      ∗ ((bigSep Finset.univ fun i : Fin ((K (F := F)).nSub 0) => tdRes m d (coordsOf (Fin.cast nCore_zero c) (Fin.cast nSub_zero i)))
          -∗ dnRes m d (Fin.cast nCore_zero c)))
  generalize Fin.cast nCore_zero c = c'
  rw [bigSep_tasks (F := F) (fun i => goRes m d (coordsOf c' i)), bigSep_tasks (F := F) (fun i => tdRes m d (coordsOf c' i))]
  unfold stRes dnRes
  simp only [goRes_eq, tdRes_eq, stp_tile, tbl_tile]
  rw [bigSep_sep', bigSep_sep']
  iintro ⟨Hs, Ht, Hc⟩
  ihave Hs' := (Transfers.pointsTo_toks_split (qCore c'.val) 16) $$ Hs
  icases Hs' with ⟨-, Hs⟩
  ihave Ht' := (Transfers.pointsTo_toks_split (qCore c'.val) 16) $$ Ht
  icases Ht' with ⟨-, Ht⟩
  imodintro
  isplitl [Hs Ht Hc]
  · isplitl [Hs]; · iexact Hs
    isplitl [Ht]; · iexact Ht
    iexact Hc
  iintro H
  iexact H

/-! ## The tile's obligation, from its body's triple -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tblV (Memref.isWhole_whole _) stpV (Memref.isWhole_whole _) outV (Memref.isWhole_whole _)
          sS (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's body, as the launch needs it: from what a tile is handed to what it hands back, on any tile. -/
abbrev TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d L ∗ scopedBufs (thr d L) ∗ scopedSems0 (thr d L) ∗ owes (thr d L) O W)
      ⊢ wp frame (wpE (defs₀ (F := F)) 𝒱₀ (thr d L) none) Set.univ
          (cc0_k L tblV (Memref.isWhole_whole _) stpV (Memref.isWhole_whole _) outV (Memref.isWhole_whole _) sS (Memref.isWhole_whole _) sR (Memref.isWhole_whole _) cc0_scratch2 cc0_scoped0 cc0_scoped1)
          fun _ => iprop(tdRes m d L ∗ scopedBufs (thr d L) ∗ scopedSems0 (thr d L) ∗ ∃ W', ⌜∀ p ∈ W', p ∈ W ∨ p.2 = none⌝ ∗ owes (thr d L) O W')

/-- The tile's obligation is its body's triple, at the tile's grid coordinates. -/
theorem tileObl_of (htile : TileBody m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## The result array cut into the tiles' chunks -/

omit [FloatOps F] in
theorem trips_eq : k0_t1_loop.trips = 8 := by decide

/-- The index of a chunk: SparseCore, tile, trip. -/
abbrev CIx : Type := Fin 2 × Fin 16 × Fin k0_t1_loop.trips

/-- The elements of chunk `(c, i, k)`. -/
def cset (t : CIx) : Finset S4096x20x64.Idx := (outChunk (coordsOf t.1 t.2.1) t.2.2).view.set

omit [FloatOps F] in
/-- Chunk `(c, i, k)` is rows `[256 i + 128 c + 16 k, + 16)`. -/
theorem mem_cset (t : CIx) (j : S4096x20x64.Idx) :
    j ∈ cset t ↔ 256 * t.2.1.val + 128 * t.1.val + 16 * t.2.2.val ≤ (j 0).val ∧ (j 0).val < 256 * t.2.1.val + 128 * t.1.val + 16 * t.2.2.val + 16 := by
  unfold cset
  rw [show (outChunk (coordsOf t.1 t.2.1) t.2.2).view.set
      = (Rect.unit (s := S4096x20x64) (k0_off34 (coordsOf t.1 t.2.1) t.2.2) S16x20x64.size (k0_off34_inb (coordsOf t.1 t.2.1) t.2.2)).set
    from View.set_slice_whole main_v1_scv _, Rect.mem_set_unit, k0_off34_eq]
  have h1 : (j 1).val < 20 := (j 1).isLt
  have h2 : (j 2).val < 64 := (j 2).isLt
  constructor
  · intro h
    have := h 0
    exact this
  · intro h a
    match a with
    | ⟨0, _⟩ => exact h
    | ⟨1, _⟩ => exact ⟨Nat.zero_le _, by show (j 1).val < 0 + 20; omega⟩
    | ⟨2, _⟩ => exact ⟨Nat.zero_le _, by show (j 2).val < 0 + 64; omega⟩

omit [FloatOps F] in
theorem cset_disjoint : ∀ t ∈ (Finset.univ : Finset CIx), ∀ t' ∈ (Finset.univ : Finset CIx), t ≠ t' → Disjoint (cset t) (cset t') := by
  intro t _ t' _ hne
  rw [Finset.disjoint_left]
  intro j hj hj'
  rw [mem_cset] at hj hj'
  obtain ⟨c, i, k⟩ := t
  obtain ⟨c', i', k'⟩ := t'
  have hc := c.isLt; have hi := i.isLt; have hk := k.isLt
  have hc' := c'.isLt; have hi' := i'.isLt; have hk' := k'.isLt
  have ht := trips_eq
  apply hne
  have e1 : i.val = i'.val := by dsimp only at hj hj'; omega
  have e2 : c.val = c'.val := by dsimp only at hj hj'; omega
  have e3 : k.val = k'.val := by dsimp only at hj hj'; omega
  exact Prod.ext (Fin.ext e2) (Prod.ext (Fin.ext e1) (Fin.ext e3))

omit [FloatOps F] in
theorem cset_cover : (Finset.univ : Finset CIx).biUnion cset = Finset.univ := by
  refine Finset.eq_univ_iff_forall.mpr fun j => Finset.mem_biUnion.mpr ?_
  have hj : (j 0).val < 4096 := (j 0).isLt
  have ht := trips_eq
  refine ⟨(⟨(j 0).val % 256 / 128, by omega⟩, ⟨(j 0).val / 256, by omega⟩, ⟨(j 0).val % 128 / 16, by omega⟩), Finset.mem_univ _, ?_⟩
  rw [mem_cset]
  dsimp only
  omega

omit [FloatOps F] in
/-- The result array, whole at `f`, is the 2 × 16 tiles' chunks at `f`. -/
theorem out_chunks (d : Dev nD) (f : S4096x20x64.Idx → Elt F .f32) :
    (outLoc d ↦{fullShare} f : sProp 𝕄)
      = bigSep Finset.univ fun c : Fin 2 => bigSep Finset.univ fun i : Fin 16 => chunksAt d (coordsOf c i) f := by
  have h : (outLoc d ↦[(Finset.univ : Finset CIx).biUnion cset]{fullShare} f : sProp 𝕄)
      = bigSep Finset.univ fun t : CIx => outLoc d ↦[cset t]{fullShare} f := by
    apply pointsTo_biUnion
    exact cset_disjoint
  rw [cset_cover] at h
  refine h.trans ?_
  rw [← Finset.univ_product_univ, SparseCore.bigSep_product]
  refine bigSep_congr fun c _ => ?_
  rw [← Finset.univ_product_univ, SparseCore.bigSep_product]
  rfl

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
/-- The reshape of the weights into the table. -/
abbrev opR : HloOp τ sig (Elt F) := StableHlo.reshape main_arg3 main_v0 rfl shapeCasts_S4096x11x20x64_S45056x20x64

/-- The TensorCore's arrays, all unscoped. -/
abbrev S7 : Finset (DevRef τ sig) := {a0', a1', a2', a3', a4', v0', v1'}

abbrev aLoc0 (d : Dev nD) : Loc nD τ sig := (SparseCore.T d).loc main_arg0
abbrev aLoc1 (d : Dev nD) : Loc nD τ sig := (SparseCore.T d).loc main_arg1
abbrev aLoc3 (d : Dev nD) : Loc nD τ sig := (SparseCore.T d).loc main_arg3
abbrev aLoc4 (d : Dev nD) : Loc nD τ sig := (SparseCore.T d).loc main_arg4

omit [FloatOps F] in
theorem held_S7 (d : Dev nD) (W : Valuation τ sig (Elt F)) :
    (held (T d) S7 W : sProp 𝕄) = iprop((aLoc0 d ↦{fullShare} W a0') ∗ (aLoc1 d ↦{fullShare} W a1') ∗ (stpLoc d ↦{fullShare} W a2')
      ∗ (aLoc3 d ↦{fullShare} W a3') ∗ (aLoc4 d ↦{fullShare} W a4') ∗ (tblLoc d ↦{fullShare} W v0') ∗ outLoc d ↦{fullShare} W v1') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc0 d ↦{fullShare} W main_arg0) ∗ (aLoc1 d ↦{fullShare} W main_arg1) ∗ (stpLoc d ↦{fullShare} W main_arg2)
      ∗ (aLoc3 d ↦{fullShare} W main_arg3) ∗ (aLoc4 d ↦{fullShare} W main_arg4) ∗ (tblLoc d ↦{fullShare} W main_v0) ∗ outLoc d ↦{fullShare} W main_v1) := by
  unfold unscopedBufs
  rw [show (Finset.univ.filter fun b : Ref sig .tc => ¬ b.isScoped) = {main_arg0, main_arg1, main_arg2, main_arg3, main_arg4, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S7 (V0 m d) := by
  rw [unscopedBufs_eq, held_S7]; rfl

theorem hR : (opR (F := F)).bufs ⊆ S7 := show ({a3', v0'} : Finset (DevRef τ sig)) ⊆ S7 by decide

theorem res_ne (d : Dev nD) {b : DevRef τ sig} (h : b ∉ ({v0'} : Finset (DevRef τ sig))) : (opR (F := F)).result (V0 m d) b = m (d, b) :=
  (opR (F := F)).result_of_not_mem (V0 m d) h
theorem res_v0 (d : Dev nD) : (opR (F := F)).result (V0 m d) v0' = tblOf m d :=
  StableHlo.reshape_result main_arg3 main_v0 rfl shapeCasts_S4096x11x20x64_S45056x20x64 ⟨by decide, rfl⟩ ⟨by decide, rfl⟩ (V0 m d)

/-- After the reshape: the arguments and the result array as launched, the table at the flattened weights. -/
theorem held_after (d : Dev nD) :
    (held (T d) S7 ((opR (F := F)).result (V0 m d)) : sProp 𝕄)
      = iprop((aLoc0 d ↦{fullShare} m (aLoc0 d)) ∗ (aLoc1 d ↦{fullShare} m (aLoc1 d)) ∗ (stpLoc d ↦{fullShare} stpOf m d)
      ∗ (aLoc3 d ↦{fullShare} m (aLoc3 d)) ∗ (aLoc4 d ↦{fullShare} m (aLoc4 d)) ∗ (tblLoc d ↦{fullShare} tblOf m d) ∗ outLoc d ↦{fullShare} outOf m d) := by
  rw [held_S7, res_ne m d (b := a0') (by decide), res_ne m d (b := a1') (by decide), res_ne m d (b := a2') (by decide),
    res_ne m d (b := a3') (by decide), res_ne m d (b := a4') (by decide), res_ne m d (b := v1') (by decide), res_v0]

/-- What the call takes for the two SparseCores: a read share each of the steps and of the table, and their chunks. -/
theorem st0_eq (d : Dev nD) :
    (bigSep Finset.univ fun c : Fin ((K (F := F)).nCore 0) => (P m).st 0 d c)
      = iprop((bigSep Finset.univ fun c : Fin 2 => stpLoc d ↦{Transfers.shareTok fullShare 2 c} stpOf m d)
        ∗ (bigSep Finset.univ fun c : Fin 2 => tblLoc d ↦{Transfers.shareTok fullShare 2 c} tblOf m d)
        ∗ bigSep Finset.univ fun c : Fin 2 => bigSep Finset.univ fun i : Fin 16 => chunksAt d (coordsOf c i) (outOf m d)) := by
  show (bigSep (Finset.univ : Finset (Fin 2)) fun c => stRes m d c) = _
  unfold stRes
  rw [bigSep_sep', bigSep_sep']
  rfl

/-- What it hands back: the result array whole, at the gathered rows. -/
theorem dn0_eq (d : Dev nD) :
    (bigSep Finset.univ fun c : Fin ((K (F := F)).nCore 0) => (P m).dn 0 d c) = (outLoc d ↦{fullShare} rowsOf (tblOf m d) (stpOf m d) : sProp 𝕄) := by
  show (bigSep (Finset.univ : Finset (Fin 2)) fun c => dnRes m d c) = _
  unfold dnRes
  exact (out_chunks d _).symm

/-- What @main leaves the claim: the arguments at their launch contents (the steps at the share the TensorCore kept),
    the result at the gathered rows. -/
abbrev FIN (d : Dev nD) : sProp 𝕄 :=
  iprop((aLoc0 d ↦{fullShare} m (aLoc0 d)) ∗ (aLoc1 d ↦{fullShare} m (aLoc1 d)) ∗ (aLoc3 d ↦{fullShare} m (aLoc3 d))
    ∗ (aLoc4 d ↦{fullShare} m (aLoc4 d)) ∗ (stpLoc d ↦{Transfers.shareDrop fullShare 2} stpOf m d)
    ∗ outLoc d ↦{fullShare} rowsOf (tblOf m d) (stpOf m d))

/-- @main on device `d`'s TensorCore: the reshape of the weights into the table, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the seven arrays
  iapply (wp_hlo_within 𝒱 (SparseCore.T d) none Set.univ (op := opR) (S := S7) hR (V := V0 m d)) $$ [Hb Hheld]
  · isplitl [Hb]; · iexact Hb
    iexact Hheld
  iintro ⟨Hb, Hheld⟩
  ihave Hh := (Entails.of_eq (held_after (F := F) m d)) $$ Hheld
  icases Hh with ⟨H0, H1, H2, H3, H4, Hv0, Hv1⟩
  rw [wp_ret]; imodintro
  -- the steps and the table: a read share per SparseCore; the result array: the tiles' chunks
  ihave H2' := (Transfers.pointsTo_toks_split fullShare 2) $$ H2
  icases H2' with ⟨H2k, H2s⟩
  ihave Hv0' := (Transfers.pointsTo_toks_split fullShare 2) $$ Hv0
  icases Hv0' with ⟨-, Hv0s⟩
  ihave Hv1' := (Entails.of_eq (out_chunks d (outOf m d))) $$ Hv1
  iapply ((K (F := F)).wp_run (D (F := F)) 𝒱 (EH := EH) (P := P m) κ d 0) $$ [Hst H2s Hv0s Hv1' H0 H1 H3 H4 H2k]
  isplitr; · iexact Hctx
  isplitl [Hst]; · iexact Hst
  isplitl [H2s Hv0s Hv1']
  · rw [st0_eq]
    isplitl [H2s]; · iexact H2s
    isplitl [Hv0s]; · iexact Hv0s
    iexact Hv1'
  iintro ⟨Hst, Hdn⟩
  ihave Hdn' := (Entails.of_eq (dn0_eq m d)) $$ Hdn
  imodintro
  isplitl [Hst]; · iexact Hst
  isplitl [H0]; · iexact H0
  isplitl [H1]; · iexact H1
  isplitl [H3]; · iexact H3
  isplitl [H4]; · iexact H4
  isplitl [H2k]; · iexact H2k
  iexact Hdn'

/-! ## The final memory reads the claim -/

def fq (d : Dev nD) (s' : Phys nD τ sig (Elt F)) : Prop :=
  s'.mem.mem (outLoc d) = rowsOf (tblOf m d) (stpOf m d) ∧ s'.mem.mem (aLoc4 d) = m (aLoc4 d) ∧ s'.mem.mem (aLoc0 d) = m (aLoc0 d)
    ∧ s'.mem.mem (aLoc1 d) = m (aLoc1 d) ∧ s'.mem.mem (stpLoc d) = m (stpLoc d) ∧ s'.mem.mem (aLoc3 d) = m (aLoc3 d)

omit [FloatOps F] in
/-- Under the state interpretation an array held whole, at any share, is the physical contents. -/
theorem agree_keep {ℓ : Loc nD τ sig} {q : PosShare TreeShare} {f : Buf (Elt F) ℓ} (s' : Phys nD τ sig (Elt F)) :
    iprop(SI s' ∗ ℓ ↦{q} f) ⊢ (iprop(⌜s'.mem.mem ℓ = f⌝ ∗ SI s') : sProp 𝕄) := by
  iintro ⟨HSI, H⟩
  ihave Hx := (persistent_entails_right (SI_pointsTo_agree (st := s') (ℓ := ℓ) (I := Finset.univ) (q := q) (f := f))) $$ [HSI H]
  · isplitl [HSI] <;> iassumption
  icases Hx with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H3, H4, H2, Hv1⟩, HSI⟩
  ihave X := (agree_keep s') $$ [HSI H0]
  · isplitl [HSI] <;> iassumption
  icases X with ⟨%h0, HSI⟩
  ihave X := (agree_keep s') $$ [HSI H1]
  · isplitl [HSI] <;> iassumption
  icases X with ⟨%h1, HSI⟩
  ihave X := (agree_keep s') $$ [HSI H3]
  · isplitl [HSI] <;> iassumption
  icases X with ⟨%h3, HSI⟩
  ihave X := (agree_keep s') $$ [HSI H4]
  · isplitl [HSI] <;> iassumption
  icases X with ⟨%h4, HSI⟩
  ihave X := (agree_keep s') $$ [HSI H2]
  · isplitl [HSI] <;> iassumption
  icases X with ⟨%h2, HSI⟩
  ihave X := (agree_keep s') $$ [HSI Hv1]
  · isplitl [HSI] <;> iassumption
  icases X with ⟨%hv1, HSI⟩
  ipureintro; exact ⟨hv1, h4, h0, h1, h2, h3⟩

/-! ## The program's run -/

/-- Every weakly fair execution of the device's threads terminates with the result array at the rows of the flattened
    table the steps name, and the arguments unchanged. -/
theorem run_main [∀ e, Nonempty (Elt F e)] (htile : TileBody m) :
    θ_run (Cert.KernelIdeal.defs (F := F)) (Cert.KernelIdeal.threads (F := F)) ⟨m, fun _ => 0, ρ⟩ (fun r => ∀ c : Dev nD,
      r.2.mem ((c.tc : Thread nD τ).loc main_v1) = rowsOf (tblOf m c) (stpOf m c)
      ∧ r.2.mem ((c.tc : Thread nD τ).loc main_arg4) = m ((c.tc : Thread nD τ).loc main_arg4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  SparseCore.Cfg.θ_run_sc (K := K (F := F)) (D := D (F := F)) (𝒱 := 𝒱) (EH := EH) (P := P m) facts v₀
    (fun q hq => match q with | 0 => nomatch hq)
    (fun q _ => match q with | 0 => tileObl_of m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1, (h c).2.1, (h c).2.2.1, (h c).2.2.2.1, (h c).2.2.2.2.1, (h c).2.2.2.2.2, (h c).2.1⟩)

end Cert.Proof.LaunchI

end
-- ==== Proof.SetupB.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.Kernel
import proofs.«205373_g65798898975314_cont_9to1c4b_285_22_alg».proof.Proof.Gen.Kernel.Skeleton
import proofs.«205373_g65798898975314_cont_9to1c4b_285_22_alg».proof.Proof.Spec
import proofs.«205373_g65798898975314_cont_9to1c4b_285_22_alg».proof.Proof.Words
import Idealize.ShloMosaic.Lib.Pipeline.Value
import Idealize.ShloMosaic.Lib.ValueIdx

noncomputable section

namespace Cert.Proof.SetupB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

open Idealize.ShloMosaic.ValueIdx

/-! ## The arrays as a vector subcore names them, a tile's thread, its output chunks -/

abbrev tblV : Memref sig .scVector .hbm S45056x20x64 .f32 := Memref.whole main_v0_scv
abbrev stpV : Memref sig .scVector .hbm S4096 .i32 := Memref.whole main_arg2_scv
abbrev outV : Memref sig .scVector .hbm S4096x20x64 .f32 := Memref.whole main_v1_scv
abbrev sS : Memref sig .scVector .vmem S128 .i32 := Memref.whole cc0_scratch0
abbrev sR : Memref sig .scVector .vmem S16x20x64 .f32 := Memref.whole cc0_scratch1

abbrev cV (L : grid0.Coords) : Fin τ.nSC := (L 0).castLE hcore0
abbrev jV (L : grid0.Coords) : Fin τ.nSub := (L 1).castLE hsub0
/-- The vector subcore at grid coordinates `L` of device `d`. -/
abbrev thr (d : Dev nD) (L : grid0.Coords) : Thread nD τ := V d (cV L) (jV L)

/-- The sixteen rows of the result that trip `k` of tile `L` writes, as the trip's copy-out slices them. -/
abbrev outChunk (L : grid0.Coords) (k : Fin k0_t1_loop.trips) : Memref sig .scVector .hbm S16x20x64 .f32 :=
  (outV).slice (Rect.unit (s := S4096x20x64) (k0_off34 L k) S16x20x64.size (k0_off34_inb L k)) (fun _ => rfl)

/-- The grid coordinates of subcore `i` of SparseCore `c`. -/
def coordsOf (c : Fin 2) (i : Fin 16) : grid0.Coords :=
  fun | 0 => c | 1 => i | ⟨_ + 2, h⟩ => absurd h (Nat.not_lt.2 (Nat.le_add_left _ _))

/-! ## Read shares

The steps and the table are only read. Each SparseCore takes a share of them, each of its tiles a share of that, and a
tile splits its share of the table once more, one part per lane of a trip: sixteen copies read the table at once. -/

def qCore (c : ℕ) : PosShare TreeShare := Transfers.shareTokN fullShare c
def qTile (c i : ℕ) : PosShare TreeShare := Transfers.shareTokN (qCore c) i
def qLane (c i j : ℕ) : PosShare TreeShare := Transfers.shareTokN (qTile c i) j

/-! ## What the kernel computes

`rowsOf tb s`: row `b` of the result is row `11 b + step b` of the flattened table `tb`. -/

def rowsOf {α : Type} (tb : S45056x20x64.Idx → α) (s : S4096.Idx → BitVec 32) : S4096x20x64.Idx → α :=
  fun j => tb (ix3 ⟨(j 0).val * 11 + (Cert.Spec.stepOf s (j 0)).val,
    by have h1 : (j 0).val < 4096 := (j 0).isLt; have h2 := (Cert.Spec.stepOf s (j 0)).isLt; omega⟩ (j 1) (j 2))

variable [FloatOps F]

/-- The steps, the flattened table (the weights reshaped, as @main hands it to the kernel) and the result's launch
    contents, on device `d`. -/
abbrev stpOf (d : Dev nD) : S4096.Idx → BitVec 32 := m ((SparseCore.T d : Thread nD τ).loc main_arg2)
abbrev tblOf (d : Dev nD) : S45056x20x64.Idx → Elt F .f32 :=
  shapeCast S45056x20x64 (m ((SparseCore.T d : Thread nD τ).loc main_arg3)) shapeCasts_S4096x11x20x64_S45056x20x64
abbrev outOf (d : Dev nD) : S4096x20x64.Idx → Elt F .f32 := m ((SparseCore.T d : Thread nD τ).loc main_v1)

/-- What a tile is handed: its shares of the steps and of the table, and its eight chunks of the result at the launch
    contents. -/
def goRes (d : Dev nD) (L : grid0.Coords) : sProp 𝕄 :=
  iprop(((stpV).view.loc (thr d L) ↦{qTile (L 0).val (L 1).val} stpOf m d)
    ∗ ((tblV).view.loc (thr d L) ↦{qTile (L 0).val (L 1).val} tblOf m d)
    ∗ bigSep Finset.univ fun k : Fin k0_t1_loop.trips =>
        (outChunk L k).view.loc (thr d L) ↦[(outChunk L k).view.set]{fullShare} outOf m d)

/-- What it hands back: its eight chunks at the gathered rows. -/
def tdRes (d : Dev nD) (L : grid0.Coords) : sProp 𝕄 :=
  bigSep Finset.univ fun k : Fin k0_t1_loop.trips =>
    (outChunk L k).view.loc (thr d L) ↦[(outChunk L k).view.set]{fullShare} rowsOf (tblOf m d) (stpOf m d)

end Cert.Proof.SetupB
end
-- ==== Proof.LaunchB.lean ====
/-
  The launch side of the kernel's run. @main on the TensorCore flattens the weights into the table, starts the two
  SparseCores and waits for them. The steps and the table are only read: each SparseCore takes a read share of them,
  each of its sixteen tiles a share of that. The result array is cut into 2 × 16 × 8 chunks of sixteen rows, chunk
  `(c, i, k)` at rows `[256 i + 128 c + 16 k, + 16)`: pairwise disjoint, covering the 4096 rows. A tile is handed its
  eight chunks at the launch contents and hands them back at the gathered rows; joined, the chunks are the whole
  result at the one function `rowsOf` of the table and the steps.
-/
import proofs.«205373_g65798898975314_cont_9to1c4b_285_22_alg».proof.Proof.SetupB

set_option maxRecDepth 8192

noncomputable section

namespace Cert.Proof.LaunchB

open Cert.Kernel Cert.Kernel.Gen
open Cert.Proof.SetupB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The arrays' locations, a tile's chunks -/

abbrev stpLoc (d : Dev nD) : Loc nD τ sig := (SparseCore.T d).loc main_arg2
abbrev tblLoc (d : Dev nD) : Loc nD τ sig := (SparseCore.T d).loc main_v0
abbrev outLoc (d : Dev nD) : Loc nD τ sig := (SparseCore.T d).loc main_v1

/-- The eight chunks of tile `L`, each at the contents `f`. -/
def chunksAt (d : Dev nD) (L : grid0.Coords) (f : S4096x20x64.Idx → Elt F .f32) : sProp 𝕄 :=
  bigSep Finset.univ fun k : Fin k0_t1_loop.trips =>
    (outChunk L k).view.loc (thr d L) ↦[(outChunk L k).view.set]{fullShare} f

theorem goRes_eq (d : Dev nD) (L : grid0.Coords) :
    goRes m d L = iprop(((stpV).view.loc (thr d L) ↦{qTile (L 0).val (L 1).val} stpOf m d)
      ∗ ((tblV).view.loc (thr d L) ↦{qTile (L 0).val (L 1).val} tblOf m d) ∗ chunksAt d L (outOf m d)) := rfl
theorem tdRes_eq (d : Dev nD) (L : grid0.Coords) : tdRes m d L = chunksAt d L (rowsOf (tblOf m d) (stpOf m d)) := rfl

/-! ## What the handshakes carry -/

/-- What SparseCore `c` is handed: its share of the steps and of the table, and its tiles' chunks at the launch contents. -/
def stRes (d : Dev nD) (c : Fin 2) : sProp 𝕄 :=
  iprop((stpLoc d ↦{qCore c.val} stpOf m d) ∗ (tblLoc d ↦{qCore c.val} tblOf m d)
    ∗ bigSep Finset.univ fun i : Fin 16 => chunksAt d (coordsOf c i) (outOf m d))

/-- What it hands back: its tiles' chunks at the gathered rows. -/
def dnRes (d : Dev nD) (c : Fin 2) : sProp 𝕄 :=
  bigSep Finset.univ fun i : Fin 16 => chunksAt d (coordsOf c i) (rowsOf (tblOf m d) (stpOf m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (coordsOf (Fin.cast nCore_zero c) (Fin.cast nSub_zero i))
  td := fun q d c i => match q with | 0 => tdRes m d (coordsOf (Fin.cast nCore_zero c) (Fin.cast nSub_zero i))
  x := fun _ _ => iprop(emp)

instance chunksAt_storable (d : Dev nD) (L : grid0.Coords) (f : S4096x20x64.Idx → Elt F .f32) :
    BI.Storable (upEmb : UEmb _ 𝕄) (chunksAt (F := F) d L f) := by
  unfold chunksAt; infer_instance
instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance
instance goRes_storable (d : Dev nD) (L : grid0.Coords) : BI.Storable (upEmb : UEmb _ 𝕄) (goRes m d L) := by
  rw [goRes_eq]; infer_instance
instance tdRes_storable (d : Dev nD) (L : grid0.Coords) : BI.Storable (upEmb : UEmb _ 𝕄) (tdRes m d L) := by
  rw [tdRes_eq]; infer_instance

instance P_storable : (P (F := F) m).IsStorable where
  st q d c := match q with | 0 => stRes_storable m d _
  dn q d c := match q with | 0 => dnRes_storable m d _
  go q d c i := match q with | 0 => goRes_storable m d _
  td q d c i := match q with | 0 => tdRes_storable m d _

/-! ## A SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A tile's share of the steps, as the tile names the array, is token `i` of its SparseCore's share. -/
theorem stp_tile (d : Dev nD) (c : Fin 2) (i : Fin 16) :
    ((stpV).view.loc (thr d (coordsOf c i)) ↦{qTile ((coordsOf c i) 0).val ((coordsOf c i) 1).val} stpOf m d : sProp 𝕄)
      = (stpLoc d ↦{Transfers.shareTok (qCore c.val) 16 i} stpOf m d) := rfl
theorem tbl_tile (d : Dev nD) (c : Fin 2) (i : Fin 16) :
    ((tblV).view.loc (thr d (coordsOf c i)) ↦{qTile ((coordsOf c i) 0).val ((coordsOf c i) 1).val} tblOf m d : sProp 𝕄)
      = (tblLoc d ↦{Transfers.shareTok (qCore c.val) 16 i} tblOf m d) := rfl

theorem vecSplit : (K (F := F)).VecSplit' (P m) 0 := by
  intro d c
  show stRes m d (Fin.cast nCore_zero c) ⊢ |={Set.univ}=> iprop(
      (bigSep Finset.univ fun i : Fin ((K (F := F)).nSub 0) => goRes m d (coordsOf (Fin.cast nCore_zero c) (Fin.cast nSub_zero i)))
      ∗ ((bigSep Finset.univ fun i : Fin ((K (F := F)).nSub 0) => tdRes m d (coordsOf (Fin.cast nCore_zero c) (Fin.cast nSub_zero i)))
          -∗ dnRes m d (Fin.cast nCore_zero c)))
  generalize Fin.cast nCore_zero c = c'
  rw [bigSep_tasks (F := F) (fun i => goRes m d (coordsOf c' i)), bigSep_tasks (F := F) (fun i => tdRes m d (coordsOf c' i))]
  unfold stRes dnRes
  simp only [goRes_eq, tdRes_eq, stp_tile, tbl_tile]
  rw [bigSep_sep', bigSep_sep']
  iintro ⟨Hs, Ht, Hc⟩
  ihave Hs' := (Transfers.pointsTo_toks_split (qCore c'.val) 16) $$ Hs
  icases Hs' with ⟨-, Hs⟩
  ihave Ht' := (Transfers.pointsTo_toks_split (qCore c'.val) 16) $$ Ht
  icases Ht' with ⟨-, Ht⟩
  imodintro
  isplitl [Hs Ht Hc]
  · isplitl [Hs]; · iexact Hs
    isplitl [Ht]; · iexact Ht
    iexact Hc
  iintro H
  iexact H

/-! ## The tile's obligation, from its body's triple -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tblV (Memref.isWhole_whole _) stpV (Memref.isWhole_whole _) outV (Memref.isWhole_whole _)
          sS (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's body, as the launch needs it: from what a tile is handed to what it hands back, on any tile. -/
abbrev TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d L ∗ scopedBufs (thr d L) ∗ scopedSems0 (thr d L) ∗ owes (thr d L) O W)
      ⊢ wp frame (wpE (defs₀ (F := F)) 𝒱₀ (thr d L) none) Set.univ
          (cc0_k L tblV (Memref.isWhole_whole _) stpV (Memref.isWhole_whole _) outV (Memref.isWhole_whole _) sS (Memref.isWhole_whole _) sR (Memref.isWhole_whole _) cc0_scratch2 cc0_scoped0 cc0_scoped1)
          fun _ => iprop(tdRes m d L ∗ scopedBufs (thr d L) ∗ scopedSems0 (thr d L) ∗ ∃ W', ⌜∀ p ∈ W', p ∈ W ∨ p.2 = none⌝ ∗ owes (thr d L) O W')

/-- The tile's obligation is its body's triple, at the tile's grid coordinates. -/
theorem tileObl_of (htile : TileBody m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## The result array cut into the tiles' chunks -/

omit [FloatOps F] in
theorem trips_eq : k0_t1_loop.trips = 8 := by decide

/-- The index of a chunk: SparseCore, tile, trip. -/
abbrev CIx : Type := Fin 2 × Fin 16 × Fin k0_t1_loop.trips

/-- The elements of chunk `(c, i, k)`. -/
def cset (t : CIx) : Finset S4096x20x64.Idx := (outChunk (coordsOf t.1 t.2.1) t.2.2).view.set

omit [FloatOps F] in
/-- Chunk `(c, i, k)` is rows `[256 i + 128 c + 16 k, + 16)`. -/
theorem mem_cset (t : CIx) (j : S4096x20x64.Idx) :
    j ∈ cset t ↔ 256 * t.2.1.val + 128 * t.1.val + 16 * t.2.2.val ≤ (j 0).val ∧ (j 0).val < 256 * t.2.1.val + 128 * t.1.val + 16 * t.2.2.val + 16 := by
  unfold cset
  rw [show (outChunk (coordsOf t.1 t.2.1) t.2.2).view.set
      = (Rect.unit (s := S4096x20x64) (k0_off34 (coordsOf t.1 t.2.1) t.2.2) S16x20x64.size (k0_off34_inb (coordsOf t.1 t.2.1) t.2.2)).set
    from View.set_slice_whole main_v1_scv _, Rect.mem_set_unit, k0_off34_eq]
  have h1 : (j 1).val < 20 := (j 1).isLt
  have h2 : (j 2).val < 64 := (j 2).isLt
  constructor
  · intro h
    have := h 0
    exact this
  · intro h a
    match a with
    | ⟨0, _⟩ => exact h
    | ⟨1, _⟩ => exact ⟨Nat.zero_le _, by show (j 1).val < 0 + 20; omega⟩
    | ⟨2, _⟩ => exact ⟨Nat.zero_le _, by show (j 2).val < 0 + 64; omega⟩

omit [FloatOps F] in
theorem cset_disjoint : ∀ t ∈ (Finset.univ : Finset CIx), ∀ t' ∈ (Finset.univ : Finset CIx), t ≠ t' → Disjoint (cset t) (cset t') := by
  intro t _ t' _ hne
  rw [Finset.disjoint_left]
  intro j hj hj'
  rw [mem_cset] at hj hj'
  obtain ⟨c, i, k⟩ := t
  obtain ⟨c', i', k'⟩ := t'
  have hc := c.isLt; have hi := i.isLt; have hk := k.isLt
  have hc' := c'.isLt; have hi' := i'.isLt; have hk' := k'.isLt
  have ht := trips_eq
  apply hne
  have e1 : i.val = i'.val := by dsimp only at hj hj'; omega
  have e2 : c.val = c'.val := by dsimp only at hj hj'; omega
  have e3 : k.val = k'.val := by dsimp only at hj hj'; omega
  exact Prod.ext (Fin.ext e2) (Prod.ext (Fin.ext e1) (Fin.ext e3))

omit [FloatOps F] in
theorem cset_cover : (Finset.univ : Finset CIx).biUnion cset = Finset.univ := by
  refine Finset.eq_univ_iff_forall.mpr fun j => Finset.mem_biUnion.mpr ?_
  have hj : (j 0).val < 4096 := (j 0).isLt
  have ht := trips_eq
  refine ⟨(⟨(j 0).val % 256 / 128, by omega⟩, ⟨(j 0).val / 256, by omega⟩, ⟨(j 0).val % 128 / 16, by omega⟩), Finset.mem_univ _, ?_⟩
  rw [mem_cset]
  dsimp only
  omega

omit [FloatOps F] in
/-- The result array, whole at `f`, is the 2 × 16 tiles' chunks at `f`. -/
theorem out_chunks (d : Dev nD) (f : S4096x20x64.Idx → Elt F .f32) :
    (outLoc d ↦{fullShare} f : sProp 𝕄)
      = bigSep Finset.univ fun c : Fin 2 => bigSep Finset.univ fun i : Fin 16 => chunksAt d (coordsOf c i) f := by
  have h : (outLoc d ↦[(Finset.univ : Finset CIx).biUnion cset]{fullShare} f : sProp 𝕄)
      = bigSep Finset.univ fun t : CIx => outLoc d ↦[cset t]{fullShare} f := by
    apply pointsTo_biUnion
    exact cset_disjoint
  rw [cset_cover] at h
  refine h.trans ?_
  rw [← Finset.univ_product_univ, SparseCore.bigSep_product]
  refine bigSep_congr fun c _ => ?_
  rw [← Finset.univ_product_univ, SparseCore.bigSep_product]
  rfl

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
/-- The reshape of the weights into the table. -/
abbrev opR : HloOp τ sig (Elt F) := StableHlo.reshape main_arg3 main_v0 rfl shapeCasts_S4096x11x20x64_S45056x20x64

/-- The TensorCore's arrays, all unscoped. -/
abbrev S7 : Finset (DevRef τ sig) := {a0', a1', a2', a3', a4', v0', v1'}

abbrev aLoc0 (d : Dev nD) : Loc nD τ sig := (SparseCore.T d).loc main_arg0
abbrev aLoc1 (d : Dev nD) : Loc nD τ sig := (SparseCore.T d).loc main_arg1
abbrev aLoc3 (d : Dev nD) : Loc nD τ sig := (SparseCore.T d).loc main_arg3
abbrev aLoc4 (d : Dev nD) : Loc nD τ sig := (SparseCore.T d).loc main_arg4

omit [FloatOps F] in
theorem held_S7 (d : Dev nD) (W : Valuation τ sig (Elt F)) :
    (held (T d) S7 W : sProp 𝕄) = iprop((aLoc0 d ↦{fullShare} W a0') ∗ (aLoc1 d ↦{fullShare} W a1') ∗ (stpLoc d ↦{fullShare} W a2')
      ∗ (aLoc3 d ↦{fullShare} W a3') ∗ (aLoc4 d ↦{fullShare} W a4') ∗ (tblLoc d ↦{fullShare} W v0') ∗ outLoc d ↦{fullShare} W v1') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc0 d ↦{fullShare} W main_arg0) ∗ (aLoc1 d ↦{fullShare} W main_arg1) ∗ (stpLoc d ↦{fullShare} W main_arg2)
      ∗ (aLoc3 d ↦{fullShare} W main_arg3) ∗ (aLoc4 d ↦{fullShare} W main_arg4) ∗ (tblLoc d ↦{fullShare} W main_v0) ∗ outLoc d ↦{fullShare} W main_v1) := by
  unfold unscopedBufs
  rw [show (Finset.univ.filter fun b : Ref sig .tc => ¬ b.isScoped) = {main_arg0, main_arg1, main_arg2, main_arg3, main_arg4, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S7 (V0 m d) := by
  rw [unscopedBufs_eq, held_S7]; rfl

theorem hR : (opR (F := F)).bufs ⊆ S7 := show ({a3', v0'} : Finset (DevRef τ sig)) ⊆ S7 by decide

theorem res_ne (d : Dev nD) {b : DevRef τ sig} (h : b ∉ ({v0'} : Finset (DevRef τ sig))) : (opR (F := F)).result (V0 m d) b = m (d, b) :=
  (opR (F := F)).result_of_not_mem (V0 m d) h
theorem res_v0 (d : Dev nD) : (opR (F := F)).result (V0 m d) v0' = tblOf m d :=
  StableHlo.reshape_result main_arg3 main_v0 rfl shapeCasts_S4096x11x20x64_S45056x20x64 ⟨by decide, rfl⟩ ⟨by decide, rfl⟩ (V0 m d)

/-- After the reshape: the arguments and the result array as launched, the table at the flattened weights. -/
theorem held_after (d : Dev nD) :
    (held (T d) S7 ((opR (F := F)).result (V0 m d)) : sProp 𝕄)
      = iprop((aLoc0 d ↦{fullShare} m (aLoc0 d)) ∗ (aLoc1 d ↦{fullShare} m (aLoc1 d)) ∗ (stpLoc d ↦{fullShare} stpOf m d)
      ∗ (aLoc3 d ↦{fullShare} m (aLoc3 d)) ∗ (aLoc4 d ↦{fullShare} m (aLoc4 d)) ∗ (tblLoc d ↦{fullShare} tblOf m d) ∗ outLoc d ↦{fullShare} outOf m d) := by
  rw [held_S7, res_ne m d (b := a0') (by decide), res_ne m d (b := a1') (by decide), res_ne m d (b := a2') (by decide),
    res_ne m d (b := a3') (by decide), res_ne m d (b := a4') (by decide), res_ne m d (b := v1') (by decide), res_v0]

/-- What the call takes for the two SparseCores: a read share each of the steps and of the table, and their chunks. -/
theorem st0_eq (d : Dev nD) :
    (bigSep Finset.univ fun c : Fin ((K (F := F)).nCore 0) => (P m).st 0 d c)
      = iprop((bigSep Finset.univ fun c : Fin 2 => stpLoc d ↦{Transfers.shareTok fullShare 2 c} stpOf m d)
        ∗ (bigSep Finset.univ fun c : Fin 2 => tblLoc d ↦{Transfers.shareTok fullShare 2 c} tblOf m d)
        ∗ bigSep Finset.univ fun c : Fin 2 => bigSep Finset.univ fun i : Fin 16 => chunksAt d (coordsOf c i) (outOf m d)) := by
  show (bigSep (Finset.univ : Finset (Fin 2)) fun c => stRes m d c) = _
  unfold stRes
  rw [bigSep_sep', bigSep_sep']
  rfl

/-- What it hands back: the result array whole, at the gathered rows. -/
theorem dn0_eq (d : Dev nD) :
    (bigSep Finset.univ fun c : Fin ((K (F := F)).nCore 0) => (P m).dn 0 d c) = (outLoc d ↦{fullShare} rowsOf (tblOf m d) (stpOf m d) : sProp 𝕄) := by
  show (bigSep (Finset.univ : Finset (Fin 2)) fun c => dnRes m d c) = _
  unfold dnRes
  exact (out_chunks d _).symm

/-- What @main leaves the claim: the arguments at their launch contents (the steps at the share the TensorCore kept),
    the result at the gathered rows. -/
abbrev FIN (d : Dev nD) : sProp 𝕄 :=
  iprop((aLoc0 d ↦{fullShare} m (aLoc0 d)) ∗ (aLoc1 d ↦{fullShare} m (aLoc1 d)) ∗ (aLoc3 d ↦{fullShare} m (aLoc3 d))
    ∗ (aLoc4 d ↦{fullShare} m (aLoc4 d)) ∗ (stpLoc d ↦{Transfers.shareDrop fullShare 2} stpOf m d)
    ∗ outLoc d ↦{fullShare} rowsOf (tblOf m d) (stpOf m d))

/-- @main on device `d`'s TensorCore: the reshape of the weights into the table, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the seven arrays
  iapply (wp_hlo_within 𝒱 (SparseCore.T d) none Set.univ (op := opR) (S := S7) hR (V := V0 m d)) $$ [Hb Hheld]
  · isplitl [Hb]; · iexact Hb
    iexact Hheld
  iintro ⟨Hb, Hheld⟩
  ihave Hh := (Entails.of_eq (held_after (F := F) m d)) $$ Hheld
  icases Hh with ⟨H0, H1, H2, H3, H4, Hv0, Hv1⟩
  rw [wp_ret]; imodintro
  -- the steps and the table: a read share per SparseCore; the result array: the tiles' chunks
  ihave H2' := (Transfers.pointsTo_toks_split fullShare 2) $$ H2
  icases H2' with ⟨H2k, H2s⟩
  ihave Hv0' := (Transfers.pointsTo_toks_split fullShare 2) $$ Hv0
  icases Hv0' with ⟨-, Hv0s⟩
  ihave Hv1' := (Entails.of_eq (out_chunks d (outOf m d))) $$ Hv1
  iapply ((K (F := F)).wp_run (D (F := F)) 𝒱 (EH := EH) (P := P m) κ d 0) $$ [Hst H2s Hv0s Hv1' H0 H1 H3 H4 H2k]
  isplitr; · iexact Hctx
  isplitl [Hst]; · iexact Hst
  isplitl [H2s Hv0s Hv1']
  · rw [st0_eq]
    isplitl [H2s]; · iexact H2s
    isplitl [Hv0s]; · iexact Hv0s
    iexact Hv1'
  iintro ⟨Hst, Hdn⟩
  ihave Hdn' := (Entails.of_eq (dn0_eq m d)) $$ Hdn
  imodintro
  isplitl [Hst]; · iexact Hst
  isplitl [H0]; · iexact H0
  isplitl [H1]; · iexact H1
  isplitl [H3]; · iexact H3
  isplitl [H4]; · iexact H4
  isplitl [H2k]; · iexact H2k
  iexact Hdn'

/-! ## The final memory reads the claim -/

def fq (d : Dev nD) (s' : Phys nD τ sig (Elt F)) : Prop :=
  s'.mem.mem (outLoc d) = rowsOf (tblOf m d) (stpOf m d) ∧ s'.mem.mem (aLoc4 d) = m (aLoc4 d) ∧ s'.mem.mem (aLoc0 d) = m (aLoc0 d)
    ∧ s'.mem.mem (aLoc1 d) = m (aLoc1 d) ∧ s'.mem.mem (stpLoc d) = m (stpLoc d) ∧ s'.mem.mem (aLoc3 d) = m (aLoc3 d)

omit [FloatOps F] in
/-- Under the state interpretation an array held whole, at any share, is the physical contents. -/
theorem agree_keep {ℓ : Loc nD τ sig} {q : PosShare TreeShare} {f : Buf (Elt F) ℓ} (s' : Phys nD τ sig (Elt F)) :
    iprop(SI s' ∗ ℓ ↦{q} f) ⊢ (iprop(⌜s'.mem.mem ℓ = f⌝ ∗ SI s') : sProp 𝕄) := by
  iintro ⟨HSI, H⟩
  ihave Hx := (persistent_entails_right (SI_pointsTo_agree (st := s') (ℓ := ℓ) (I := Finset.univ) (q := q) (f := f))) $$ [HSI H]
  · isplitl [HSI] <;> iassumption
  icases Hx with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H3, H4, H2, Hv1⟩, HSI⟩
  ihave X := (agree_keep s') $$ [HSI H0]
  · isplitl [HSI] <;> iassumption
  icases X with ⟨%h0, HSI⟩
  ihave X := (agree_keep s') $$ [HSI H1]
  · isplitl [HSI] <;> iassumption
  icases X with ⟨%h1, HSI⟩
  ihave X := (agree_keep s') $$ [HSI H3]
  · isplitl [HSI] <;> iassumption
  icases X with ⟨%h3, HSI⟩
  ihave X := (agree_keep s') $$ [HSI H4]
  · isplitl [HSI] <;> iassumption
  icases X with ⟨%h4, HSI⟩
  ihave X := (agree_keep s') $$ [HSI H2]
  · isplitl [HSI] <;> iassumption
  icases X with ⟨%h2, HSI⟩
  ihave X := (agree_keep s') $$ [HSI Hv1]
  · isplitl [HSI] <;> iassumption
  icases X with ⟨%hv1, HSI⟩
  ipureintro; exact ⟨hv1, h4, h0, h1, h2, h3⟩

/-! ## The program's run -/

/-- Every weakly fair execution of the device's threads terminates with the result array at the rows of the flattened
    table the steps name, and the arguments unchanged. -/
theorem run_main [∀ e, Nonempty (Elt F e)] (htile : TileBody m) :
    θ_run (Cert.Kernel.defs (F := F)) (Cert.Kernel.threads (F := F)) ⟨m, fun _ => 0, ρ⟩ (fun r => ∀ c : Dev nD,
      r.2.mem ((c.tc : Thread nD τ).loc main_v1) = rowsOf (tblOf m c) (stpOf m c)
      ∧ r.2.mem ((c.tc : Thread nD τ).loc main_arg4) = m ((c.tc : Thread nD τ).loc main_arg4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  SparseCore.Cfg.θ_run_sc (K := K (F := F)) (D := D (F := F)) (𝒱 := 𝒱) (EH := EH) (P := P m) facts v₀
    (fun q hq => match q with | 0 => nomatch hq)
    (fun q _ => match q with | 0 => tileObl_of m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1, (h c).2.1, (h c).2.2.1, (h c).2.2.2.1, (h c).2.2.2.2.1, (h c).2.2.2.2.2, (h c).2.1⟩)

end Cert.Proof.LaunchB

end
-- ==== Proof.WordsI.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.KernelIdeal
import proofs.«205373_g65798898975314_cont_9to1c4b_285_22_alg».proof.Proof.Gen.KernelIdeal.Skeleton
import proofs.«205373_g65798898975314_cont_9to1c4b_285_22_alg».proof.Proof.Spec
import proofs.«205373_g65798898975314_cont_9to1c4b_285_22_alg».proof.Proof.SetupI
import proofs.«205373_g65798898975314_cont_9to1c4b_285_22_alg».proof.Proof.Words
import Idealize.ShloMosaic.Lib.Pipeline.Value
import Idealize.ShloMosaic.Lib.ValueIdx

noncomputable section

namespace Cert.Proof.WordsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Cert.Proof.SetupI
open Idealize.ShloMosaic.ValueIdx

local notation "𝕄" => MT nD τ sig (HIx 1) (Elt F) ℕ UU ℕ

variable (m : (ℓ : Loc nD τ sig) → Buf (Elt F) ℓ) (ρ : Dev nD → PrngReg)

/-! ## A tile's batch elements

Tile `(L 0, L 1)` works on the 128 batch elements from `256 · L 1 + 128 · L 0`; trip `k` of its loop on the sixteen
from `16 k` within them; lane `J` of the trip on element `elem L k J`. -/

def elem (L : grid0.Coords) (k J : ℕ) : ℕ := 256 * (L 1).val + 128 * (L 0).val + 16 * k + J

theorem L0_lt (L : grid0.Coords) : (L 0).val < 2 := (L 0).isLt
theorem L1_lt (L : grid0.Coords) : (L 1).val < 16 := (L 1).isLt
theorem trips_eq : k0_t1_loop.trips = 8 := by decide
theorem k_lt (k : Fin k0_t1_loop.trips) : k.val < 8 := trips_eq ▸ k.isLt

theorem elem_lt (L : grid0.Coords) {k J : ℕ} (hk : k < 8) (hJ : J < 16) : elem L k J < 4096 := by
  have := L0_lt L; have := L1_lt L; unfold elem; omega

/-- The step of lane `J` of trip `k`, read off the steps array. -/
def wordAt (fstp : S4096.Idx → BitVec 32) (L : grid0.Coords) (k J : ℕ) (hk : k < 8) (hJ : J < 16) : BitVec 32 :=
  fstp (ix1 ⟨elem L k J, elem_lt L hk hJ⟩)

/-- The flattened table row of lane `J` of trip `k` when its step is `v`. -/
def rowOf (L : grid0.Coords) (k J : ℕ) (v : BitVec 32) : ℕ := elem L k J * 11 + v.toNat

/-! ## The data-dependent offsets, in closed form -/

theorem k0_off3_row (L : grid0.Coords) (k : Fin k0_t1_loop.trips) (v : BitVec 32) (hv : v.toNat ≤ 10) :
    k0_off3 L k v = ![rowOf L k.val 0 v, 0, 0] := by
  unfold k0_off3 rowOf elem
  have h := Cert.Words.row_toNat (L 1).val (L 0).val k.val 0 v (L1_lt L) (L0_lt L) (k_lt k) (by decide) hv
  simp only [Scalar.muli, Scalar.addi, IntOp.muli, IntOp.addi, Scf.iv] at h ⊢
  rw [h]
theorem k0_off19_row (L : grid0.Coords) (k : Fin k0_t1_loop.trips) (v : BitVec 32) (hv : v.toNat ≤ 10) :
    k0_off19 L k v = ![rowOf L k.val 0 v, 0, 0] := by
  unfold k0_off19 rowOf elem
  have h := Cert.Words.row_toNat (L 1).val (L 0).val k.val 0 v (L1_lt L) (L0_lt L) (k_lt k) (by decide) hv
  simp only [Scalar.muli, Scalar.addi, IntOp.muli, IntOp.addi, Scf.iv] at h ⊢
  rw [h]
theorem k0_off4_row (L : grid0.Coords) (k : Fin k0_t1_loop.trips) (v : BitVec 32) (hv : v.toNat ≤ 10) :
    k0_off4 L k v = ![rowOf L k.val 1 v, 0, 0] := by
  unfold k0_off4 rowOf elem
  have h := Cert.Words.row_toNat (L 1).val (L 0).val k.val 1 v (L1_lt L) (L0_lt L) (k_lt k) (by decide) hv
  simp only [Scalar.muli, Scalar.addi, IntOp.muli, IntOp.addi, Scf.iv] at h ⊢
  rw [h]
theorem k0_off20_row (L : grid0.Coords) (k : Fin k0_t1_loop.trips) (v : BitVec 32) (hv : v.toNat ≤ 10) :
    k0_off20 L k v = ![rowOf L k.val 1 v, 0, 0] := by
  unfold k0_off20 rowOf elem
  have h := Cert.Words.row_toNat (L 1).val (L 0).val k.val 1 v (L1_lt L) (L0_lt L) (k_lt k) (by decide) hv
  simp only [Scalar.muli, Scalar.addi, IntOp.muli, IntOp.addi, Scf.iv] at h ⊢
  rw [h]
theorem k0_off5_row (L : grid0.Coords) (k : Fin k0_t1_loop.trips) (v : BitVec 32) (hv : v.toNat ≤ 10) :
    k0_off5 L k v = ![rowOf L k.val 2 v, 0, 0] := by
  unfold k0_off5 rowOf elem
  have h := Cert.Words.row_toNat (L 1).val (L 0).val k.val 2 v (L1_lt L) (L0_lt L) (k_lt k) (by decide) hv
  simp only [Scalar.muli, Scalar.addi, IntOp.muli, IntOp.addi, Scf.iv] at h ⊢
  rw [h]
theorem k0_off21_row (L : grid0.Coords) (k : Fin k0_t1_loop.trips) (v : BitVec 32) (hv : v.toNat ≤ 10) :
    k0_off21 L k v = ![rowOf L k.val 2 v, 0, 0] := by
  unfold k0_off21 rowOf elem
  have h := Cert.Words.row_toNat (L 1).val (L 0).val k.val 2 v (L1_lt L) (L0_lt L) (k_lt k) (by decide) hv
  simp only [Scalar.muli, Scalar.addi, IntOp.muli, IntOp.addi, Scf.iv] at h ⊢
  rw [h]
theorem k0_off6_row (L : grid0.Coords) (k : Fin k0_t1_loop.trips) (v : BitVec 32) (hv : v.toNat ≤ 10) :
    k0_off6 L k v = ![rowOf L k.val 3 v, 0, 0] := by
  unfold k0_off6 rowOf elem
  have h := Cert.Words.row_toNat (L 1).val (L 0).val k.val 3 v (L1_lt L) (L0_lt L) (k_lt k) (by decide) hv
  simp only [Scalar.muli, Scalar.addi, IntOp.muli, IntOp.addi, Scf.iv] at h ⊢
  rw [h]
theorem k0_off22_row (L : grid0.Coords) (k : Fin k0_t1_loop.trips) (v : BitVec 32) (hv : v.toNat ≤ 10) :
    k0_off22 L k v = ![rowOf L k.val 3 v, 0, 0] := by
  unfold k0_off22 rowOf elem
  have h := Cert.Words.row_toNat (L 1).val (L 0).val k.val 3 v (L1_lt L) (L0_lt L) (k_lt k) (by decide) hv
  simp only [Scalar.muli, Scalar.addi, IntOp.muli, IntOp.addi, Scf.iv] at h ⊢
  rw [h]
theorem k0_off7_row (L : grid0.Coords) (k : Fin k0_t1_loop.trips) (v : BitVec 32) (hv : v.toNat ≤ 10) :
    k0_off7 L k v = ![rowOf L k.val 4 v, 0, 0] := by
  unfold k0_off7 rowOf elem
  have h := Cert.Words.row_toNat (L 1).val (L 0).val k.val 4 v (L1_lt L) (L0_lt L) (k_lt k) (by decide) hv
  simp only [Scalar.muli, Scalar.addi, IntOp.muli, IntOp.addi, Scf.iv] at h ⊢
  rw [h]
theorem k0_off23_row (L : grid0.Coords) (k : Fin k0_t1_loop.trips) (v : BitVec 32) (hv : v.toNat ≤ 10) :
    k0_off23 L k v = ![rowOf L k.val 4 v, 0, 0] := by
  unfold k0_off23 rowOf elem
  have h := Cert.Words.row_toNat (L 1).val (L 0).val k.val 4 v (L1_lt L) (L0_lt L) (k_lt k) (by decide) hv
  simp only [Scalar.muli, Scalar.addi, IntOp.muli, IntOp.addi, Scf.iv] at h ⊢
  rw [h]
theorem k0_off8_row (L : grid0.Coords) (k : Fin k0_t1_loop.trips) (v : BitVec 32) (hv : v.toNat ≤ 10) :
    k0_off8 L k v = ![rowOf L k.val 5 v, 0, 0] := by
  unfold k0_off8 rowOf elem
  have h := Cert.Words.row_toNat (L 1).val (L 0).val k.val 5 v (L1_lt L) (L0_lt L) (k_lt k) (by decide) hv
  simp only [Scalar.muli, Scalar.addi, IntOp.muli, IntOp.addi, Scf.iv] at h ⊢
  rw [h]
theorem k0_off24_row (L : grid0.Coords) (k : Fin k0_t1_loop.trips) (v : BitVec 32) (hv : v.toNat ≤ 10) :
    k0_off24 L k v = ![rowOf L k.val 5 v, 0, 0] := by
  unfold k0_off24 rowOf elem
  have h := Cert.Words.row_toNat (L 1).val (L 0).val k.val 5 v (L1_lt L) (L0_lt L) (k_lt k) (by decide) hv
  simp only [Scalar.muli, Scalar.addi, IntOp.muli, IntOp.addi, Scf.iv] at h ⊢
  rw [h]
theorem k0_off9_row (L : grid0.Coords) (k : Fin k0_t1_loop.trips) (v : BitVec 32) (hv : v.toNat ≤ 10) :
    k0_off9 L k v = ![rowOf L k.val 6 v, 0, 0] := by
  unfold k0_off9 rowOf elem
  have h := Cert.Words.row_toNat (L 1).val (L 0).val k.val 6 v (L1_lt L) (L0_lt L) (k_lt k) (by decide) hv
  simp only [Scalar.muli, Scalar.addi, IntOp.muli, IntOp.addi, Scf.iv] at h ⊢
  rw [h]
theorem k0_off25_row (L : grid0.Coords) (k : Fin k0_t1_loop.trips) (v : BitVec 32) (hv : v.toNat ≤ 10) :
    k0_off25 L k v = ![rowOf L k.val 6 v, 0, 0] := by
  unfold k0_off25 rowOf elem
  have h := Cert.Words.row_toNat (L 1).val (L 0).val k.val 6 v (L1_lt L) (L0_lt L) (k_lt k) (by decide) hv
  simp only [Scalar.muli, Scalar.addi, IntOp.muli, IntOp.addi, Scf.iv] at h ⊢
  rw [h]
theorem k0_off10_row (L : grid0.Coords) (k : Fin k0_t1_loop.trips) (v : BitVec 32) (hv : v.toNat ≤ 10) :
    k0_off10 L k v = ![rowOf L k.val 7 v, 0, 0] := by
  unfold k0_off10 rowOf elem
  have h := Cert.Words.row_toNat (L 1).val (L 0).val k.val 7 v (L1_lt L) (L0_lt L) (k_lt k) (by decide) hv
  simp only [Scalar.muli, Scalar.addi, IntOp.muli, IntOp.addi, Scf.iv] at h ⊢
  rw [h]
theorem k0_off26_row (L : grid0.Coords) (k : Fin k0_t1_loop.trips) (v : BitVec 32) (hv : v.toNat ≤ 10) :
    k0_off26 L k v = ![rowOf L k.val 7 v, 0, 0] := by
  unfold k0_off26 rowOf elem
  have h := Cert.Words.row_toNat (L 1).val (L 0).val k.val 7 v (L1_lt L) (L0_lt L) (k_lt k) (by decide) hv
  simp only [Scalar.muli, Scalar.addi, IntOp.muli, IntOp.addi, Scf.iv] at h ⊢
  rw [h]
theorem k0_off11_row (L : grid0.Coords) (k : Fin k0_t1_loop.trips) (v : BitVec 32) (hv : v.toNat ≤ 10) :
    k0_off11 L k v = ![rowOf L k.val 8 v, 0, 0] := by
  unfold k0_off11 rowOf elem
  have h := Cert.Words.row_toNat (L 1).val (L 0).val k.val 8 v (L1_lt L) (L0_lt L) (k_lt k) (by decide) hv
  simp only [Scalar.muli, Scalar.addi, IntOp.muli, IntOp.addi, Scf.iv] at h ⊢
  rw [h]
theorem k0_off27_row (L : grid0.Coords) (k : Fin k0_t1_loop.trips) (v : BitVec 32) (hv : v.toNat ≤ 10) :
    k0_off27 L k v = ![rowOf L k.val 8 v, 0, 0] := by
  unfold k0_off27 rowOf elem
  have h := Cert.Words.row_toNat (L 1).val (L 0).val k.val 8 v (L1_lt L) (L0_lt L) (k_lt k) (by decide) hv
  simp only [Scalar.muli, Scalar.addi, IntOp.muli, IntOp.addi, Scf.iv] at h ⊢
  rw [h]
theorem k0_off12_row (L : grid0.Coords) (k : Fin k0_t1_loop.trips) (v : BitVec 32) (hv : v.toNat ≤ 10) :
    k0_off12 L k v = ![rowOf L k.val 9 v, 0, 0] := by
  unfold k0_off12 rowOf elem
  have h := Cert.Words.row_toNat (L 1).val (L 0).val k.val 9 v (L1_lt L) (L0_lt L) (k_lt k) (by decide) hv
  simp only [Scalar.muli, Scalar.addi, IntOp.muli, IntOp.addi, Scf.iv] at h ⊢
  rw [h]
theorem k0_off28_row (L : grid0.Coords) (k : Fin k0_t1_loop.trips) (v : BitVec 32) (hv : v.toNat ≤ 10) :
    k0_off28 L k v = ![rowOf L k.val 9 v, 0, 0] := by
  unfold k0_off28 rowOf elem
  have h := Cert.Words.row_toNat (L 1).val (L 0).val k.val 9 v (L1_lt L) (L0_lt L) (k_lt k) (by decide) hv
  simp only [Scalar.muli, Scalar.addi, IntOp.muli, IntOp.addi, Scf.iv] at h ⊢
  rw [h]
theorem k0_off13_row (L : grid0.Coords) (k : Fin k0_t1_loop.trips) (v : BitVec 32) (hv : v.toNat ≤ 10) :
    k0_off13 L k v = ![rowOf L k.val 10 v, 0, 0] := by
  unfold k0_off13 rowOf elem
  have h := Cert.Words.row_toNat (L 1).val (L 0).val k.val 10 v (L1_lt L) (L0_lt L) (k_lt k) (by decide) hv
  simp only [Scalar.muli, Scalar.addi, IntOp.muli, IntOp.addi, Scf.iv] at h ⊢
  rw [h]
theorem k0_off29_row (L : grid0.Coords) (k : Fin k0_t1_loop.trips) (v : BitVec 32) (hv : v.toNat ≤ 10) :
    k0_off29 L k v = ![rowOf L k.val 10 v, 0, 0] := by
  unfold k0_off29 rowOf elem
  have h := Cert.Words.row_toNat (L 1).val (L 0).val k.val 10 v (L1_lt L) (L0_lt L) (k_lt k) (by decide) hv
  simp only [Scalar.muli, Scalar.addi, IntOp.muli, IntOp.addi, Scf.iv] at h ⊢
  rw [h]
theorem k0_off14_row (L : grid0.Coords) (k : Fin k0_t1_loop.trips) (v : BitVec 32) (hv : v.toNat ≤ 10) :
    k0_off14 L k v = ![rowOf L k.val 11 v, 0, 0] := by
  unfold k0_off14 rowOf elem
  have h := Cert.Words.row_toNat (L 1).val (L 0).val k.val 11 v (L1_lt L) (L0_lt L) (k_lt k) (by decide) hv
  simp only [Scalar.muli, Scalar.addi, IntOp.muli, IntOp.addi, Scf.iv] at h ⊢
  rw [h]
theorem k0_off30_row (L : grid0.Coords) (k : Fin k0_t1_loop.trips) (v : BitVec 32) (hv : v.toNat ≤ 10) :
    k0_off30 L k v = ![rowOf L k.val 11 v, 0, 0] := by
  unfold k0_off30 rowOf elem
  have h := Cert.Words.row_toNat (L 1).val (L 0).val k.val 11 v (L1_lt L) (L0_lt L) (k_lt k) (by decide) hv
  simp only [Scalar.muli, Scalar.addi, IntOp.muli, IntOp.addi, Scf.iv] at h ⊢
  rw [h]
theorem k0_off15_row (L : grid0.Coords) (k : Fin k0_t1_loop.trips) (v : BitVec 32) (hv : v.toNat ≤ 10) :
    k0_off15 L k v = ![rowOf L k.val 12 v, 0, 0] := by
  unfold k0_off15 rowOf elem
  have h := Cert.Words.row_toNat (L 1).val (L 0).val k.val 12 v (L1_lt L) (L0_lt L) (k_lt k) (by decide) hv
  simp only [Scalar.muli, Scalar.addi, IntOp.muli, IntOp.addi, Scf.iv] at h ⊢
  rw [h]
theorem k0_off31_row (L : grid0.Coords) (k : Fin k0_t1_loop.trips) (v : BitVec 32) (hv : v.toNat ≤ 10) :
    k0_off31 L k v = ![rowOf L k.val 12 v, 0, 0] := by
  unfold k0_off31 rowOf elem
  have h := Cert.Words.row_toNat (L 1).val (L 0).val k.val 12 v (L1_lt L) (L0_lt L) (k_lt k) (by decide) hv
  simp only [Scalar.muli, Scalar.addi, IntOp.muli, IntOp.addi, Scf.iv] at h ⊢
  rw [h]
theorem k0_off16_row (L : grid0.Coords) (k : Fin k0_t1_loop.trips) (v : BitVec 32) (hv : v.toNat ≤ 10) :
    k0_off16 L k v = ![rowOf L k.val 13 v, 0, 0] := by
  unfold k0_off16 rowOf elem
  have h := Cert.Words.row_toNat (L 1).val (L 0).val k.val 13 v (L1_lt L) (L0_lt L) (k_lt k) (by decide) hv
  simp only [Scalar.muli, Scalar.addi, IntOp.muli, IntOp.addi, Scf.iv] at h ⊢
  rw [h]
theorem k0_off32_row (L : grid0.Coords) (k : Fin k0_t1_loop.trips) (v : BitVec 32) (hv : v.toNat ≤ 10) :
    k0_off32 L k v = ![rowOf L k.val 13 v, 0, 0] := by
  unfold k0_off32 rowOf elem
  have h := Cert.Words.row_toNat (L 1).val (L 0).val k.val 13 v (L1_lt L) (L0_lt L) (k_lt k) (by decide) hv
  simp only [Scalar.muli, Scalar.addi, IntOp.muli, IntOp.addi, Scf.iv] at h ⊢
  rw [h]
theorem k0_off17_row (L : grid0.Coords) (k : Fin k0_t1_loop.trips) (v : BitVec 32) (hv : v.toNat ≤ 10) :
    k0_off17 L k v = ![rowOf L k.val 14 v, 0, 0] := by
  unfold k0_off17 rowOf elem
  have h := Cert.Words.row_toNat (L 1).val (L 0).val k.val 14 v (L1_lt L) (L0_lt L) (k_lt k) (by decide) hv
  simp only [Scalar.muli, Scalar.addi, IntOp.muli, IntOp.addi, Scf.iv] at h ⊢
  rw [h]
theorem k0_off33_row (L : grid0.Coords) (k : Fin k0_t1_loop.trips) (v : BitVec 32) (hv : v.toNat ≤ 10) :
    k0_off33 L k v = ![rowOf L k.val 14 v, 0, 0] := by
  unfold k0_off33 rowOf elem
  have h := Cert.Words.row_toNat (L 1).val (L 0).val k.val 14 v (L1_lt L) (L0_lt L) (k_lt k) (by decide) hv
  simp only [Scalar.muli, Scalar.addi, IntOp.muli, IntOp.addi, Scf.iv] at h ⊢
  rw [h]
theorem k0_off18_row (L : grid0.Coords) (k : Fin k0_t1_loop.trips) (v : BitVec 32) (hv : v.toNat ≤ 10) :
    k0_off18 L k v = ![rowOf L k.val 15 v, 0, 0] := by
  unfold k0_off18 rowOf elem
  have h := Cert.Words.row_toNat (L 1).val (L 0).val k.val 15 v (L1_lt L) (L0_lt L) (k_lt k) (by decide) hv
  simp only [Scalar.muli, Scalar.addi, IntOp.muli, IntOp.addi, Scf.iv] at h ⊢
  rw [h]

theorem rowOf_lt (L : grid0.Coords) {k J : ℕ} (hk : k < 8) (hJ : J < 16) {v : BitVec 32} (hv : v.toNat ≤ 10) : rowOf L k J v < 45056 := by
  have := elem_lt L hk hJ; unfold rowOf; omega

/-! ## The checks: a step of at most ten names a row of the table -/

theorem row_inb (L : grid0.Coords) {k J : ℕ} (hk : k < 8) (hJ : J < 16) {v : BitVec 32} (hv : v.toNat ≤ 10) :
    ∀ a, (![rowOf L k J v, 0, 0] : Fin 3 → ℕ) a + S1x20x64.size a ≤ S45056x20x64.size a := by
  have := rowOf_lt L hk hJ hv
  intro a; fin_cases a
  · show rowOf L k J v + 1 ≤ 45056; omega
  · show 0 + 20 ≤ 20; omega
  · show 0 + 64 ≤ 64; omega

theorem k0_chk1_of_le (L : grid0.Coords) (k : Fin k0_t1_loop.trips) (v : BitVec 32) (hv : v.toNat ≤ 10) : k0_chk1 L k v := by
  unfold k0_chk1
  exact ⟨by rw [k0_off3_row L k v hv]; exact row_inb L (k_lt k) (by decide) hv, by rw [k0_off19_row L k v hv]; exact row_inb L (k_lt k) (by decide) hv⟩
theorem k0_chk2_of_le (L : grid0.Coords) (k : Fin k0_t1_loop.trips) (v : BitVec 32) (hv : v.toNat ≤ 10) : k0_chk2 L k v := by
  unfold k0_chk2
  exact ⟨by rw [k0_off4_row L k v hv]; exact row_inb L (k_lt k) (by decide) hv, by rw [k0_off20_row L k v hv]; exact row_inb L (k_lt k) (by decide) hv⟩
theorem k0_chk3_of_le (L : grid0.Coords) (k : Fin k0_t1_loop.trips) (v : BitVec 32) (hv : v.toNat ≤ 10) : k0_chk3 L k v := by
  unfold k0_chk3
  exact ⟨by rw [k0_off5_row L k v hv]; exact row_inb L (k_lt k) (by decide) hv, by rw [k0_off21_row L k v hv]; exact row_inb L (k_lt k) (by decide) hv⟩
theorem k0_chk4_of_le (L : grid0.Coords) (k : Fin k0_t1_loop.trips) (v : BitVec 32) (hv : v.toNat ≤ 10) : k0_chk4 L k v := by
  unfold k0_chk4
  exact ⟨by rw [k0_off6_row L k v hv]; exact row_inb L (k_lt k) (by decide) hv, by rw [k0_off22_row L k v hv]; exact row_inb L (k_lt k) (by decide) hv⟩
theorem k0_chk5_of_le (L : grid0.Coords) (k : Fin k0_t1_loop.trips) (v : BitVec 32) (hv : v.toNat ≤ 10) : k0_chk5 L k v := by
  unfold k0_chk5
  exact ⟨by rw [k0_off7_row L k v hv]; exact row_inb L (k_lt k) (by decide) hv, by rw [k0_off23_row L k v hv]; exact row_inb L (k_lt k) (by decide) hv⟩
theorem k0_chk6_of_le (L : grid0.Coords) (k : Fin k0_t1_loop.trips) (v : BitVec 32) (hv : v.toNat ≤ 10) : k0_chk6 L k v := by
  unfold k0_chk6
  exact ⟨by rw [k0_off8_row L k v hv]; exact row_inb L (k_lt k) (by decide) hv, by rw [k0_off24_row L k v hv]; exact row_inb L (k_lt k) (by decide) hv⟩
theorem k0_chk7_of_le (L : grid0.Coords) (k : Fin k0_t1_loop.trips) (v : BitVec 32) (hv : v.toNat ≤ 10) : k0_chk7 L k v := by
  unfold k0_chk7
  exact ⟨by rw [k0_off9_row L k v hv]; exact row_inb L (k_lt k) (by decide) hv, by rw [k0_off25_row L k v hv]; exact row_inb L (k_lt k) (by decide) hv⟩
theorem k0_chk8_of_le (L : grid0.Coords) (k : Fin k0_t1_loop.trips) (v : BitVec 32) (hv : v.toNat ≤ 10) : k0_chk8 L k v := by
  unfold k0_chk8
  exact ⟨by rw [k0_off10_row L k v hv]; exact row_inb L (k_lt k) (by decide) hv, by rw [k0_off26_row L k v hv]; exact row_inb L (k_lt k) (by decide) hv⟩
theorem k0_chk9_of_le (L : grid0.Coords) (k : Fin k0_t1_loop.trips) (v : BitVec 32) (hv : v.toNat ≤ 10) : k0_chk9 L k v := by
  unfold k0_chk9
  exact ⟨by rw [k0_off11_row L k v hv]; exact row_inb L (k_lt k) (by decide) hv, by rw [k0_off27_row L k v hv]; exact row_inb L (k_lt k) (by decide) hv⟩
theorem k0_chk10_of_le (L : grid0.Coords) (k : Fin k0_t1_loop.trips) (v : BitVec 32) (hv : v.toNat ≤ 10) : k0_chk10 L k v := by
  unfold k0_chk10
  exact ⟨by rw [k0_off12_row L k v hv]; exact row_inb L (k_lt k) (by decide) hv, by rw [k0_off28_row L k v hv]; exact row_inb L (k_lt k) (by decide) hv⟩
theorem k0_chk11_of_le (L : grid0.Coords) (k : Fin k0_t1_loop.trips) (v : BitVec 32) (hv : v.toNat ≤ 10) : k0_chk11 L k v := by
  unfold k0_chk11
  exact ⟨by rw [k0_off13_row L k v hv]; exact row_inb L (k_lt k) (by decide) hv, by rw [k0_off29_row L k v hv]; exact row_inb L (k_lt k) (by decide) hv⟩
theorem k0_chk12_of_le (L : grid0.Coords) (k : Fin k0_t1_loop.trips) (v : BitVec 32) (hv : v.toNat ≤ 10) : k0_chk12 L k v := by
  unfold k0_chk12
  exact ⟨by rw [k0_off14_row L k v hv]; exact row_inb L (k_lt k) (by decide) hv, by rw [k0_off30_row L k v hv]; exact row_inb L (k_lt k) (by decide) hv⟩
theorem k0_chk13_of_le (L : grid0.Coords) (k : Fin k0_t1_loop.trips) (v : BitVec 32) (hv : v.toNat ≤ 10) : k0_chk13 L k v := by
  unfold k0_chk13
  exact ⟨by rw [k0_off15_row L k v hv]; exact row_inb L (k_lt k) (by decide) hv, by rw [k0_off31_row L k v hv]; exact row_inb L (k_lt k) (by decide) hv⟩
theorem k0_chk14_of_le (L : grid0.Coords) (k : Fin k0_t1_loop.trips) (v : BitVec 32) (hv : v.toNat ≤ 10) : k0_chk14 L k v := by
  unfold k0_chk14
  exact ⟨by rw [k0_off16_row L k v hv]; exact row_inb L (k_lt k) (by decide) hv, by rw [k0_off32_row L k v hv]; exact row_inb L (k_lt k) (by decide) hv⟩
theorem k0_chk15_of_le (L : grid0.Coords) (k : Fin k0_t1_loop.trips) (v : BitVec 32) (hv : v.toNat ≤ 10) : k0_chk15 L k v := by
  unfold k0_chk15
  exact ⟨by rw [k0_off17_row L k v hv]; exact row_inb L (k_lt k) (by decide) hv, by rw [k0_off33_row L k v hv]; exact row_inb L (k_lt k) (by decide) hv⟩
theorem k0_chk16_of_le (L : grid0.Coords) (k : Fin k0_t1_loop.trips) (v : BitVec 32) (hv : v.toNat ≤ 10) : k0_chk16 L k v := by
  unfold k0_chk16
  exact by rw [k0_off18_row L k v hv]; exact row_inb L (k_lt k) (by decide) hv

/-! ## The steps a trip loads

The staging copy leaves the tile's 128 steps in its first scratch; trip `k` loads sixteen of them from `16 k` and takes
them apart lane by lane. Lane `J`'s word is the steps array's word at `elem L k J`. -/

/-- The tile's slab of the steps array, as the staging copy slices it. -/
abbrev stpSlab (L : grid0.Coords) : Memref sig .scVector .hbm S128 .i32 :=
  (stpV).slice (Rect.unit (s := S4096) (k0_off1 L) S128.size (k0_off1_inb L)) (fun _ => rfl)

/-- What the first scratch holds after the staging copy. -/
def slabOf (fstp : S4096.Idx → BitVec 32) (L : grid0.Coords) : S128.Idx → BitVec 32 :=
  (stpSlab L).view.read (Elt F) fstp

theorem slabOf_apply (fstp : S4096.Idx → BitVec 32) (L : grid0.Coords) (i : Fin 128) :
    slabOf (F := F) fstp L (ix1 i) = fstp (ix1 ⟨256 * (L 1).val + 128 * (L 0).val + i.val, by have := L0_lt L; have := L1_lt L; omega⟩) := by
  unfold slabOf
  refine (View.read_apply _ _).trans ((cast_eq _ _).trans (congrArg fstp ?_))
  refine funext fun (a : Fin 1) => Fin.ext ?_
  obtain rfl : a = 0 := Subsingleton.elim _ _
  show (k0_off1 L) 0 + 1 * i.val = 256 * (L 1).val + 128 * (L 0).val + i.val
  rw [k0_off1_eq]; simp

/-- The sixteen steps trip `k` loads, as the body's load reads them off the scratch's contents. -/
abbrev V8 (k : Fin k0_t1_loop.trips) (fs : S128.Idx → BitVec 32) : S16.Idx → BitVec 32 :=
  (sS).view.readAt (Elt F) (Rect.unit (s := S128) (k0_off2 k) S16.size (k0_off2_inb k)).toLoadRect fs

theorem V8_apply (k : Fin k0_t1_loop.trips) (fs : S128.Idx → BitVec 32) (j : Fin 16) :
    V8 (F := F) k fs (ix1 j) = fs (ix1 ⟨16 * k.val + j.val, by have := k_lt k; omega⟩) := by
  show View.readAt (Elt F) (sS).view (Rect.unit (s := S128) (k0_off2 k) S16.size (k0_off2_inb k)).toLoadRect fs (ix1 j) = _
  simp only [View.readAt_apply, Memref.view_whole, View.read_whole]
  refine congrArg fs ?_
  refine funext fun (a : Fin 1) => Fin.ext ?_
  obtain rfl : a = 0 := Subsingleton.elim _ _
  rw [LoadRect.idx_apply]
  show (k0_off2 k) 0 + 1 * j.val = 16 * k.val + j.val
  rw [k0_off2_eq]; simp

/-- Taking lane `J` out of a vector of sixteen words. -/
theorem extract_lane (v : S16.Idx → BitVec 32) (J : ℕ) (hJ : J < 16) (h1 : S16.ShapeCasts S16) (h2 : S16.Slices ![J] S1)
    (h3 : ∀ a, (![0] : Fin 1 → ℕ) a < S1.size a) :
    extractAt ![0] (extractStridedSlice S1 ![J] (shapeCast S16 v h1) h2) h3 = v (ix1 ⟨J, hJ⟩) := by
  rw [shapeCast_self]
  unfold extractAt extractStridedSlice
  refine congrArg v ?_
  refine funext fun (a : Fin 1) => Fin.ext ?_
  obtain rfl : a = 0 := Subsingleton.elim _ _
  show J + 0 = J
  omega

/-- Lane `J`'s word when the scratch holds the tile's slab. -/
theorem lane_word (fstp : S4096.Idx → BitVec 32) (L : grid0.Coords) (k : Fin k0_t1_loop.trips) (J : ℕ) (hJ : J < 16) :
    V8 (F := F) k (slabOf (F := F) fstp L) (ix1 ⟨J, hJ⟩) = wordAt fstp L k.val J (k_lt k) hJ := by
  rw [V8_apply, slabOf_apply]
  unfold wordAt elem
  refine congrArg fstp (congrArg ix1 (Fin.ext ?_))
  show 256 * (L 1).val + 128 * (L 0).val + (16 * k.val + J) = 256 * (L 1).val + 128 * (L 0).val + 16 * k.val + J
  omega

theorem word0 (fstp : S4096.Idx → BitVec 32) (L : grid0.Coords) (k : Fin k0_t1_loop.trips) :
    extractAt ![0] (k0_pay2 (F := F) (V8 (F := F) k (slabOf (F := F) fstp L))) inpos_S1_p0 = wordAt fstp L k.val 0 (k_lt k) (by decide) := by
  unfold k0_pay2 k0_pay1
  exact (extract_lane _ 0 (by decide) _ _ _).trans (lane_word fstp L k 0 (by decide))
theorem word1 (fstp : S4096.Idx → BitVec 32) (L : grid0.Coords) (k : Fin k0_t1_loop.trips) :
    extractAt ![0] (k0_pay3 (F := F) (V8 (F := F) k (slabOf (F := F) fstp L))) inpos_S1_p0 = wordAt fstp L k.val 1 (k_lt k) (by decide) := by
  unfold k0_pay3 k0_pay1
  exact (extract_lane _ 1 (by decide) _ _ _).trans (lane_word fstp L k 1 (by decide))
theorem word2 (fstp : S4096.Idx → BitVec 32) (L : grid0.Coords) (k : Fin k0_t1_loop.trips) :
    extractAt ![0] (k0_pay4 (F := F) (V8 (F := F) k (slabOf (F := F) fstp L))) inpos_S1_p0 = wordAt fstp L k.val 2 (k_lt k) (by decide) := by
  unfold k0_pay4 k0_pay1
  exact (extract_lane _ 2 (by decide) _ _ _).trans (lane_word fstp L k 2 (by decide))
theorem word3 (fstp : S4096.Idx → BitVec 32) (L : grid0.Coords) (k : Fin k0_t1_loop.trips) :
    extractAt ![0] (k0_pay5 (F := F) (V8 (F := F) k (slabOf (F := F) fstp L))) inpos_S1_p0 = wordAt fstp L k.val 3 (k_lt k) (by decide) := by
  unfold k0_pay5 k0_pay1
  exact (extract_lane _ 3 (by decide) _ _ _).trans (lane_word fstp L k 3 (by decide))
theorem word4 (fstp : S4096.Idx → BitVec 32) (L : grid0.Coords) (k : Fin k0_t1_loop.trips) :
    extractAt ![0] (k0_pay6 (F := F) (V8 (F := F) k (slabOf (F := F) fstp L))) inpos_S1_p0 = wordAt fstp L k.val 4 (k_lt k) (by decide) := by
  unfold k0_pay6 k0_pay1
  exact (extract_lane _ 4 (by decide) _ _ _).trans (lane_word fstp L k 4 (by decide))
theorem word5 (fstp : S4096.Idx → BitVec 32) (L : grid0.Coords) (k : Fin k0_t1_loop.trips) :
    extractAt ![0] (k0_pay7 (k0_pay1 (F := F) (V8 (F := F) k (slabOf (F := F) fstp L)))) inpos_S1_p0 = wordAt fstp L k.val 5 (k_lt k) (by decide) := by
  unfold k0_pay7 k0_pay1
  exact (extract_lane _ 5 (by decide) _ _ _).trans (lane_word fstp L k 5 (by decide))
theorem word6 (fstp : S4096.Idx → BitVec 32) (L : grid0.Coords) (k : Fin k0_t1_loop.trips) :
    extractAt ![0] (k0_pay8 (k0_pay1 (F := F) (V8 (F := F) k (slabOf (F := F) fstp L)))) inpos_S1_p0 = wordAt fstp L k.val 6 (k_lt k) (by decide) := by
  unfold k0_pay8 k0_pay1
  exact (extract_lane _ 6 (by decide) _ _ _).trans (lane_word fstp L k 6 (by decide))
theorem word7 (fstp : S4096.Idx → BitVec 32) (L : grid0.Coords) (k : Fin k0_t1_loop.trips) :
    extractAt ![0] (k0_pay9 (k0_pay1 (F := F) (V8 (F := F) k (slabOf (F := F) fstp L)))) inpos_S1_p0 = wordAt fstp L k.val 7 (k_lt k) (by decide) := by
  unfold k0_pay9 k0_pay1
  exact (extract_lane _ 7 (by decide) _ _ _).trans (lane_word fstp L k 7 (by decide))
theorem word8 (fstp : S4096.Idx → BitVec 32) (L : grid0.Coords) (k : Fin k0_t1_loop.trips) :
    extractAt ![0] (k0_pay10 (k0_pay1 (F := F) (V8 (F := F) k (slabOf (F := F) fstp L)))) inpos_S1_p0 = wordAt fstp L k.val 8 (k_lt k) (by decide) := by
  unfold k0_pay10 k0_pay1
  exact (extract_lane _ 8 (by decide) _ _ _).trans (lane_word fstp L k 8 (by decide))
theorem word9 (fstp : S4096.Idx → BitVec 32) (L : grid0.Coords) (k : Fin k0_t1_loop.trips) :
    extractAt ![0] (k0_pay11 (k0_pay1 (F := F) (V8 (F := F) k (slabOf (F := F) fstp L)))) inpos_S1_p0 = wordAt fstp L k.val 9 (k_lt k) (by decide) := by
  unfold k0_pay11 k0_pay1
  exact (extract_lane _ 9 (by decide) _ _ _).trans (lane_word fstp L k 9 (by decide))
theorem word10 (fstp : S4096.Idx → BitVec 32) (L : grid0.Coords) (k : Fin k0_t1_loop.trips) :
    extractAt ![0] (k0_pay12 (k0_pay1 (F := F) (V8 (F := F) k (slabOf (F := F) fstp L)))) inpos_S1_p0 = wordAt fstp L k.val 10 (k_lt k) (by decide) := by
  unfold k0_pay12 k0_pay1
  exact (extract_lane _ 10 (by decide) _ _ _).trans (lane_word fstp L k 10 (by decide))
theorem word11 (fstp : S4096.Idx → BitVec 32) (L : grid0.Coords) (k : Fin k0_t1_loop.trips) :
    extractAt ![0] (k0_pay13 (k0_pay1 (F := F) (V8 (F := F) k (slabOf (F := F) fstp L)))) inpos_S1_p0 = wordAt fstp L k.val 11 (k_lt k) (by decide) := by
  unfold k0_pay13 k0_pay1
  exact (extract_lane _ 11 (by decide) _ _ _).trans (lane_word fstp L k 11 (by decide))
theorem word12 (fstp : S4096.Idx → BitVec 32) (L : grid0.Coords) (k : Fin k0_t1_loop.trips) :
    extractAt ![0] (k0_pay14 (k0_pay1 (F := F) (V8 (F := F) k (slabOf (F := F) fstp L)))) inpos_S1_p0 = wordAt fstp L k.val 12 (k_lt k) (by decide) := by
  unfold k0_pay14 k0_pay1
  exact (extract_lane _ 12 (by decide) _ _ _).trans (lane_word fstp L k 12 (by decide))
theorem word13 (fstp : S4096.Idx → BitVec 32) (L : grid0.Coords) (k : Fin k0_t1_loop.trips) :
    extractAt ![0] (k0_pay15 (k0_pay1 (F := F) (V8 (F := F) k (slabOf (F := F) fstp L)))) inpos_S1_p0 = wordAt fstp L k.val 13 (k_lt k) (by decide) := by
  unfold k0_pay15 k0_pay1
  exact (extract_lane _ 13 (by decide) _ _ _).trans (lane_word fstp L k 13 (by decide))
theorem word14 (fstp : S4096.Idx → BitVec 32) (L : grid0.Coords) (k : Fin k0_t1_loop.trips) :
    extractAt ![0] (k0_pay16 (k0_pay1 (F := F) (V8 (F := F) k (slabOf (F := F) fstp L)))) inpos_S1_p0 = wordAt fstp L k.val 14 (k_lt k) (by decide) := by
  unfold k0_pay16 k0_pay1
  exact (extract_lane _ 14 (by decide) _ _ _).trans (lane_word fstp L k 14 (by decide))
theorem word15 (fstp : S4096.Idx → BitVec 32) (L : grid0.Coords) (k : Fin k0_t1_loop.trips) :
    extractAt ![0] (k0_pay17 (k0_pay1 (F := F) (V8 (F := F) k (slabOf (F := F) fstp L)))) inpos_S1_p0 = wordAt fstp L k.val 15 (k_lt k) (by decide) := by
  unfold k0_pay17 k0_pay1
  exact (extract_lane _ 15 (by decide) _ _ _).trans (lane_word fstp L k 15 (by decide))

/-! ## A row of the table, read through the source of a lane's copy -/

/-- The source of a lane's copy: one row of the table, sliced and its unit axis dropped. -/
abbrev srcRow (off : Fin 3 → ℕ) (h : ∀ a, off a + S1x20x64.size a ≤ S45056x20x64.size a) : Memref sig .scVector .hbm S20x64 .f32 :=
  ((tblV).slice (Rect.unit (s := S45056x20x64) off S1x20x64.size h) (fun _ => rfl)).squeeze S20x64 squeezes_S1x20x64_S20x64

theorem srcRow_read (ftb : S45056x20x64.Idx → Elt F .f32) (r : ℕ) (hr : r < 45056) (off : Fin 3 → ℕ) (hoff : off = ![r, 0, 0])
    (h : ∀ a, off a + S1x20x64.size a ≤ S45056x20x64.size a) (z : S20x64.Idx) :
    ReadAs.same.apply ((srcRow off h).view.read (Elt F) ftb) z = ftb (ix3 ⟨r, hr⟩ (z 0) (z 1)) := by
  subst hoff
  refine (View.read_apply _ _).trans ((cast_eq _ _).trans (congrArg ftb ?_))
  show (Rect.unit (s := S45056x20x64) ![r, 0, 0] S1x20x64.size h).emb
      (Shape.reshapeEquiv squeezes_S1x20x64_S20x64.numel_eq z) = _
  have e : Shape.reshapeEquiv squeezes_S1x20x64_S20x64.numel_eq z = (ix3 (0 : Fin 1) (z 0) (z 1) : S1x20x64.Idx) := by
    refine Shape.reshapeEquiv_eq_of_rowMajor _ ?_
    rw [Shape.rowMajor_val_three, Shape.rowMajor_val_two]
    show (0 * 20 + (z 0).val) * 64 + (z 1).val = (z 0).val * 64 + (z 1).val
    omega
  rw [e]
  refine funext fun (a : Fin 3) => Fin.ext ?_
  match a with
  | ⟨0, _⟩ => show r + 1 * 0 = r; omega
  | ⟨1, _⟩ => show 0 + 1 * (z 0).val = (z 0).val; omega
  | ⟨2, _⟩ => show 0 + 1 * (z 1).val = (z 1).val; omega

/-! ## The sixteen rows in the second scratch

Lane `J`'s copy lands in row `J` of the second scratch; after the sixteen have landed, row `y 0` of the scratch is what
lane `y 0` copied. -/

theorem squeeze_idx (z : S20x64.Idx) :
    Shape.reshapeEquiv squeezes_S1x20x64_S20x64.numel_eq z = (ix3 (0 : Fin 1) (z 0) (z 1) : S1x20x64.Idx) := by
  refine Shape.reshapeEquiv_eq_of_rowMajor _ ?_
  rw [Shape.rowMajor_val_three, Shape.rowMajor_val_two]
  show (0 * 20 + (z 0).val) * 64 + (z 1).val = (z 0).val * 64 + (z 1).val
  omega

/-- Row `J` of the second scratch, as a lane's copy names its destination. -/
abbrev dstRow (J : ℕ) (h : ∀ a, (![J, 0, 0] : Fin 3 → ℕ) a + S1x20x64.size a ≤ S16x20x64.size a) : Memref sig .scVector .vmem S20x64 .f32 :=
  ((sR).slice (Rect.unit (s := S16x20x64) ![J, 0, 0] S1x20x64.size h) (fun _ => rfl)).squeeze S20x64 squeezes_S1x20x64_S20x64

theorem J_lt {J : ℕ} (h : ∀ a, (![J, 0, 0] : Fin 3 → ℕ) a + S1x20x64.size a ≤ S16x20x64.size a) : J < 16 := by
  have := h 0; show J < 16; have e : (![J, 0, 0] : Fin 3 → ℕ) 0 + S1x20x64.size 0 = J + 1 := rfl; rw [e] at this
  exact this

theorem dstRow_emb (J : ℕ) (h : ∀ a, (![J, 0, 0] : Fin 3 → ℕ) a + S1x20x64.size a ≤ S16x20x64.size a) (z : S20x64.Idx) :
    (dstRow J h).view.emb z = (ix3 ⟨J, J_lt h⟩ (z 0) (z 1) : S16x20x64.Idx) := by
  show (Rect.unit (s := S16x20x64) ![J, 0, 0] S1x20x64.size h).emb (Shape.reshapeEquiv squeezes_S1x20x64_S20x64.numel_eq z) = _
  rw [squeeze_idx]
  refine funext fun (a : Fin 3) => Fin.ext ?_
  match a with
  | ⟨0, _⟩ => show J + 1 * 0 = J; omega
  | ⟨1, _⟩ => show 0 + 1 * (z 0).val = (z 0).val; omega
  | ⟨2, _⟩ => show 0 + 1 * (z 1).val = (z 1).val; omega

theorem dstRow_write (J : ℕ) (h : ∀ a, (![J, 0, 0] : Fin 3 → ℕ) a + S1x20x64.size a ≤ S16x20x64.size a)
    (f : S16x20x64.Idx → Elt F .f32) (p : S20x64.Idx → Elt F .f32) (y : S16x20x64.Idx) :
    (dstRow J h).view.write (Elt F) f p Finset.univ y = if (y 0).val = J then p (ix2 (y 1) (y 2)) else f y := by
  by_cases hy : (y 0).val = J
  · rw [if_pos hy]
    have e : y = (dstRow J h).view.emb (ix2 (y 1) (y 2)) := by
      rw [dstRow_emb]
      refine funext fun (a : Fin 3) => Fin.ext ?_
      match a with
      | ⟨0, _⟩ => exact hy
      | ⟨1, _⟩ => rfl
      | ⟨2, _⟩ => rfl
    conv_lhs => rw [e]
    exact (View.write_emb_of_mem _ _ (Finset.mem_univ _)).trans (cast_eq _ _)
  · rw [if_neg hy]
    refine View.write_of_not_mem _ _ _ ?_
    rw [View.setOn_univ]
    show y ∉ (((View.whole (cc0_scratch1 : Ref sig .scVector)).slice (Rect.unit (s := S16x20x64) ![J, 0, 0] S1x20x64.size h)).reshape S20x64 squeezes_S1x20x64_S20x64.numel_eq).set
    rw [View.set_reshape, View.set_slice_whole, Rect.mem_set_unit]
    intro hm
    have := hm 0
    have e1 : (![J, 0, 0] : Fin 3 → ℕ) 0 = J := rfl
    have e2 : S1x20x64.size 0 = 1 := rfl
    rw [e1, e2] at this
    omega

/-- Rows below `J` of the scratch hold what their lanes copied. -/
def RowsDone (G : ℕ → S20x64.Idx → Elt F .f32) (J : ℕ) (f : S16x20x64.Idx → Elt F .f32) : Prop :=
  ∀ y : S16x20x64.Idx, (y 0).val < J → f y = G (y 0).val (ix2 (y 1) (y 2))

theorem rows_zero (G : ℕ → S20x64.Idx → Elt F .f32) (f : S16x20x64.Idx → Elt F .f32) : RowsDone G 0 f :=
  fun _ h => absurd h (Nat.not_lt_zero _)

/-- Lane `J`'s copy lands in row `J` and leaves the rows below it alone. -/
theorem rows_step (G : ℕ → S20x64.Idx → Elt F .f32) (J : ℕ) (h : ∀ a, (![J, 0, 0] : Fin 3 → ℕ) a + S1x20x64.size a ≤ S16x20x64.size a)
    (f : S16x20x64.Idx → Elt F .f32) (p : S20x64.Idx → Elt F .f32) (e : ∀ z, p z = G J z) (hf : RowsDone G J f) :
    RowsDone G (J + 1) ((dstRow J h).view.write (Elt F) f p Finset.univ) := by
  intro y hy
  rw [dstRow_write]
  by_cases hJ : (y 0).val = J
  · rw [if_pos hJ, e, hJ]
  · rw [if_neg hJ]; exact hf y (by omega)

/-- After the sixteen lanes' copies, the second scratch read at `y` is what lane `y 0` copied, at `(y 1, y 2)`. -/
theorem rows_value (fr : S16x20x64.Idx → Elt F .f32)
    (p0 : S20x64.Idx → Elt F .f32) (p1 : S20x64.Idx → Elt F .f32) (p2 : S20x64.Idx → Elt F .f32) (p3 : S20x64.Idx → Elt F .f32) (p4 : S20x64.Idx → Elt F .f32) (p5 : S20x64.Idx → Elt F .f32) (p6 : S20x64.Idx → Elt F .f32) (p7 : S20x64.Idx → Elt F .f32) (p8 : S20x64.Idx → Elt F .f32) (p9 : S20x64.Idx → Elt F .f32) (p10 : S20x64.Idx → Elt F .f32) (p11 : S20x64.Idx → Elt F .f32) (p12 : S20x64.Idx → Elt F .f32) (p13 : S20x64.Idx → Elt F .f32) (p14 : S20x64.Idx → Elt F .f32) (p15 : S20x64.Idx → Elt F .f32)
    (h0 : ∀ a, (![0, 0, 0] : Fin 3 → ℕ) a + S1x20x64.size a ≤ S16x20x64.size a)
    (h1 : ∀ a, (![1, 0, 0] : Fin 3 → ℕ) a + S1x20x64.size a ≤ S16x20x64.size a)
    (h2 : ∀ a, (![2, 0, 0] : Fin 3 → ℕ) a + S1x20x64.size a ≤ S16x20x64.size a)
    (h3 : ∀ a, (![3, 0, 0] : Fin 3 → ℕ) a + S1x20x64.size a ≤ S16x20x64.size a)
    (h4 : ∀ a, (![4, 0, 0] : Fin 3 → ℕ) a + S1x20x64.size a ≤ S16x20x64.size a)
    (h5 : ∀ a, (![5, 0, 0] : Fin 3 → ℕ) a + S1x20x64.size a ≤ S16x20x64.size a)
    (h6 : ∀ a, (![6, 0, 0] : Fin 3 → ℕ) a + S1x20x64.size a ≤ S16x20x64.size a)
    (h7 : ∀ a, (![7, 0, 0] : Fin 3 → ℕ) a + S1x20x64.size a ≤ S16x20x64.size a)
    (h8 : ∀ a, (![8, 0, 0] : Fin 3 → ℕ) a + S1x20x64.size a ≤ S16x20x64.size a)
    (h9 : ∀ a, (![9, 0, 0] : Fin 3 → ℕ) a + S1x20x64.size a ≤ S16x20x64.size a)
    (h10 : ∀ a, (![10, 0, 0] : Fin 3 → ℕ) a + S1x20x64.size a ≤ S16x20x64.size a)
    (h11 : ∀ a, (![11, 0, 0] : Fin 3 → ℕ) a + S1x20x64.size a ≤ S16x20x64.size a)
    (h12 : ∀ a, (![12, 0, 0] : Fin 3 → ℕ) a + S1x20x64.size a ≤ S16x20x64.size a)
    (h13 : ∀ a, (![13, 0, 0] : Fin 3 → ℕ) a + S1x20x64.size a ≤ S16x20x64.size a)
    (h14 : ∀ a, (![14, 0, 0] : Fin 3 → ℕ) a + S1x20x64.size a ≤ S16x20x64.size a)
    (h15 : ∀ a, (![15, 0, 0] : Fin 3 → ℕ) a + S1x20x64.size a ≤ S16x20x64.size a)
    (G : ℕ → S20x64.Idx → Elt F .f32)
    (e0 : ∀ z, p0 z = G 0 z) (e1 : ∀ z, p1 z = G 1 z) (e2 : ∀ z, p2 z = G 2 z) (e3 : ∀ z, p3 z = G 3 z) (e4 : ∀ z, p4 z = G 4 z) (e5 : ∀ z, p5 z = G 5 z) (e6 : ∀ z, p6 z = G 6 z) (e7 : ∀ z, p7 z = G 7 z) (e8 : ∀ z, p8 z = G 8 z) (e9 : ∀ z, p9 z = G 9 z) (e10 : ∀ z, p10 z = G 10 z) (e11 : ∀ z, p11 z = G 11 z) (e12 : ∀ z, p12 z = G 12 z) (e13 : ∀ z, p13 z = G 13 z) (e14 : ∀ z, p14 z = G 14 z) (e15 : ∀ z, p15 z = G 15 z)
    (y : S16x20x64.Idx) :
    ReadAs.same.apply ((sR).view.read (Elt F) ((dstRow 15 h15).view.write (Elt F) ((dstRow 14 h14).view.write (Elt F) ((dstRow 13 h13).view.write (Elt F) ((dstRow 12 h12).view.write (Elt F) ((dstRow 11 h11).view.write (Elt F) ((dstRow 10 h10).view.write (Elt F) ((dstRow 9 h9).view.write (Elt F) ((dstRow 8 h8).view.write (Elt F) ((dstRow 7 h7).view.write (Elt F) ((dstRow 6 h6).view.write (Elt F) ((dstRow 5 h5).view.write (Elt F) ((dstRow 4 h4).view.write (Elt F) ((dstRow 3 h3).view.write (Elt F) ((dstRow 2 h2).view.write (Elt F) ((dstRow 1 h1).view.write (Elt F) ((dstRow 0 h0).view.write (Elt F) fr p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)) y = G (y 0).val (ix2 (y 1) (y 2)) :=
  (rows_step G 15 h15 _ p15 e15 (rows_step G 14 h14 _ p14 e14 (rows_step G 13 h13 _ p13 e13 (rows_step G 12 h12 _ p12 e12 (rows_step G 11 h11 _ p11 e11 (rows_step G 10 h10 _ p10 e10 (rows_step G 9 h9 _ p9 e9 (rows_step G 8 h8 _ p8 e8 (rows_step G 7 h7 _ p7 e7 (rows_step G 6 h6 _ p6 e6 (rows_step G 5 h5 _ p5 e5 (rows_step G 4 h4 _ p4 e4 (rows_step G 3 h3 _ p3 e3 (rows_step G 2 h2 _ p2 e2 (rows_step G 1 h1 _ p1 e1 (rows_step G 0 h0 _ p0 e0 (rows_zero G fr))))))))))))))))) y (y 0).isLt

/-! ## The chunk a trip writes -/

/-- Element `n` of trip `k` of tile `L`, as an index of the batch axis. -/
def elemF (L : grid0.Coords) (k n : ℕ) : Fin 4096 := ⟨elem L k n % 4096, Nat.mod_lt _ (by decide)⟩

theorem elemF_val (L : grid0.Coords) {k n : ℕ} (hk : k < 8) (hn : n < 16) : (elemF L k n).val = elem L k n :=
  Nat.mod_eq_of_lt (elem_lt L hk hn)

/-- The row a lane copies is the row the result wants: eleven times the element plus its step. -/
theorem row_eq (fstp : S4096.Idx → BitVec 32) (hs : Cert.Spec.StepsOK fstp) (L : grid0.Coords) {k J : ℕ} (hk : k < 8) (hJ : J < 16)
    (v : BitVec 32) (hv : v = wordAt fstp L k J hk hJ) :
    rowOf L k J v = (elemF L k J).val * 11 + (Cert.Spec.stepOf fstp (elemF L k J)).val := by
  subst hv
  have e : elemF L k J = ⟨elem L k J, elem_lt L hk hJ⟩ := Fin.ext (elemF_val L hk hJ)
  rw [e, Cert.Spec.stepOf_val hs]
  rfl

theorem chunk_emb (L : grid0.Coords) (k : Fin k0_t1_loop.trips) (y : S16x20x64.Idx) :
    (outChunk L k).view.emb y = (ix3 (elemF L k.val (y 0).val) (y 1) (y 2) : S4096x20x64.Idx) := by
  show (Rect.unit (s := S4096x20x64) (k0_off34 L k) S16x20x64.size (k0_off34_inb L k)).emb y = _
  refine funext fun (a : Fin 3) => Fin.ext ?_
  have hy : (y 0).val < 16 := (y 0).isLt
  match a with
  | ⟨0, _⟩ =>
    show (k0_off34 L k) 0 + 1 * (y 0).val = (elemF L k.val (y 0).val).val
    rw [k0_off34_eq, elemF_val L (k_lt k) hy]; unfold elem; simp
  | ⟨1, _⟩ => show (k0_off34 L k) 1 + 1 * (y 1).val = (y 1).val; rw [k0_off34_eq]; simp
  | ⟨2, _⟩ => show (k0_off34 L k) 2 + 1 * (y 2).val = (y 2).val; rw [k0_off34_eq]; simp

/-- What the copy-out leaves in the trip's chunk of the result is the gathered rows there. -/
theorem chunk_value (ftb : S45056x20x64.Idx → Elt F .f32) (fstp : S4096.Idx → BitVec 32) (L : grid0.Coords) (k : Fin k0_t1_loop.trips)
    (fo : S4096x20x64.Idx → Elt F .f32) (X : S16x20x64.Idx → Elt F .f32)
    (hX : ∀ y : S16x20x64.Idx, X y = rowsOf ftb fstp (ix3 (elemF L k.val (y 0).val) (y 1) (y 2))) :
    ∀ i ∈ (outChunk L k).view.set, (outChunk L k).view.writes (Elt F) fo [⟨Rect.whole S16x20x64, X⟩] i = rowsOf ftb fstp i := by
  intro i hi
  obtain ⟨y, -, rfl⟩ := Finset.mem_map.mp hi
  have h1 := View.read_writes_cons_emb (v := (outChunk L k).view) (f := fo) (Rect.whole S16x20x64) X [] y
  rw [Rect.emb_whole_apply] at h1
  have h2 := (View.read_apply (v := (outChunk L k).view) ((outChunk L k).view.writes (Elt F) fo [⟨Rect.whole S16x20x64, X⟩]) y).symm.trans h1
  rw [cast_eq] at h2
  rw [h2, hX y, chunk_emb]

end Cert.Proof.WordsI
end
-- ==== Proof.LanesI.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.KernelIdeal
import proofs.«205373_g65798898975314_cont_9to1c4b_285_22_alg».proof.Proof.Gen.KernelIdeal.Skeleton
import proofs.«205373_g65798898975314_cont_9to1c4b_285_22_alg».proof.Proof.Spec
import proofs.«205373_g65798898975314_cont_9to1c4b_285_22_alg».proof.Proof.SetupI
import proofs.«205373_g65798898975314_cont_9to1c4b_285_22_alg».proof.Proof.Words
import proofs.«205373_g65798898975314_cont_9to1c4b_285_22_alg».proof.Proof.WordsI
import Idealize.ShloMosaic.Lib.Pipeline.Value
import Idealize.ShloMosaic.Lib.ValueIdx

noncomputable section

namespace Cert.Proof.LanesI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Cert.Proof.SetupI
open Idealize.ShloMosaic.ValueIdx
open Cert.Proof.WordsI

local notation "𝕄" => MT nD τ sig (HIx 1) (Elt F) ℕ UU ℕ

variable (m : (ℓ : Loc nD τ sig) → Buf (Elt F) ℓ) (ρ : Dev nD → PrngReg)

/-! ## Lane by lane: the word is in range, and the copy reads the wanted row -/

/-- A word that is some lane's step is at most ten. -/
theorem wle_of (fstp : S4096.Idx → BitVec 32) (hs : Cert.Spec.StepsOK fstp) (L : grid0.Coords) {k J : ℕ} (hk : k < 8) (hJ : J < 16)
    (v : BitVec 32) (hv : v = wordAt fstp L k J hk hJ) : v.toNat ≤ 10 := by
  subst hv; exact hs _

theorem lane0 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 0 (k_lt k) (by decide))
    (h : ∀ a, (k0_off3 L k v) a + S1x20x64.size a ≤ S45056x20x64.size a) (z : S20x64.Idx) :
    ReadAs.same.apply ((srcRow (k0_off3 L k v) h).view.read (Elt F) ftb) z
      = rowsOf ftb fstp (ix3 (elemF L k.val 0) (z 0) (z 1)) := by
  have hle := wle_of fstp hs L (k_lt k) (by decide : 0 < 16) v hv
  refine (srcRow_read ftb (rowOf L k.val 0 v) (rowOf_lt L (k_lt k) (by decide) hle) _ (k0_off3_row L k v hle) h z).trans ?_
  unfold rowsOf
  exact congrArg ftb (congrArg (fun r => ix3 r (z 0) (z 1)) (Fin.ext (row_eq fstp hs L (k_lt k) (by decide) v hv)))
theorem lane1 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 1 (k_lt k) (by decide))
    (h : ∀ a, (k0_off4 L k v) a + S1x20x64.size a ≤ S45056x20x64.size a) (z : S20x64.Idx) :
    ReadAs.same.apply ((srcRow (k0_off4 L k v) h).view.read (Elt F) ftb) z
      = rowsOf ftb fstp (ix3 (elemF L k.val 1) (z 0) (z 1)) := by
  have hle := wle_of fstp hs L (k_lt k) (by decide : 1 < 16) v hv
  refine (srcRow_read ftb (rowOf L k.val 1 v) (rowOf_lt L (k_lt k) (by decide) hle) _ (k0_off4_row L k v hle) h z).trans ?_
  unfold rowsOf
  exact congrArg ftb (congrArg (fun r => ix3 r (z 0) (z 1)) (Fin.ext (row_eq fstp hs L (k_lt k) (by decide) v hv)))
theorem lane2 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 2 (k_lt k) (by decide))
    (h : ∀ a, (k0_off5 L k v) a + S1x20x64.size a ≤ S45056x20x64.size a) (z : S20x64.Idx) :
    ReadAs.same.apply ((srcRow (k0_off5 L k v) h).view.read (Elt F) ftb) z
      = rowsOf ftb fstp (ix3 (elemF L k.val 2) (z 0) (z 1)) := by
  have hle := wle_of fstp hs L (k_lt k) (by decide : 2 < 16) v hv
  refine (srcRow_read ftb (rowOf L k.val 2 v) (rowOf_lt L (k_lt k) (by decide) hle) _ (k0_off5_row L k v hle) h z).trans ?_
  unfold rowsOf
  exact congrArg ftb (congrArg (fun r => ix3 r (z 0) (z 1)) (Fin.ext (row_eq fstp hs L (k_lt k) (by decide) v hv)))
theorem lane3 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 3 (k_lt k) (by decide))
    (h : ∀ a, (k0_off6 L k v) a + S1x20x64.size a ≤ S45056x20x64.size a) (z : S20x64.Idx) :
    ReadAs.same.apply ((srcRow (k0_off6 L k v) h).view.read (Elt F) ftb) z
      = rowsOf ftb fstp (ix3 (elemF L k.val 3) (z 0) (z 1)) := by
  have hle := wle_of fstp hs L (k_lt k) (by decide : 3 < 16) v hv
  refine (srcRow_read ftb (rowOf L k.val 3 v) (rowOf_lt L (k_lt k) (by decide) hle) _ (k0_off6_row L k v hle) h z).trans ?_
  unfold rowsOf
  exact congrArg ftb (congrArg (fun r => ix3 r (z 0) (z 1)) (Fin.ext (row_eq fstp hs L (k_lt k) (by decide) v hv)))
theorem lane4 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 4 (k_lt k) (by decide))
    (h : ∀ a, (k0_off7 L k v) a + S1x20x64.size a ≤ S45056x20x64.size a) (z : S20x64.Idx) :
    ReadAs.same.apply ((srcRow (k0_off7 L k v) h).view.read (Elt F) ftb) z
      = rowsOf ftb fstp (ix3 (elemF L k.val 4) (z 0) (z 1)) := by
  have hle := wle_of fstp hs L (k_lt k) (by decide : 4 < 16) v hv
  refine (srcRow_read ftb (rowOf L k.val 4 v) (rowOf_lt L (k_lt k) (by decide) hle) _ (k0_off7_row L k v hle) h z).trans ?_
  unfold rowsOf
  exact congrArg ftb (congrArg (fun r => ix3 r (z 0) (z 1)) (Fin.ext (row_eq fstp hs L (k_lt k) (by decide) v hv)))
theorem lane5 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 5 (k_lt k) (by decide))
    (h : ∀ a, (k0_off8 L k v) a + S1x20x64.size a ≤ S45056x20x64.size a) (z : S20x64.Idx) :
    ReadAs.same.apply ((srcRow (k0_off8 L k v) h).view.read (Elt F) ftb) z
      = rowsOf ftb fstp (ix3 (elemF L k.val 5) (z 0) (z 1)) := by
  have hle := wle_of fstp hs L (k_lt k) (by decide : 5 < 16) v hv
  refine (srcRow_read ftb (rowOf L k.val 5 v) (rowOf_lt L (k_lt k) (by decide) hle) _ (k0_off8_row L k v hle) h z).trans ?_
  unfold rowsOf
  exact congrArg ftb (congrArg (fun r => ix3 r (z 0) (z 1)) (Fin.ext (row_eq fstp hs L (k_lt k) (by decide) v hv)))
theorem lane6 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 6 (k_lt k) (by decide))
    (h : ∀ a, (k0_off9 L k v) a + S1x20x64.size a ≤ S45056x20x64.size a) (z : S20x64.Idx) :
    ReadAs.same.apply ((srcRow (k0_off9 L k v) h).view.read (Elt F) ftb) z
      = rowsOf ftb fstp (ix3 (elemF L k.val 6) (z 0) (z 1)) := by
  have hle := wle_of fstp hs L (k_lt k) (by decide : 6 < 16) v hv
  refine (srcRow_read ftb (rowOf L k.val 6 v) (rowOf_lt L (k_lt k) (by decide) hle) _ (k0_off9_row L k v hle) h z).trans ?_
  unfold rowsOf
  exact congrArg ftb (congrArg (fun r => ix3 r (z 0) (z 1)) (Fin.ext (row_eq fstp hs L (k_lt k) (by decide) v hv)))
theorem lane7 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 7 (k_lt k) (by decide))
    (h : ∀ a, (k0_off10 L k v) a + S1x20x64.size a ≤ S45056x20x64.size a) (z : S20x64.Idx) :
    ReadAs.same.apply ((srcRow (k0_off10 L k v) h).view.read (Elt F) ftb) z
      = rowsOf ftb fstp (ix3 (elemF L k.val 7) (z 0) (z 1)) := by
  have hle := wle_of fstp hs L (k_lt k) (by decide : 7 < 16) v hv
  refine (srcRow_read ftb (rowOf L k.val 7 v) (rowOf_lt L (k_lt k) (by decide) hle) _ (k0_off10_row L k v hle) h z).trans ?_
  unfold rowsOf
  exact congrArg ftb (congrArg (fun r => ix3 r (z 0) (z 1)) (Fin.ext (row_eq fstp hs L (k_lt k) (by decide) v hv)))
theorem lane8 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 8 (k_lt k) (by decide))
    (h : ∀ a, (k0_off11 L k v) a + S1x20x64.size a ≤ S45056x20x64.size a) (z : S20x64.Idx) :
    ReadAs.same.apply ((srcRow (k0_off11 L k v) h).view.read (Elt F) ftb) z
      = rowsOf ftb fstp (ix3 (elemF L k.val 8) (z 0) (z 1)) := by
  have hle := wle_of fstp hs L (k_lt k) (by decide : 8 < 16) v hv
  refine (srcRow_read ftb (rowOf L k.val 8 v) (rowOf_lt L (k_lt k) (by decide) hle) _ (k0_off11_row L k v hle) h z).trans ?_
  unfold rowsOf
  exact congrArg ftb (congrArg (fun r => ix3 r (z 0) (z 1)) (Fin.ext (row_eq fstp hs L (k_lt k) (by decide) v hv)))
theorem lane9 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 9 (k_lt k) (by decide))
    (h : ∀ a, (k0_off12 L k v) a + S1x20x64.size a ≤ S45056x20x64.size a) (z : S20x64.Idx) :
    ReadAs.same.apply ((srcRow (k0_off12 L k v) h).view.read (Elt F) ftb) z
      = rowsOf ftb fstp (ix3 (elemF L k.val 9) (z 0) (z 1)) := by
  have hle := wle_of fstp hs L (k_lt k) (by decide : 9 < 16) v hv
  refine (srcRow_read ftb (rowOf L k.val 9 v) (rowOf_lt L (k_lt k) (by decide) hle) _ (k0_off12_row L k v hle) h z).trans ?_
  unfold rowsOf
  exact congrArg ftb (congrArg (fun r => ix3 r (z 0) (z 1)) (Fin.ext (row_eq fstp hs L (k_lt k) (by decide) v hv)))
theorem lane10 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 10 (k_lt k) (by decide))
    (h : ∀ a, (k0_off13 L k v) a + S1x20x64.size a ≤ S45056x20x64.size a) (z : S20x64.Idx) :
    ReadAs.same.apply ((srcRow (k0_off13 L k v) h).view.read (Elt F) ftb) z
      = rowsOf ftb fstp (ix3 (elemF L k.val 10) (z 0) (z 1)) := by
  have hle := wle_of fstp hs L (k_lt k) (by decide : 10 < 16) v hv
  refine (srcRow_read ftb (rowOf L k.val 10 v) (rowOf_lt L (k_lt k) (by decide) hle) _ (k0_off13_row L k v hle) h z).trans ?_
  unfold rowsOf
  exact congrArg ftb (congrArg (fun r => ix3 r (z 0) (z 1)) (Fin.ext (row_eq fstp hs L (k_lt k) (by decide) v hv)))
theorem lane11 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 11 (k_lt k) (by decide))
    (h : ∀ a, (k0_off14 L k v) a + S1x20x64.size a ≤ S45056x20x64.size a) (z : S20x64.Idx) :
    ReadAs.same.apply ((srcRow (k0_off14 L k v) h).view.read (Elt F) ftb) z
      = rowsOf ftb fstp (ix3 (elemF L k.val 11) (z 0) (z 1)) := by
  have hle := wle_of fstp hs L (k_lt k) (by decide : 11 < 16) v hv
  refine (srcRow_read ftb (rowOf L k.val 11 v) (rowOf_lt L (k_lt k) (by decide) hle) _ (k0_off14_row L k v hle) h z).trans ?_
  unfold rowsOf
  exact congrArg ftb (congrArg (fun r => ix3 r (z 0) (z 1)) (Fin.ext (row_eq fstp hs L (k_lt k) (by decide) v hv)))
theorem lane12 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 12 (k_lt k) (by decide))
    (h : ∀ a, (k0_off15 L k v) a + S1x20x64.size a ≤ S45056x20x64.size a) (z : S20x64.Idx) :
    ReadAs.same.apply ((srcRow (k0_off15 L k v) h).view.read (Elt F) ftb) z
      = rowsOf ftb fstp (ix3 (elemF L k.val 12) (z 0) (z 1)) := by
  have hle := wle_of fstp hs L (k_lt k) (by decide : 12 < 16) v hv
  refine (srcRow_read ftb (rowOf L k.val 12 v) (rowOf_lt L (k_lt k) (by decide) hle) _ (k0_off15_row L k v hle) h z).trans ?_
  unfold rowsOf
  exact congrArg ftb (congrArg (fun r => ix3 r (z 0) (z 1)) (Fin.ext (row_eq fstp hs L (k_lt k) (by decide) v hv)))
theorem lane13 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 13 (k_lt k) (by decide))
    (h : ∀ a, (k0_off16 L k v) a + S1x20x64.size a ≤ S45056x20x64.size a) (z : S20x64.Idx) :
    ReadAs.same.apply ((srcRow (k0_off16 L k v) h).view.read (Elt F) ftb) z
      = rowsOf ftb fstp (ix3 (elemF L k.val 13) (z 0) (z 1)) := by
  have hle := wle_of fstp hs L (k_lt k) (by decide : 13 < 16) v hv
  refine (srcRow_read ftb (rowOf L k.val 13 v) (rowOf_lt L (k_lt k) (by decide) hle) _ (k0_off16_row L k v hle) h z).trans ?_
  unfold rowsOf
  exact congrArg ftb (congrArg (fun r => ix3 r (z 0) (z 1)) (Fin.ext (row_eq fstp hs L (k_lt k) (by decide) v hv)))
theorem lane14 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 14 (k_lt k) (by decide))
    (h : ∀ a, (k0_off17 L k v) a + S1x20x64.size a ≤ S45056x20x64.size a) (z : S20x64.Idx) :
    ReadAs.same.apply ((srcRow (k0_off17 L k v) h).view.read (Elt F) ftb) z
      = rowsOf ftb fstp (ix3 (elemF L k.val 14) (z 0) (z 1)) := by
  have hle := wle_of fstp hs L (k_lt k) (by decide : 14 < 16) v hv
  refine (srcRow_read ftb (rowOf L k.val 14 v) (rowOf_lt L (k_lt k) (by decide) hle) _ (k0_off17_row L k v hle) h z).trans ?_
  unfold rowsOf
  exact congrArg ftb (congrArg (fun r => ix3 r (z 0) (z 1)) (Fin.ext (row_eq fstp hs L (k_lt k) (by decide) v hv)))
theorem lane15 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 15 (k_lt k) (by decide))
    (h : ∀ a, (k0_off18 L k v) a + S1x20x64.size a ≤ S45056x20x64.size a) (z : S20x64.Idx) :
    ReadAs.same.apply ((srcRow (k0_off18 L k v) h).view.read (Elt F) ftb) z
      = rowsOf ftb fstp (ix3 (elemF L k.val 15) (z 0) (z 1)) := by
  have hle := wle_of fstp hs L (k_lt k) (by decide : 15 < 16) v hv
  refine (srcRow_read ftb (rowOf L k.val 15 v) (rowOf_lt L (k_lt k) (by decide) hle) _ (k0_off18_row L k v hle) h z).trans ?_
  unfold rowsOf
  exact congrArg ftb (congrArg (fun r => ix3 r (z 0) (z 1)) (Fin.ext (row_eq fstp hs L (k_lt k) (by decide) v hv)))

end Cert.Proof.LanesI
end
-- ==== Proof.PlumbI.lean ====
/-
  A tile's own storage, unpacked: its scoped semaphores at zero are the kernel's three DMA semaphores at zero and the
  rest; its own buffers are the two scratches, at some contents, and the rest. And a read share halves: what remains
  after `j` tokens is what remains after `j + 1` and token `j`.
-/
import proofs.«205373_g65798898975314_cont_9to1c4b_285_22_alg».proof.Proof.SetupI

noncomputable section

namespace Cert.Proof.PlumbI

open Cert.KernelIdeal Cert.KernelIdeal.Gen
open Cert.Proof.SetupI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid0.Coords)

/-- The tile's scoped semaphores at zero: the kernel's three DMA semaphores, and the rest. -/
theorem ownSems0_V :
    (ownSems0 (thr d L) : sProp 𝕄)
      = iprop(semVal (thr d L, SemLoc.dma cc0_scratch2.sem) 0 ∗ semVal (thr d L, SemLoc.dma cc0_scoped0.sem) 0 ∗ semVal (thr d L, SemLoc.dma cc0_scoped1.sem) 0
          ∗ bigSep ((((ownCells (thr d L)).erase (thr d L, SemLoc.dma cc0_scratch2.sem)).erase (thr d L, SemLoc.dma cc0_scoped0.sem)).erase (thr d L, SemLoc.dma cc0_scoped1.sem))
              fun g => semVal g 0) := by
  unfold SparseCore.Cfg.ownSems0
  rw [SparseCore.bigSep_erase' ((mem_ownCells (g := (thr d L, SemLoc.dma cc0_scratch2.sem))).mpr ⟨rfl, by
      show (SemLoc.dma cc0_scratch2.sem : SemLoc sig).isScoped .scVector = true; decide⟩),
    SparseCore.bigSep_erase' (Finset.mem_erase.mpr ⟨fun e => absurd (Prod.mk.inj e).2 (by decide),
      (mem_ownCells (g := (thr d L, SemLoc.dma cc0_scoped0.sem))).mpr ⟨rfl, by
        show (SemLoc.dma cc0_scoped0.sem : SemLoc sig).isScoped .scVector = true; decide⟩⟩),
    SparseCore.bigSep_erase' (Finset.mem_erase.mpr ⟨fun e => absurd (Prod.mk.inj e).2 (by decide),
      Finset.mem_erase.mpr ⟨fun e => absurd (Prod.mk.inj e).2 (by decide),
        (mem_ownCells (g := (thr d L, SemLoc.dma cc0_scoped1.sem))).mpr ⟨rfl, by
          show (SemLoc.dma cc0_scoped1.sem : SemLoc sig).isScoped .scVector = true; decide⟩⟩⟩)]

/-- The tile's own buffers: the two scratches, each at some contents, and the rest. -/
theorem ownBufs_V :
    (ownBufs (thr d L) : sProp 𝕄)
      = iprop((∃ f, (sS).view.loc (thr d L) ↦{fullShare} f) ∗ (∃ f, (sR).view.loc (thr d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  show (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What remains of a read share after `j` tokens is what remains after `j + 1`, and token `j`. -/
theorem lane_split {ℓ : Loc nD τ sig} {S : Finset (Idx ℓ)} {f : Buf (Elt F) ℓ} (q : PosShare TreeShare) (j : ℕ) :
    (ℓ ↦[S]{Transfers.shareDrop q j} f : sProp 𝕄) ⊢ iprop((ℓ ↦[S]{Transfers.shareDrop q (j + 1)} f) ∗ ℓ ↦[S]{Transfers.shareTokN q j} f) :=
  (pointsTo_share (PosShare.mem_left_op_right _)).1

end Cert.Proof.PlumbI

end
-- ==== Proof.TileI.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.KernelIdeal
import proofs.«205373_g65798898975314_cont_9to1c4b_285_22_alg».proof.Proof.Gen.KernelIdeal.Skeleton
import proofs.«205373_g65798898975314_cont_9to1c4b_285_22_alg».proof.Proof.Spec
import proofs.«205373_g65798898975314_cont_9to1c4b_285_22_alg».proof.Proof.SetupI
import proofs.«205373_g65798898975314_cont_9to1c4b_285_22_alg».proof.Proof.Words
import proofs.«205373_g65798898975314_cont_9to1c4b_285_22_alg».proof.Proof.WordsI
import proofs.«205373_g65798898975314_cont_9to1c4b_285_22_alg».proof.Proof.LanesI
import proofs.«205373_g65798898975314_cont_9to1c4b_285_22_alg».proof.Proof.LaunchI
import proofs.«205373_g65798898975314_cont_9to1c4b_285_22_alg».proof.Proof.PlumbI
import Idealize.ShloMosaic.Lib.Pipeline.Value
import Idealize.ShloMosaic.Lib.ValueIdx

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Cert.Proof.SetupI
open Idealize.ShloMosaic.ValueIdx
open Cert.Proof.WordsI Cert.Proof.LanesI

local notation "𝕄" => MT nD τ sig (HIx 1) (Elt F) ℕ UU ℕ

variable (m : (ℓ : Loc nD τ sig) → Buf (Elt F) ℓ) (ρ : Dev nD → PrngReg)

/-! ## The tile's task

The tile stages its 128 steps, then in eight trips loads sixteen of them, starts the sixteen row copies on one semaphore,
waits for the sixteen, and copies the gathered rows out to its chunk of the result. Before trip `n` the chunks below
`n` hold the gathered rows and the others their launch contents. -/

section Tile
variable (d : Dev nD) (L : grid0.Coords)

/-- The tile's sixteen shares of the table, one per lane of a trip. -/
def tbl16 (ftb : S45056x20x64.Idx → Elt F .f32) : sProp 𝕄 :=
  iprop(((tblV).view.loc (thr d L) ↦{qLane (L 0).val (L 1).val 0} ftb)
      ∗ ((tblV).view.loc (thr d L) ↦{qLane (L 0).val (L 1).val 1} ftb)
      ∗ ((tblV).view.loc (thr d L) ↦{qLane (L 0).val (L 1).val 2} ftb)
      ∗ ((tblV).view.loc (thr d L) ↦{qLane (L 0).val (L 1).val 3} ftb)
      ∗ ((tblV).view.loc (thr d L) ↦{qLane (L 0).val (L 1).val 4} ftb)
      ∗ ((tblV).view.loc (thr d L) ↦{qLane (L 0).val (L 1).val 5} ftb)
      ∗ ((tblV).view.loc (thr d L) ↦{qLane (L 0).val (L 1).val 6} ftb)
      ∗ ((tblV).view.loc (thr d L) ↦{qLane (L 0).val (L 1).val 7} ftb)
      ∗ ((tblV).view.loc (thr d L) ↦{qLane (L 0).val (L 1).val 8} ftb)
      ∗ ((tblV).view.loc (thr d L) ↦{qLane (L 0).val (L 1).val 9} ftb)
      ∗ ((tblV).view.loc (thr d L) ↦{qLane (L 0).val (L 1).val 10} ftb)
      ∗ ((tblV).view.loc (thr d L) ↦{qLane (L 0).val (L 1).val 11} ftb)
      ∗ ((tblV).view.loc (thr d L) ↦{qLane (L 0).val (L 1).val 12} ftb)
      ∗ ((tblV).view.loc (thr d L) ↦{qLane (L 0).val (L 1).val 13} ftb)
      ∗ ((tblV).view.loc (thr d L) ↦{qLane (L 0).val (L 1).val 14} ftb)
      ∗ ((tblV).view.loc (thr d L) ↦{qLane (L 0).val (L 1).val 15} ftb))

theorem ins_ok {thrW : Type} [DecidableEq thrW] {W' W : Finset (thrW × HIx 1)} {a : thrW × HIx 1} (ha : a.2 = none)
    (h : ∀ p ∈ W', p ∈ W ∨ p.2 = none) : ∀ p ∈ insert a W', p ∈ W ∨ p.2 = none :=
  fun p hp => (Finset.mem_insert.mp hp).elim (fun e => .inr (e ▸ ha)) (h p)

variable [FloatOps F]

/-- Before trip `n`. -/
def inv (O : CellTallies nD τ sig (HIx 1)) (W : Waits sig (HIx 1)) (n : ℕ) (_ : PUnit) : sProp 𝕄 :=
  iprop(Transfers.MayWaits (thr d L) (none : HIx 1) O
    ∗ tbl16 d L (tblOf m d)
    ∗ ((sS).view.loc (thr d L) ↦{fullShare} slabOf (F := F) (stpOf m d) L)
    ∗ (∃ fr, (sR).view.loc (thr d L) ↦{fullShare} fr)
    ∗ semVal (thr d L, SemLoc.dma cc0_scratch2.sem) 0 ∗ semVal (thr d L, SemLoc.dma cc0_scoped0.sem) 0 ∗ semVal (thr d L, SemLoc.dma cc0_scoped1.sem) 0
    ∗ (bigSep Finset.univ fun k' : Fin k0_t1_loop.trips =>
        (outChunk L k').view.loc (thr d L) ↦[(outChunk L k').view.set]{fullShare} (if k'.val < n then rowsOf (tblOf m d) (stpOf m d) else outOf m d))
    ∗ ∃ W', ⌜∀ p ∈ W', p ∈ W ∨ p.2 = none⌝ ∗ owes (thr d L) O W')

end Tile

variable [FloatOps F]

set_option sl_exec.dischHeartbeats 400000 in
set_option maxHeartbeats 4000000 in
theorem tile_body (hs : ∀ d, Cert.Spec.StepsOK (stpOf m d)) : Cert.Proof.LaunchI.TileBody m := by
  intro d L O W hO
  have _plan : Transfers.BatchOf (thr d L) (SemLoc.dma (sig := sig) cc0_scratch2.sem) 16 (windows := true) := trivial
  have hsd := hs d
  simp only [cc0_k_eq_skeleton]; unfold cc0_k_skel
  rw [(K (F := F)).scopedBufs_V facts d (cV L) (jV L), SparseCore.Cfg.scopedSems0_V (Val := Elt F) d (cV L) (jV L),
    Cert.Proof.PlumbI.ownSems0_V, Cert.Proof.PlumbI.ownBufs_V]
  unfold goRes
  iintro ⟨#Hlv, -, ⟨Hstp, Htb, Hout⟩, ⟨⟨%fs, Hs⟩, ⟨%fr, Hr⟩, Hbufs⟩, ⟨Hsem, Hsem0, Hsem1, Hsems⟩, HO⟩
  ihave Hmw := ((K (F := F)).mayWaits_none (thr := thr d L) hO) $$ Hlv
  -- the tile's share of the table, one part per lane
  ihave Hd := (Entails.of_eq (show (((tblV).view.loc (thr d L) ↦{qTile (L 0).val (L 1).val} tblOf m d : sProp 𝕄))
      = ((tblV).view.loc (thr d L) ↦{Transfers.shareDrop (qTile (L 0).val (L 1).val) 0} tblOf m d) from rfl)) $$ Htb
  ihave H := (Cert.Proof.PlumbI.lane_split (qTile (L 0).val (L 1).val) 0) $$ Hd
  icases H with ⟨Hd, Htb0⟩
  ihave Htb0 := (Entails.of_eq (show (((tblV).view.loc (thr d L) ↦{Transfers.shareTokN (qTile (L 0).val (L 1).val) 0} tblOf m d : sProp 𝕄))
      = ((tblV).view.loc (thr d L) ↦{qLane (L 0).val (L 1).val 0} tblOf m d) from rfl)) $$ Htb0
  ihave H := (Cert.Proof.PlumbI.lane_split (qTile (L 0).val (L 1).val) 1) $$ Hd
  icases H with ⟨Hd, Htb1⟩
  ihave Htb1 := (Entails.of_eq (show (((tblV).view.loc (thr d L) ↦{Transfers.shareTokN (qTile (L 0).val (L 1).val) 1} tblOf m d : sProp 𝕄))
      = ((tblV).view.loc (thr d L) ↦{qLane (L 0).val (L 1).val 1} tblOf m d) from rfl)) $$ Htb1
  ihave H := (Cert.Proof.PlumbI.lane_split (qTile (L 0).val (L 1).val) 2) $$ Hd
  icases H with ⟨Hd, Htb2⟩
  ihave Htb2 := (Entails.of_eq (show (((tblV).view.loc (thr d L) ↦{Transfers.shareTokN (qTile (L 0).val (L 1).val) 2} tblOf m d : sProp 𝕄))
      = ((tblV).view.loc (thr d L) ↦{qLane (L 0).val (L 1).val 2} tblOf m d) from rfl)) $$ Htb2
  ihave H := (Cert.Proof.PlumbI.lane_split (qTile (L 0).val (L 1).val) 3) $$ Hd
  icases H with ⟨Hd, Htb3⟩
  ihave Htb3 := (Entails.of_eq (show (((tblV).view.loc (thr d L) ↦{Transfers.shareTokN (qTile (L 0).val (L 1).val) 3} tblOf m d : sProp 𝕄))
      = ((tblV).view.loc (thr d L) ↦{qLane (L 0).val (L 1).val 3} tblOf m d) from rfl)) $$ Htb3
  ihave H := (Cert.Proof.PlumbI.lane_split (qTile (L 0).val (L 1).val) 4) $$ Hd
  icases H with ⟨Hd, Htb4⟩
  ihave Htb4 := (Entails.of_eq (show (((tblV).view.loc (thr d L) ↦{Transfers.shareTokN (qTile (L 0).val (L 1).val) 4} tblOf m d : sProp 𝕄))
      = ((tblV).view.loc (thr d L) ↦{qLane (L 0).val (L 1).val 4} tblOf m d) from rfl)) $$ Htb4
  ihave H := (Cert.Proof.PlumbI.lane_split (qTile (L 0).val (L 1).val) 5) $$ Hd
  icases H with ⟨Hd, Htb5⟩
  ihave Htb5 := (Entails.of_eq (show (((tblV).view.loc (thr d L) ↦{Transfers.shareTokN (qTile (L 0).val (L 1).val) 5} tblOf m d : sProp 𝕄))
      = ((tblV).view.loc (thr d L) ↦{qLane (L 0).val (L 1).val 5} tblOf m d) from rfl)) $$ Htb5
  ihave H := (Cert.Proof.PlumbI.lane_split (qTile (L 0).val (L 1).val) 6) $$ Hd
  icases H with ⟨Hd, Htb6⟩
  ihave Htb6 := (Entails.of_eq (show (((tblV).view.loc (thr d L) ↦{Transfers.shareTokN (qTile (L 0).val (L 1).val) 6} tblOf m d : sProp 𝕄))
      = ((tblV).view.loc (thr d L) ↦{qLane (L 0).val (L 1).val 6} tblOf m d) from rfl)) $$ Htb6
  ihave H := (Cert.Proof.PlumbI.lane_split (qTile (L 0).val (L 1).val) 7) $$ Hd
  icases H with ⟨Hd, Htb7⟩
  ihave Htb7 := (Entails.of_eq (show (((tblV).view.loc (thr d L) ↦{Transfers.shareTokN (qTile (L 0).val (L 1).val) 7} tblOf m d : sProp 𝕄))
      = ((tblV).view.loc (thr d L) ↦{qLane (L 0).val (L 1).val 7} tblOf m d) from rfl)) $$ Htb7
  ihave H := (Cert.Proof.PlumbI.lane_split (qTile (L 0).val (L 1).val) 8) $$ Hd
  icases H with ⟨Hd, Htb8⟩
  ihave Htb8 := (Entails.of_eq (show (((tblV).view.loc (thr d L) ↦{Transfers.shareTokN (qTile (L 0).val (L 1).val) 8} tblOf m d : sProp 𝕄))
      = ((tblV).view.loc (thr d L) ↦{qLane (L 0).val (L 1).val 8} tblOf m d) from rfl)) $$ Htb8
  ihave H := (Cert.Proof.PlumbI.lane_split (qTile (L 0).val (L 1).val) 9) $$ Hd
  icases H with ⟨Hd, Htb9⟩
  ihave Htb9 := (Entails.of_eq (show (((tblV).view.loc (thr d L) ↦{Transfers.shareTokN (qTile (L 0).val (L 1).val) 9} tblOf m d : sProp 𝕄))
      = ((tblV).view.loc (thr d L) ↦{qLane (L 0).val (L 1).val 9} tblOf m d) from rfl)) $$ Htb9
  ihave H := (Cert.Proof.PlumbI.lane_split (qTile (L 0).val (L 1).val) 10) $$ Hd
  icases H with ⟨Hd, Htb10⟩
  ihave Htb10 := (Entails.of_eq (show (((tblV).view.loc (thr d L) ↦{Transfers.shareTokN (qTile (L 0).val (L 1).val) 10} tblOf m d : sProp 𝕄))
      = ((tblV).view.loc (thr d L) ↦{qLane (L 0).val (L 1).val 10} tblOf m d) from rfl)) $$ Htb10
  ihave H := (Cert.Proof.PlumbI.lane_split (qTile (L 0).val (L 1).val) 11) $$ Hd
  icases H with ⟨Hd, Htb11⟩
  ihave Htb11 := (Entails.of_eq (show (((tblV).view.loc (thr d L) ↦{Transfers.shareTokN (qTile (L 0).val (L 1).val) 11} tblOf m d : sProp 𝕄))
      = ((tblV).view.loc (thr d L) ↦{qLane (L 0).val (L 1).val 11} tblOf m d) from rfl)) $$ Htb11
  ihave H := (Cert.Proof.PlumbI.lane_split (qTile (L 0).val (L 1).val) 12) $$ Hd
  icases H with ⟨Hd, Htb12⟩
  ihave Htb12 := (Entails.of_eq (show (((tblV).view.loc (thr d L) ↦{Transfers.shareTokN (qTile (L 0).val (L 1).val) 12} tblOf m d : sProp 𝕄))
      = ((tblV).view.loc (thr d L) ↦{qLane (L 0).val (L 1).val 12} tblOf m d) from rfl)) $$ Htb12
  ihave H := (Cert.Proof.PlumbI.lane_split (qTile (L 0).val (L 1).val) 13) $$ Hd
  icases H with ⟨Hd, Htb13⟩
  ihave Htb13 := (Entails.of_eq (show (((tblV).view.loc (thr d L) ↦{Transfers.shareTokN (qTile (L 0).val (L 1).val) 13} tblOf m d : sProp 𝕄))
      = ((tblV).view.loc (thr d L) ↦{qLane (L 0).val (L 1).val 13} tblOf m d) from rfl)) $$ Htb13
  ihave H := (Cert.Proof.PlumbI.lane_split (qTile (L 0).val (L 1).val) 14) $$ Hd
  icases H with ⟨Hd, Htb14⟩
  ihave Htb14 := (Entails.of_eq (show (((tblV).view.loc (thr d L) ↦{Transfers.shareTokN (qTile (L 0).val (L 1).val) 14} tblOf m d : sProp 𝕄))
      = ((tblV).view.loc (thr d L) ↦{qLane (L 0).val (L 1).val 14} tblOf m d) from rfl)) $$ Htb14
  ihave H := (Cert.Proof.PlumbI.lane_split (qTile (L 0).val (L 1).val) 15) $$ Hd
  icases H with ⟨Hd, Htb15⟩
  ihave Htb15 := (Entails.of_eq (show (((tblV).view.loc (thr d L) ↦{Transfers.shareTokN (qTile (L 0).val (L 1).val) 15} tblOf m d : sProp 𝕄))
      = ((tblV).view.loc (thr d L) ↦{qLane (L 0).val (L 1).val 15} tblOf m d) from rfl)) $$ Htb15
  -- the staging copy and its wait
  sl_exec
  ihave Hs := (Entails.of_eq (congrArg (fun f => ((sS).view.loc (thr d L) ↦{fullShare} f : sProp 𝕄)) (View.write_whole_univ _ _ _))) $$ Hs
  sl_for (inv m d L O W) $$ [Hmw Htb0 Htb1 Htb2 Htb3 Htb4 Htb5 Htb6 Htb7 Htb8 Htb9 Htb10 Htb11 Htb12 Htb13 Htb14 Htb15 Hs Hr Hsem Hsem0 Hsem1 Hout HO]
  case region =>
    intro k _
    unfold inv tbl16
    iintro ⟨#Hmw, ⟨Htb0, Htb1, Htb2, Htb3, Htb4, Htb5, Htb6, Htb7, Htb8, Htb9, Htb10, Htb11, Htb12, Htb13, Htb14, Htb15⟩, Hs, ⟨%fr, Hr⟩, Hsem, Hsem0, Hsem1, Hout, %W', %hW', HO⟩
    ihave H := (Entails.of_eq (SparseCore.bigSep_erase' (Finset.mem_univ k))) $$ Hout
    icases H with ⟨Ho, Hrest⟩
    ihave Ho := (Entails.of_eq (by rw [if_neg (Nat.lt_irrefl _)] :
      (((outChunk L k).view.loc (thr d L) ↦[(outChunk L k).view.set]{fullShare} (if k.val < k.val then rowsOf (tblOf m d) (stpOf m d) else outOf m d) : sProp 𝕄))
        = ((outChunk L k).view.loc (thr d L) ↦[(outChunk L k).view.set]{fullShare} outOf m d))) $$ Ho
    sl_exec (disch := first
      | sl_exact (k0_chk1_of_le L k _ (wle_of (stpOf m d) hsd L (k_lt k) (by decide : 0 < 16) _ (word0 (F := F) (stpOf m d) L k)))
      | sl_exact (k0_chk2_of_le L k _ (wle_of (stpOf m d) hsd L (k_lt k) (by decide : 1 < 16) _ (word1 (F := F) (stpOf m d) L k)))
      | sl_exact (k0_chk3_of_le L k _ (wle_of (stpOf m d) hsd L (k_lt k) (by decide : 2 < 16) _ (word2 (F := F) (stpOf m d) L k)))
      | sl_exact (k0_chk4_of_le L k _ (wle_of (stpOf m d) hsd L (k_lt k) (by decide : 3 < 16) _ (word3 (F := F) (stpOf m d) L k)))
      | sl_exact (k0_chk5_of_le L k _ (wle_of (stpOf m d) hsd L (k_lt k) (by decide : 4 < 16) _ (word4 (F := F) (stpOf m d) L k)))
      | sl_exact (k0_chk6_of_le L k _ (wle_of (stpOf m d) hsd L (k_lt k) (by decide : 5 < 16) _ (word5 (F := F) (stpOf m d) L k)))
      | sl_exact (k0_chk7_of_le L k _ (wle_of (stpOf m d) hsd L (k_lt k) (by decide : 6 < 16) _ (word6 (F := F) (stpOf m d) L k)))
      | sl_exact (k0_chk8_of_le L k _ (wle_of (stpOf m d) hsd L (k_lt k) (by decide : 7 < 16) _ (word7 (F := F) (stpOf m d) L k)))
      | sl_exact (k0_chk9_of_le L k _ (wle_of (stpOf m d) hsd L (k_lt k) (by decide : 8 < 16) _ (word8 (F := F) (stpOf m d) L k)))
      | sl_exact (k0_chk10_of_le L k _ (wle_of (stpOf m d) hsd L (k_lt k) (by decide : 9 < 16) _ (word9 (F := F) (stpOf m d) L k)))
      | sl_exact (k0_chk11_of_le L k _ (wle_of (stpOf m d) hsd L (k_lt k) (by decide : 10 < 16) _ (word10 (F := F) (stpOf m d) L k)))
      | sl_exact (k0_chk12_of_le L k _ (wle_of (stpOf m d) hsd L (k_lt k) (by decide : 11 < 16) _ (word11 (F := F) (stpOf m d) L k)))
      | sl_exact (k0_chk13_of_le L k _ (wle_of (stpOf m d) hsd L (k_lt k) (by decide : 12 < 16) _ (word12 (F := F) (stpOf m d) L k)))
      | sl_exact (k0_chk14_of_le L k _ (wle_of (stpOf m d) hsd L (k_lt k) (by decide : 13 < 16) _ (word13 (F := F) (stpOf m d) L k)))
      | sl_exact (k0_chk15_of_le L k _ (wle_of (stpOf m d) hsd L (k_lt k) (by decide : 14 < 16) _ (word14 (F := F) (stpOf m d) L k)))
      | sl_exact (k0_chk16_of_le L k _ (wle_of (stpOf m d) hsd L (k_lt k) (by decide : 15 < 16) _ (word15 (F := F) (stpOf m d) L k))))
    sl_step
    ihave Ho := (Entails.of_eq (pointsTo_congr (chunk_value (tblOf m d) (stpOf m d) L k (outOf m d) _ (fun y =>
      rows_value fr _ _ _ _ _ _ _ _ _ _ _ _ _ _ _ _ _ _ _ _ _ _ _ _ _ _ _ _ _ _ _ _
        (fun n z => rowsOf (tblOf m d) (stpOf m d) (ix3 (elemF L k.val n) (z 0) (z 1)))
        (fun z => lane0 (tblOf m d) (stpOf m d) hsd L k _ (word0 (F := F) (stpOf m d) L k) _ z)
        (fun z => lane1 (tblOf m d) (stpOf m d) hsd L k _ (word1 (F := F) (stpOf m d) L k) _ z)
        (fun z => lane2 (tblOf m d) (stpOf m d) hsd L k _ (word2 (F := F) (stpOf m d) L k) _ z)
        (fun z => lane3 (tblOf m d) (stpOf m d) hsd L k _ (word3 (F := F) (stpOf m d) L k) _ z)
        (fun z => lane4 (tblOf m d) (stpOf m d) hsd L k _ (word4 (F := F) (stpOf m d) L k) _ z)
        (fun z => lane5 (tblOf m d) (stpOf m d) hsd L k _ (word5 (F := F) (stpOf m d) L k) _ z)
        (fun z => lane6 (tblOf m d) (stpOf m d) hsd L k _ (word6 (F := F) (stpOf m d) L k) _ z)
        (fun z => lane7 (tblOf m d) (stpOf m d) hsd L k _ (word7 (F := F) (stpOf m d) L k) _ z)
        (fun z => lane8 (tblOf m d) (stpOf m d) hsd L k _ (word8 (F := F) (stpOf m d) L k) _ z)
        (fun z => lane9 (tblOf m d) (stpOf m d) hsd L k _ (word9 (F := F) (stpOf m d) L k) _ z)
        (fun z => lane10 (tblOf m d) (stpOf m d) hsd L k _ (word10 (F := F) (stpOf m d) L k) _ z)
        (fun z => lane11 (tblOf m d) (stpOf m d) hsd L k _ (word11 (F := F) (stpOf m d) L k) _ z)
        (fun z => lane12 (tblOf m d) (stpOf m d) hsd L k _ (word12 (F := F) (stpOf m d) L k) _ z)
        (fun z => lane13 (tblOf m d) (stpOf m d) hsd L k _ (word13 (F := F) (stpOf m d) L k) _ z)
        (fun z => lane14 (tblOf m d) (stpOf m d) hsd L k _ (word14 (F := F) (stpOf m d) L k) _ z)
        (fun z => lane15 (tblOf m d) (stpOf m d) hsd L k _ (word15 (F := F) (stpOf m d) L k) _ z) y)))) $$ Ho
    try unfold inv tbl16
    isplitl [Hmw]; · iexact Hmw
    isplitl [Htb0 Htb1 Htb2 Htb3 Htb4 Htb5 Htb6 Htb7 Htb8 Htb9 Htb10 Htb11 Htb12 Htb13 Htb14 Htb15]
    · isplitl [Htb0]; · iexact Htb0
      isplitl [Htb1]; · iexact Htb1
      isplitl [Htb2]; · iexact Htb2
      isplitl [Htb3]; · iexact Htb3
      isplitl [Htb4]; · iexact Htb4
      isplitl [Htb5]; · iexact Htb5
      isplitl [Htb6]; · iexact Htb6
      isplitl [Htb7]; · iexact Htb7
      isplitl [Htb8]; · iexact Htb8
      isplitl [Htb9]; · iexact Htb9
      isplitl [Htb10]; · iexact Htb10
      isplitl [Htb11]; · iexact Htb11
      isplitl [Htb12]; · iexact Htb12
      isplitl [Htb13]; · iexact Htb13
      isplitl [Htb14]; · iexact Htb14
      iexact Htb15
    isplitl [Hs]; · iexact Hs
    isplitl [Hr]; · iexists _; iexact Hr
    isplitl [Hsem]; · iexact Hsem
    isplitl [Hsem0]; · iexact Hsem0
    isplitl [Hsem1]; · iexact Hsem1
    ihave Hrest := (Entails.of_eq (bigSep_congr (Ψ := (fun k' : Fin k0_t1_loop.trips => ((outChunk L k').view.loc (thr d L) ↦[(outChunk L k').view.set]{fullShare} (if k'.val < k.val + 1 then rowsOf (tblOf m d) (stpOf m d) else outOf m d) : sProp 𝕄))) fun k' hk' => by
      have hne : k'.val ≠ k.val := fun e => (Finset.mem_erase.mp hk').1 (Fin.ext e)
      by_cases h1 : k'.val < k.val
      · rw [if_pos h1, if_pos (Nat.lt_succ_of_lt h1)]
      · rw [if_neg h1, if_neg (by omega)])) $$ Hrest
    ihave Ho := (Entails.of_eq (by beta_reduce; rw [if_pos (Nat.lt_add_one _)] :
      (((outChunk L k).view.loc (thr d L) ↦[(outChunk L k).view.set]{fullShare} rowsOf (tblOf m d) (stpOf m d) : sProp 𝕄))
        = (fun k' : Fin k0_t1_loop.trips => ((outChunk L k').view.loc (thr d L) ↦[(outChunk L k').view.set]{fullShare} (if k'.val < k.val + 1 then rowsOf (tblOf m d) (stpOf m d) else outOf m d) : sProp 𝕄)) k)) $$ Ho
    isplitl [Ho Hrest]
    · iapply (Entails.of_eq (SparseCore.bigSep_erase' (Φ := (fun k' : Fin k0_t1_loop.trips => ((outChunk L k').view.loc (thr d L) ↦[(outChunk L k').view.set]{fullShare} (if k'.val < k.val + 1 then rowsOf (tblOf m d) (stpOf m d) else outOf m d) : sProp 𝕄))) (Finset.mem_univ k)).symm)
      isplitl [Ho]; · iexact Ho
      iexact Hrest
    iexists _; isplitr
    rotate_left
    · iexact HO
    · ipureintro
      repeat (first | exact hW' | refine ins_ok rfl ?_)
  · try unfold inv tbl16
    isplitl [Hmw]; · iexact Hmw
    isplitl [Htb0 Htb1 Htb2 Htb3 Htb4 Htb5 Htb6 Htb7 Htb8 Htb9 Htb10 Htb11 Htb12 Htb13 Htb14 Htb15]
    · isplitl [Htb0]; · iexact Htb0
      isplitl [Htb1]; · iexact Htb1
      isplitl [Htb2]; · iexact Htb2
      isplitl [Htb3]; · iexact Htb3
      isplitl [Htb4]; · iexact Htb4
      isplitl [Htb5]; · iexact Htb5
      isplitl [Htb6]; · iexact Htb6
      isplitl [Htb7]; · iexact Htb7
      isplitl [Htb8]; · iexact Htb8
      isplitl [Htb9]; · iexact Htb9
      isplitl [Htb10]; · iexact Htb10
      isplitl [Htb11]; · iexact Htb11
      isplitl [Htb12]; · iexact Htb12
      isplitl [Htb13]; · iexact Htb13
      isplitl [Htb14]; · iexact Htb14
      iexact Htb15
    isplitl [Hs]; · iexact Hs
    isplitl [Hr]; · iexists _; iexact Hr
    isplitl [Hsem]; · iexact Hsem
    isplitl [Hsem0]; · iexact Hsem0
    isplitl [Hsem1]; · iexact Hsem1
    ihave Hout := (Entails.of_eq (bigSep_congr (Ψ := (fun k' : Fin k0_t1_loop.trips => ((outChunk L k').view.loc (thr d L) ↦[(outChunk L k').view.set]{fullShare} (if k'.val < 0 then rowsOf (tblOf m d) (stpOf m d) else outOf m d) : sProp 𝕄))) fun k' _ => by rw [if_neg (Nat.not_lt_zero _)])) $$ Hout
    isplitl [Hout]; · iexact Hout
    iexists _; isplitr
    rotate_left
    · iexact HO
    · ipureintro
      repeat (first | exact (fun p hp => Or.inl hp) | refine ins_ok rfl ?_)
  iintro %_ HI
  try unfold inv tbl16
  icases HI with ⟨-, -, Hs, ⟨%fr', Hr⟩, Hsem, Hsem0, Hsem1, Hout, %W', %hW', HO⟩
  sl_exec
  sl_step
  unfold tdRes
  ihave Hout := (Entails.of_eq (bigSep_congr (Ψ := fun k' : Fin k0_t1_loop.trips => ((outChunk L k').view.loc (thr d L) ↦[(outChunk L k').view.set]{fullShare} rowsOf (tblOf m d) (stpOf m d) : sProp 𝕄)) fun k' _ => by rw [if_pos k'.isLt])) $$ Hout
  isplitl [Hout]; · iexact Hout
  isplitl [Hs Hr Hbufs]
  · isplitl [Hs]; · iexists _; iexact Hs
    isplitl [Hr]; · iexists _; iexact Hr
    iexact Hbufs
  isplitl [Hsem Hsem0 Hsem1 Hsems]
  · isplitl [Hsem]; · iexact Hsem
    isplitl [Hsem0]; · iexact Hsem0
    isplitl [Hsem1]; · iexact Hsem1
    iexact Hsems
  iexists W'; isplitr
  · ipureintro; exact hW'
  · iexact HO

end Cert.Proof.TileI
end
-- ==== Proof.WordsB.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.Kernel
import proofs.«205373_g65798898975314_cont_9to1c4b_285_22_alg».proof.Proof.Gen.Kernel.Skeleton
import proofs.«205373_g65798898975314_cont_9to1c4b_285_22_alg».proof.Proof.Spec
import proofs.«205373_g65798898975314_cont_9to1c4b_285_22_alg».proof.Proof.SetupB
import proofs.«205373_g65798898975314_cont_9to1c4b_285_22_alg».proof.Proof.Words
import Idealize.ShloMosaic.Lib.Pipeline.Value
import Idealize.ShloMosaic.Lib.ValueIdx

noncomputable section

namespace Cert.Proof.WordsB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Cert.Proof.SetupB
open Idealize.ShloMosaic.ValueIdx

local notation "𝕄" => MT nD τ sig (HIx 1) (Elt F) ℕ UU ℕ

variable (m : (ℓ : Loc nD τ sig) → Buf (Elt F) ℓ) (ρ : Dev nD → PrngReg)

/-! ## A tile's batch elements

Tile `(L 0, L 1)` works on the 128 batch elements from `256 · L 1 + 128 · L 0`; trip `k` of its loop on the sixteen
from `16 k` within them; lane `J` of the trip on element `elem L k J`. -/

def elem (L : grid0.Coords) (k J : ℕ) : ℕ := 256 * (L 1).val + 128 * (L 0).val + 16 * k + J

theorem L0_lt (L : grid0.Coords) : (L 0).val < 2 := (L 0).isLt
theorem L1_lt (L : grid0.Coords) : (L 1).val < 16 := (L 1).isLt
theorem trips_eq : k0_t1_loop.trips = 8 := by decide
theorem k_lt (k : Fin k0_t1_loop.trips) : k.val < 8 := trips_eq ▸ k.isLt

theorem elem_lt (L : grid0.Coords) {k J : ℕ} (hk : k < 8) (hJ : J < 16) : elem L k J < 4096 := by
  have := L0_lt L; have := L1_lt L; unfold elem; omega

/-- The step of lane `J` of trip `k`, read off the steps array. -/
def wordAt (fstp : S4096.Idx → BitVec 32) (L : grid0.Coords) (k J : ℕ) (hk : k < 8) (hJ : J < 16) : BitVec 32 :=
  fstp (ix1 ⟨elem L k J, elem_lt L hk hJ⟩)

/-- The flattened table row of lane `J` of trip `k` when its step is `v`. -/
def rowOf (L : grid0.Coords) (k J : ℕ) (v : BitVec 32) : ℕ := elem L k J * 11 + v.toNat

/-! ## The data-dependent offsets, in closed form -/

theorem k0_off3_row (L : grid0.Coords) (k : Fin k0_t1_loop.trips) (v : BitVec 32) (hv : v.toNat ≤ 10) :
    k0_off3 L k v = ![rowOf L k.val 0 v, 0, 0] := by
  unfold k0_off3 rowOf elem
  have h := Cert.Words.row_toNat (L 1).val (L 0).val k.val 0 v (L1_lt L) (L0_lt L) (k_lt k) (by decide) hv
  simp only [Scalar.muli, Scalar.addi, IntOp.muli, IntOp.addi, Scf.iv] at h ⊢
  rw [h]
theorem k0_off19_row (L : grid0.Coords) (k : Fin k0_t1_loop.trips) (v : BitVec 32) (hv : v.toNat ≤ 10) :
    k0_off19 L k v = ![rowOf L k.val 0 v, 0, 0] := by
  unfold k0_off19 rowOf elem
  have h := Cert.Words.row_toNat (L 1).val (L 0).val k.val 0 v (L1_lt L) (L0_lt L) (k_lt k) (by decide) hv
  simp only [Scalar.muli, Scalar.addi, IntOp.muli, IntOp.addi, Scf.iv] at h ⊢
  rw [h]
theorem k0_off4_row (L : grid0.Coords) (k : Fin k0_t1_loop.trips) (v : BitVec 32) (hv : v.toNat ≤ 10) :
    k0_off4 L k v = ![rowOf L k.val 1 v, 0, 0] := by
  unfold k0_off4 rowOf elem
  have h := Cert.Words.row_toNat (L 1).val (L 0).val k.val 1 v (L1_lt L) (L0_lt L) (k_lt k) (by decide) hv
  simp only [Scalar.muli, Scalar.addi, IntOp.muli, IntOp.addi, Scf.iv] at h ⊢
  rw [h]
theorem k0_off20_row (L : grid0.Coords) (k : Fin k0_t1_loop.trips) (v : BitVec 32) (hv : v.toNat ≤ 10) :
    k0_off20 L k v = ![rowOf L k.val 1 v, 0, 0] := by
  unfold k0_off20 rowOf elem
  have h := Cert.Words.row_toNat (L 1).val (L 0).val k.val 1 v (L1_lt L) (L0_lt L) (k_lt k) (by decide) hv
  simp only [Scalar.muli, Scalar.addi, IntOp.muli, IntOp.addi, Scf.iv] at h ⊢
  rw [h]
theorem k0_off5_row (L : grid0.Coords) (k : Fin k0_t1_loop.trips) (v : BitVec 32) (hv : v.toNat ≤ 10) :
    k0_off5 L k v = ![rowOf L k.val 2 v, 0, 0] := by
  unfold k0_off5 rowOf elem
  have h := Cert.Words.row_toNat (L 1).val (L 0).val k.val 2 v (L1_lt L) (L0_lt L) (k_lt k) (by decide) hv
  simp only [Scalar.muli, Scalar.addi, IntOp.muli, IntOp.addi, Scf.iv] at h ⊢
  rw [h]
theorem k0_off21_row (L : grid0.Coords) (k : Fin k0_t1_loop.trips) (v : BitVec 32) (hv : v.toNat ≤ 10) :
    k0_off21 L k v = ![rowOf L k.val 2 v, 0, 0] := by
  unfold k0_off21 rowOf elem
  have h := Cert.Words.row_toNat (L 1).val (L 0).val k.val 2 v (L1_lt L) (L0_lt L) (k_lt k) (by decide) hv
  simp only [Scalar.muli, Scalar.addi, IntOp.muli, IntOp.addi, Scf.iv] at h ⊢
  rw [h]
theorem k0_off6_row (L : grid0.Coords) (k : Fin k0_t1_loop.trips) (v : BitVec 32) (hv : v.toNat ≤ 10) :
    k0_off6 L k v = ![rowOf L k.val 3 v, 0, 0] := by
  unfold k0_off6 rowOf elem
  have h := Cert.Words.row_toNat (L 1).val (L 0).val k.val 3 v (L1_lt L) (L0_lt L) (k_lt k) (by decide) hv
  simp only [Scalar.muli, Scalar.addi, IntOp.muli, IntOp.addi, Scf.iv] at h ⊢
  rw [h]
theorem k0_off22_row (L : grid0.Coords) (k : Fin k0_t1_loop.trips) (v : BitVec 32) (hv : v.toNat ≤ 10) :
    k0_off22 L k v = ![rowOf L k.val 3 v, 0, 0] := by
  unfold k0_off22 rowOf elem
  have h := Cert.Words.row_toNat (L 1).val (L 0).val k.val 3 v (L1_lt L) (L0_lt L) (k_lt k) (by decide) hv
  simp only [Scalar.muli, Scalar.addi, IntOp.muli, IntOp.addi, Scf.iv] at h ⊢
  rw [h]
theorem k0_off7_row (L : grid0.Coords) (k : Fin k0_t1_loop.trips) (v : BitVec 32) (hv : v.toNat ≤ 10) :
    k0_off7 L k v = ![rowOf L k.val 4 v, 0, 0] := by
  unfold k0_off7 rowOf elem
  have h := Cert.Words.row_toNat (L 1).val (L 0).val k.val 4 v (L1_lt L) (L0_lt L) (k_lt k) (by decide) hv
  simp only [Scalar.muli, Scalar.addi, IntOp.muli, IntOp.addi, Scf.iv] at h ⊢
  rw [h]
theorem k0_off23_row (L : grid0.Coords) (k : Fin k0_t1_loop.trips) (v : BitVec 32) (hv : v.toNat ≤ 10) :
    k0_off23 L k v = ![rowOf L k.val 4 v, 0, 0] := by
  unfold k0_off23 rowOf elem
  have h := Cert.Words.row_toNat (L 1).val (L 0).val k.val 4 v (L1_lt L) (L0_lt L) (k_lt k) (by decide) hv
  simp only [Scalar.muli, Scalar.addi, IntOp.muli, IntOp.addi, Scf.iv] at h ⊢
  rw [h]
theorem k0_off8_row (L : grid0.Coords) (k : Fin k0_t1_loop.trips) (v : BitVec 32) (hv : v.toNat ≤ 10) :
    k0_off8 L k v = ![rowOf L k.val 5 v, 0, 0] := by
  unfold k0_off8 rowOf elem
  have h := Cert.Words.row_toNat (L 1).val (L 0).val k.val 5 v (L1_lt L) (L0_lt L) (k_lt k) (by decide) hv
  simp only [Scalar.muli, Scalar.addi, IntOp.muli, IntOp.addi, Scf.iv] at h ⊢
  rw [h]
theorem k0_off24_row (L : grid0.Coords) (k : Fin k0_t1_loop.trips) (v : BitVec 32) (hv : v.toNat ≤ 10) :
    k0_off24 L k v = ![rowOf L k.val 5 v, 0, 0] := by
  unfold k0_off24 rowOf elem
  have h := Cert.Words.row_toNat (L 1).val (L 0).val k.val 5 v (L1_lt L) (L0_lt L) (k_lt k) (by decide) hv
  simp only [Scalar.muli, Scalar.addi, IntOp.muli, IntOp.addi, Scf.iv] at h ⊢
  rw [h]
theorem k0_off9_row (L : grid0.Coords) (k : Fin k0_t1_loop.trips) (v : BitVec 32) (hv : v.toNat ≤ 10) :
    k0_off9 L k v = ![rowOf L k.val 6 v, 0, 0] := by
  unfold k0_off9 rowOf elem
  have h := Cert.Words.row_toNat (L 1).val (L 0).val k.val 6 v (L1_lt L) (L0_lt L) (k_lt k) (by decide) hv
  simp only [Scalar.muli, Scalar.addi, IntOp.muli, IntOp.addi, Scf.iv] at h ⊢
  rw [h]
theorem k0_off25_row (L : grid0.Coords) (k : Fin k0_t1_loop.trips) (v : BitVec 32) (hv : v.toNat ≤ 10) :
    k0_off25 L k v = ![rowOf L k.val 6 v, 0, 0] := by
  unfold k0_off25 rowOf elem
  have h := Cert.Words.row_toNat (L 1).val (L 0).val k.val 6 v (L1_lt L) (L0_lt L) (k_lt k) (by decide) hv
  simp only [Scalar.muli, Scalar.addi, IntOp.muli, IntOp.addi, Scf.iv] at h ⊢
  rw [h]
theorem k0_off10_row (L : grid0.Coords) (k : Fin k0_t1_loop.trips) (v : BitVec 32) (hv : v.toNat ≤ 10) :
    k0_off10 L k v = ![rowOf L k.val 7 v, 0, 0] := by
  unfold k0_off10 rowOf elem
  have h := Cert.Words.row_toNat (L 1).val (L 0).val k.val 7 v (L1_lt L) (L0_lt L) (k_lt k) (by decide) hv
  simp only [Scalar.muli, Scalar.addi, IntOp.muli, IntOp.addi, Scf.iv] at h ⊢
  rw [h]
theorem k0_off26_row (L : grid0.Coords) (k : Fin k0_t1_loop.trips) (v : BitVec 32) (hv : v.toNat ≤ 10) :
    k0_off26 L k v = ![rowOf L k.val 7 v, 0, 0] := by
  unfold k0_off26 rowOf elem
  have h := Cert.Words.row_toNat (L 1).val (L 0).val k.val 7 v (L1_lt L) (L0_lt L) (k_lt k) (by decide) hv
  simp only [Scalar.muli, Scalar.addi, IntOp.muli, IntOp.addi, Scf.iv] at h ⊢
  rw [h]
theorem k0_off11_row (L : grid0.Coords) (k : Fin k0_t1_loop.trips) (v : BitVec 32) (hv : v.toNat ≤ 10) :
    k0_off11 L k v = ![rowOf L k.val 8 v, 0, 0] := by
  unfold k0_off11 rowOf elem
  have h := Cert.Words.row_toNat (L 1).val (L 0).val k.val 8 v (L1_lt L) (L0_lt L) (k_lt k) (by decide) hv
  simp only [Scalar.muli, Scalar.addi, IntOp.muli, IntOp.addi, Scf.iv] at h ⊢
  rw [h]
theorem k0_off27_row (L : grid0.Coords) (k : Fin k0_t1_loop.trips) (v : BitVec 32) (hv : v.toNat ≤ 10) :
    k0_off27 L k v = ![rowOf L k.val 8 v, 0, 0] := by
  unfold k0_off27 rowOf elem
  have h := Cert.Words.row_toNat (L 1).val (L 0).val k.val 8 v (L1_lt L) (L0_lt L) (k_lt k) (by decide) hv
  simp only [Scalar.muli, Scalar.addi, IntOp.muli, IntOp.addi, Scf.iv] at h ⊢
  rw [h]
theorem k0_off12_row (L : grid0.Coords) (k : Fin k0_t1_loop.trips) (v : BitVec 32) (hv : v.toNat ≤ 10) :
    k0_off12 L k v = ![rowOf L k.val 9 v, 0, 0] := by
  unfold k0_off12 rowOf elem
  have h := Cert.Words.row_toNat (L 1).val (L 0).val k.val 9 v (L1_lt L) (L0_lt L) (k_lt k) (by decide) hv
  simp only [Scalar.muli, Scalar.addi, IntOp.muli, IntOp.addi, Scf.iv] at h ⊢
  rw [h]
theorem k0_off28_row (L : grid0.Coords) (k : Fin k0_t1_loop.trips) (v : BitVec 32) (hv : v.toNat ≤ 10) :
    k0_off28 L k v = ![rowOf L k.val 9 v, 0, 0] := by
  unfold k0_off28 rowOf elem
  have h := Cert.Words.row_toNat (L 1).val (L 0).val k.val 9 v (L1_lt L) (L0_lt L) (k_lt k) (by decide) hv
  simp only [Scalar.muli, Scalar.addi, IntOp.muli, IntOp.addi, Scf.iv] at h ⊢
  rw [h]
theorem k0_off13_row (L : grid0.Coords) (k : Fin k0_t1_loop.trips) (v : BitVec 32) (hv : v.toNat ≤ 10) :
    k0_off13 L k v = ![rowOf L k.val 10 v, 0, 0] := by
  unfold k0_off13 rowOf elem
  have h := Cert.Words.row_toNat (L 1).val (L 0).val k.val 10 v (L1_lt L) (L0_lt L) (k_lt k) (by decide) hv
  simp only [Scalar.muli, Scalar.addi, IntOp.muli, IntOp.addi, Scf.iv] at h ⊢
  rw [h]
theorem k0_off29_row (L : grid0.Coords) (k : Fin k0_t1_loop.trips) (v : BitVec 32) (hv : v.toNat ≤ 10) :
    k0_off29 L k v = ![rowOf L k.val 10 v, 0, 0] := by
  unfold k0_off29 rowOf elem
  have h := Cert.Words.row_toNat (L 1).val (L 0).val k.val 10 v (L1_lt L) (L0_lt L) (k_lt k) (by decide) hv
  simp only [Scalar.muli, Scalar.addi, IntOp.muli, IntOp.addi, Scf.iv] at h ⊢
  rw [h]
theorem k0_off14_row (L : grid0.Coords) (k : Fin k0_t1_loop.trips) (v : BitVec 32) (hv : v.toNat ≤ 10) :
    k0_off14 L k v = ![rowOf L k.val 11 v, 0, 0] := by
  unfold k0_off14 rowOf elem
  have h := Cert.Words.row_toNat (L 1).val (L 0).val k.val 11 v (L1_lt L) (L0_lt L) (k_lt k) (by decide) hv
  simp only [Scalar.muli, Scalar.addi, IntOp.muli, IntOp.addi, Scf.iv] at h ⊢
  rw [h]
theorem k0_off30_row (L : grid0.Coords) (k : Fin k0_t1_loop.trips) (v : BitVec 32) (hv : v.toNat ≤ 10) :
    k0_off30 L k v = ![rowOf L k.val 11 v, 0, 0] := by
  unfold k0_off30 rowOf elem
  have h := Cert.Words.row_toNat (L 1).val (L 0).val k.val 11 v (L1_lt L) (L0_lt L) (k_lt k) (by decide) hv
  simp only [Scalar.muli, Scalar.addi, IntOp.muli, IntOp.addi, Scf.iv] at h ⊢
  rw [h]
theorem k0_off15_row (L : grid0.Coords) (k : Fin k0_t1_loop.trips) (v : BitVec 32) (hv : v.toNat ≤ 10) :
    k0_off15 L k v = ![rowOf L k.val 12 v, 0, 0] := by
  unfold k0_off15 rowOf elem
  have h := Cert.Words.row_toNat (L 1).val (L 0).val k.val 12 v (L1_lt L) (L0_lt L) (k_lt k) (by decide) hv
  simp only [Scalar.muli, Scalar.addi, IntOp.muli, IntOp.addi, Scf.iv] at h ⊢
  rw [h]
theorem k0_off31_row (L : grid0.Coords) (k : Fin k0_t1_loop.trips) (v : BitVec 32) (hv : v.toNat ≤ 10) :
    k0_off31 L k v = ![rowOf L k.val 12 v, 0, 0] := by
  unfold k0_off31 rowOf elem
  have h := Cert.Words.row_toNat (L 1).val (L 0).val k.val 12 v (L1_lt L) (L0_lt L) (k_lt k) (by decide) hv
  simp only [Scalar.muli, Scalar.addi, IntOp.muli, IntOp.addi, Scf.iv] at h ⊢
  rw [h]
theorem k0_off16_row (L : grid0.Coords) (k : Fin k0_t1_loop.trips) (v : BitVec 32) (hv : v.toNat ≤ 10) :
    k0_off16 L k v = ![rowOf L k.val 13 v, 0, 0] := by
  unfold k0_off16 rowOf elem
  have h := Cert.Words.row_toNat (L 1).val (L 0).val k.val 13 v (L1_lt L) (L0_lt L) (k_lt k) (by decide) hv
  simp only [Scalar.muli, Scalar.addi, IntOp.muli, IntOp.addi, Scf.iv] at h ⊢
  rw [h]
theorem k0_off32_row (L : grid0.Coords) (k : Fin k0_t1_loop.trips) (v : BitVec 32) (hv : v.toNat ≤ 10) :
    k0_off32 L k v = ![rowOf L k.val 13 v, 0, 0] := by
  unfold k0_off32 rowOf elem
  have h := Cert.Words.row_toNat (L 1).val (L 0).val k.val 13 v (L1_lt L) (L0_lt L) (k_lt k) (by decide) hv
  simp only [Scalar.muli, Scalar.addi, IntOp.muli, IntOp.addi, Scf.iv] at h ⊢
  rw [h]
theorem k0_off17_row (L : grid0.Coords) (k : Fin k0_t1_loop.trips) (v : BitVec 32) (hv : v.toNat ≤ 10) :
    k0_off17 L k v = ![rowOf L k.val 14 v, 0, 0] := by
  unfold k0_off17 rowOf elem
  have h := Cert.Words.row_toNat (L 1).val (L 0).val k.val 14 v (L1_lt L) (L0_lt L) (k_lt k) (by decide) hv
  simp only [Scalar.muli, Scalar.addi, IntOp.muli, IntOp.addi, Scf.iv] at h ⊢
  rw [h]
theorem k0_off33_row (L : grid0.Coords) (k : Fin k0_t1_loop.trips) (v : BitVec 32) (hv : v.toNat ≤ 10) :
    k0_off33 L k v = ![rowOf L k.val 14 v, 0, 0] := by
  unfold k0_off33 rowOf elem
  have h := Cert.Words.row_toNat (L 1).val (L 0).val k.val 14 v (L1_lt L) (L0_lt L) (k_lt k) (by decide) hv
  simp only [Scalar.muli, Scalar.addi, IntOp.muli, IntOp.addi, Scf.iv] at h ⊢
  rw [h]
theorem k0_off18_row (L : grid0.Coords) (k : Fin k0_t1_loop.trips) (v : BitVec 32) (hv : v.toNat ≤ 10) :
    k0_off18 L k v = ![rowOf L k.val 15 v, 0, 0] := by
  unfold k0_off18 rowOf elem
  have h := Cert.Words.row_toNat (L 1).val (L 0).val k.val 15 v (L1_lt L) (L0_lt L) (k_lt k) (by decide) hv
  simp only [Scalar.muli, Scalar.addi, IntOp.muli, IntOp.addi, Scf.iv] at h ⊢
  rw [h]

theorem rowOf_lt (L : grid0.Coords) {k J : ℕ} (hk : k < 8) (hJ : J < 16) {v : BitVec 32} (hv : v.toNat ≤ 10) : rowOf L k J v < 45056 := by
  have := elem_lt L hk hJ; unfold rowOf; omega

/-! ## The checks: a step of at most ten names a row of the table -/

theorem row_inb (L : grid0.Coords) {k J : ℕ} (hk : k < 8) (hJ : J < 16) {v : BitVec 32} (hv : v.toNat ≤ 10) :
    ∀ a, (![rowOf L k J v, 0, 0] : Fin 3 → ℕ) a + S1x20x64.size a ≤ S45056x20x64.size a := by
  have := rowOf_lt L hk hJ hv
  intro a; fin_cases a
  · show rowOf L k J v + 1 ≤ 45056; omega
  · show 0 + 20 ≤ 20; omega
  · show 0 + 64 ≤ 64; omega

theorem k0_chk1_of_le (L : grid0.Coords) (k : Fin k0_t1_loop.trips) (v : BitVec 32) (hv : v.toNat ≤ 10) : k0_chk1 L k v := by
  unfold k0_chk1
  exact ⟨by rw [k0_off3_row L k v hv]; exact row_inb L (k_lt k) (by decide) hv, by rw [k0_off19_row L k v hv]; exact row_inb L (k_lt k) (by decide) hv⟩
theorem k0_chk2_of_le (L : grid0.Coords) (k : Fin k0_t1_loop.trips) (v : BitVec 32) (hv : v.toNat ≤ 10) : k0_chk2 L k v := by
  unfold k0_chk2
  exact ⟨by rw [k0_off4_row L k v hv]; exact row_inb L (k_lt k) (by decide) hv, by rw [k0_off20_row L k v hv]; exact row_inb L (k_lt k) (by decide) hv⟩
theorem k0_chk3_of_le (L : grid0.Coords) (k : Fin k0_t1_loop.trips) (v : BitVec 32) (hv : v.toNat ≤ 10) : k0_chk3 L k v := by
  unfold k0_chk3
  exact ⟨by rw [k0_off5_row L k v hv]; exact row_inb L (k_lt k) (by decide) hv, by rw [k0_off21_row L k v hv]; exact row_inb L (k_lt k) (by decide) hv⟩
theorem k0_chk4_of_le (L : grid0.Coords) (k : Fin k0_t1_loop.trips) (v : BitVec 32) (hv : v.toNat ≤ 10) : k0_chk4 L k v := by
  unfold k0_chk4
  exact ⟨by rw [k0_off6_row L k v hv]; exact row_inb L (k_lt k) (by decide) hv, by rw [k0_off22_row L k v hv]; exact row_inb L (k_lt k) (by decide) hv⟩
theorem k0_chk5_of_le (L : grid0.Coords) (k : Fin k0_t1_loop.trips) (v : BitVec 32) (hv : v.toNat ≤ 10) : k0_chk5 L k v := by
  unfold k0_chk5
  exact ⟨by rw [k0_off7_row L k v hv]; exact row_inb L (k_lt k) (by decide) hv, by rw [k0_off23_row L k v hv]; exact row_inb L (k_lt k) (by decide) hv⟩
theorem k0_chk6_of_le (L : grid0.Coords) (k : Fin k0_t1_loop.trips) (v : BitVec 32) (hv : v.toNat ≤ 10) : k0_chk6 L k v := by
  unfold k0_chk6
  exact ⟨by rw [k0_off8_row L k v hv]; exact row_inb L (k_lt k) (by decide) hv, by rw [k0_off24_row L k v hv]; exact row_inb L (k_lt k) (by decide) hv⟩
theorem k0_chk7_of_le (L : grid0.Coords) (k : Fin k0_t1_loop.trips) (v : BitVec 32) (hv : v.toNat ≤ 10) : k0_chk7 L k v := by
  unfold k0_chk7
  exact ⟨by rw [k0_off9_row L k v hv]; exact row_inb L (k_lt k) (by decide) hv, by rw [k0_off25_row L k v hv]; exact row_inb L (k_lt k) (by decide) hv⟩
theorem k0_chk8_of_le (L : grid0.Coords) (k : Fin k0_t1_loop.trips) (v : BitVec 32) (hv : v.toNat ≤ 10) : k0_chk8 L k v := by
  unfold k0_chk8
  exact ⟨by rw [k0_off10_row L k v hv]; exact row_inb L (k_lt k) (by decide) hv, by rw [k0_off26_row L k v hv]; exact row_inb L (k_lt k) (by decide) hv⟩
theorem k0_chk9_of_le (L : grid0.Coords) (k : Fin k0_t1_loop.trips) (v : BitVec 32) (hv : v.toNat ≤ 10) : k0_chk9 L k v := by
  unfold k0_chk9
  exact ⟨by rw [k0_off11_row L k v hv]; exact row_inb L (k_lt k) (by decide) hv, by rw [k0_off27_row L k v hv]; exact row_inb L (k_lt k) (by decide) hv⟩
theorem k0_chk10_of_le (L : grid0.Coords) (k : Fin k0_t1_loop.trips) (v : BitVec 32) (hv : v.toNat ≤ 10) : k0_chk10 L k v := by
  unfold k0_chk10
  exact ⟨by rw [k0_off12_row L k v hv]; exact row_inb L (k_lt k) (by decide) hv, by rw [k0_off28_row L k v hv]; exact row_inb L (k_lt k) (by decide) hv⟩
theorem k0_chk11_of_le (L : grid0.Coords) (k : Fin k0_t1_loop.trips) (v : BitVec 32) (hv : v.toNat ≤ 10) : k0_chk11 L k v := by
  unfold k0_chk11
  exact ⟨by rw [k0_off13_row L k v hv]; exact row_inb L (k_lt k) (by decide) hv, by rw [k0_off29_row L k v hv]; exact row_inb L (k_lt k) (by decide) hv⟩
theorem k0_chk12_of_le (L : grid0.Coords) (k : Fin k0_t1_loop.trips) (v : BitVec 32) (hv : v.toNat ≤ 10) : k0_chk12 L k v := by
  unfold k0_chk12
  exact ⟨by rw [k0_off14_row L k v hv]; exact row_inb L (k_lt k) (by decide) hv, by rw [k0_off30_row L k v hv]; exact row_inb L (k_lt k) (by decide) hv⟩
theorem k0_chk13_of_le (L : grid0.Coords) (k : Fin k0_t1_loop.trips) (v : BitVec 32) (hv : v.toNat ≤ 10) : k0_chk13 L k v := by
  unfold k0_chk13
  exact ⟨by rw [k0_off15_row L k v hv]; exact row_inb L (k_lt k) (by decide) hv, by rw [k0_off31_row L k v hv]; exact row_inb L (k_lt k) (by decide) hv⟩
theorem k0_chk14_of_le (L : grid0.Coords) (k : Fin k0_t1_loop.trips) (v : BitVec 32) (hv : v.toNat ≤ 10) : k0_chk14 L k v := by
  unfold k0_chk14
  exact ⟨by rw [k0_off16_row L k v hv]; exact row_inb L (k_lt k) (by decide) hv, by rw [k0_off32_row L k v hv]; exact row_inb L (k_lt k) (by decide) hv⟩
theorem k0_chk15_of_le (L : grid0.Coords) (k : Fin k0_t1_loop.trips) (v : BitVec 32) (hv : v.toNat ≤ 10) : k0_chk15 L k v := by
  unfold k0_chk15
  exact ⟨by rw [k0_off17_row L k v hv]; exact row_inb L (k_lt k) (by decide) hv, by rw [k0_off33_row L k v hv]; exact row_inb L (k_lt k) (by decide) hv⟩
theorem k0_chk16_of_le (L : grid0.Coords) (k : Fin k0_t1_loop.trips) (v : BitVec 32) (hv : v.toNat ≤ 10) : k0_chk16 L k v := by
  unfold k0_chk16
  exact by rw [k0_off18_row L k v hv]; exact row_inb L (k_lt k) (by decide) hv

/-! ## The steps a trip loads

The staging copy leaves the tile's 128 steps in its first scratch; trip `k` loads sixteen of them from `16 k` and takes
them apart lane by lane. Lane `J`'s word is the steps array's word at `elem L k J`. -/

/-- The tile's slab of the steps array, as the staging copy slices it. -/
abbrev stpSlab (L : grid0.Coords) : Memref sig .scVector .hbm S128 .i32 :=
  (stpV).slice (Rect.unit (s := S4096) (k0_off1 L) S128.size (k0_off1_inb L)) (fun _ => rfl)

/-- What the first scratch holds after the staging copy. -/
def slabOf (fstp : S4096.Idx → BitVec 32) (L : grid0.Coords) : S128.Idx → BitVec 32 :=
  (stpSlab L).view.read (Elt F) fstp

theorem slabOf_apply (fstp : S4096.Idx → BitVec 32) (L : grid0.Coords) (i : Fin 128) :
    slabOf (F := F) fstp L (ix1 i) = fstp (ix1 ⟨256 * (L 1).val + 128 * (L 0).val + i.val, by have := L0_lt L; have := L1_lt L; omega⟩) := by
  unfold slabOf
  refine (View.read_apply _ _).trans ((cast_eq _ _).trans (congrArg fstp ?_))
  refine funext fun (a : Fin 1) => Fin.ext ?_
  obtain rfl : a = 0 := Subsingleton.elim _ _
  show (k0_off1 L) 0 + 1 * i.val = 256 * (L 1).val + 128 * (L 0).val + i.val
  rw [k0_off1_eq]; simp

/-- The sixteen steps trip `k` loads, as the body's load reads them off the scratch's contents. -/
abbrev V8 (k : Fin k0_t1_loop.trips) (fs : S128.Idx → BitVec 32) : S16.Idx → BitVec 32 :=
  (sS).view.readAt (Elt F) (Rect.unit (s := S128) (k0_off2 k) S16.size (k0_off2_inb k)).toLoadRect fs

theorem V8_apply (k : Fin k0_t1_loop.trips) (fs : S128.Idx → BitVec 32) (j : Fin 16) :
    V8 (F := F) k fs (ix1 j) = fs (ix1 ⟨16 * k.val + j.val, by have := k_lt k; omega⟩) := by
  show View.readAt (Elt F) (sS).view (Rect.unit (s := S128) (k0_off2 k) S16.size (k0_off2_inb k)).toLoadRect fs (ix1 j) = _
  simp only [View.readAt_apply, Memref.view_whole, View.read_whole]
  refine congrArg fs ?_
  refine funext fun (a : Fin 1) => Fin.ext ?_
  obtain rfl : a = 0 := Subsingleton.elim _ _
  rw [LoadRect.idx_apply]
  show (k0_off2 k) 0 + 1 * j.val = 16 * k.val + j.val
  rw [k0_off2_eq]; simp

/-- Taking lane `J` out of a vector of sixteen words. -/
theorem extract_lane (v : S16.Idx → BitVec 32) (J : ℕ) (hJ : J < 16) (h1 : S16.ShapeCasts S16) (h2 : S16.Slices ![J] S1)
    (h3 : ∀ a, (![0] : Fin 1 → ℕ) a < S1.size a) :
    extractAt ![0] (extractStridedSlice S1 ![J] (shapeCast S16 v h1) h2) h3 = v (ix1 ⟨J, hJ⟩) := by
  rw [shapeCast_self]
  unfold extractAt extractStridedSlice
  refine congrArg v ?_
  refine funext fun (a : Fin 1) => Fin.ext ?_
  obtain rfl : a = 0 := Subsingleton.elim _ _
  show J + 0 = J
  omega

/-- Lane `J`'s word when the scratch holds the tile's slab. -/
theorem lane_word (fstp : S4096.Idx → BitVec 32) (L : grid0.Coords) (k : Fin k0_t1_loop.trips) (J : ℕ) (hJ : J < 16) :
    V8 (F := F) k (slabOf (F := F) fstp L) (ix1 ⟨J, hJ⟩) = wordAt fstp L k.val J (k_lt k) hJ := by
  rw [V8_apply, slabOf_apply]
  unfold wordAt elem
  refine congrArg fstp (congrArg ix1 (Fin.ext ?_))
  show 256 * (L 1).val + 128 * (L 0).val + (16 * k.val + J) = 256 * (L 1).val + 128 * (L 0).val + 16 * k.val + J
  omega

theorem word0 (fstp : S4096.Idx → BitVec 32) (L : grid0.Coords) (k : Fin k0_t1_loop.trips) :
    extractAt ![0] (k0_pay2 (F := F) (V8 (F := F) k (slabOf (F := F) fstp L))) inpos_S1_p0 = wordAt fstp L k.val 0 (k_lt k) (by decide) := by
  unfold k0_pay2 k0_pay1
  exact (extract_lane _ 0 (by decide) _ _ _).trans (lane_word fstp L k 0 (by decide))
theorem word1 (fstp : S4096.Idx → BitVec 32) (L : grid0.Coords) (k : Fin k0_t1_loop.trips) :
    extractAt ![0] (k0_pay3 (F := F) (V8 (F := F) k (slabOf (F := F) fstp L))) inpos_S1_p0 = wordAt fstp L k.val 1 (k_lt k) (by decide) := by
  unfold k0_pay3 k0_pay1
  exact (extract_lane _ 1 (by decide) _ _ _).trans (lane_word fstp L k 1 (by decide))
theorem word2 (fstp : S4096.Idx → BitVec 32) (L : grid0.Coords) (k : Fin k0_t1_loop.trips) :
    extractAt ![0] (k0_pay4 (F := F) (V8 (F := F) k (slabOf (F := F) fstp L))) inpos_S1_p0 = wordAt fstp L k.val 2 (k_lt k) (by decide) := by
  unfold k0_pay4 k0_pay1
  exact (extract_lane _ 2 (by decide) _ _ _).trans (lane_word fstp L k 2 (by decide))
theorem word3 (fstp : S4096.Idx → BitVec 32) (L : grid0.Coords) (k : Fin k0_t1_loop.trips) :
    extractAt ![0] (k0_pay5 (F := F) (V8 (F := F) k (slabOf (F := F) fstp L))) inpos_S1_p0 = wordAt fstp L k.val 3 (k_lt k) (by decide) := by
  unfold k0_pay5 k0_pay1
  exact (extract_lane _ 3 (by decide) _ _ _).trans (lane_word fstp L k 3 (by decide))
theorem word4 (fstp : S4096.Idx → BitVec 32) (L : grid0.Coords) (k : Fin k0_t1_loop.trips) :
    extractAt ![0] (k0_pay6 (F := F) (V8 (F := F) k (slabOf (F := F) fstp L))) inpos_S1_p0 = wordAt fstp L k.val 4 (k_lt k) (by decide) := by
  unfold k0_pay6 k0_pay1
  exact (extract_lane _ 4 (by decide) _ _ _).trans (lane_word fstp L k 4 (by decide))
theorem word5 (fstp : S4096.Idx → BitVec 32) (L : grid0.Coords) (k : Fin k0_t1_loop.trips) :
    extractAt ![0] (k0_pay7 (k0_pay1 (F := F) (V8 (F := F) k (slabOf (F := F) fstp L)))) inpos_S1_p0 = wordAt fstp L k.val 5 (k_lt k) (by decide) := by
  unfold k0_pay7 k0_pay1
  exact (extract_lane _ 5 (by decide) _ _ _).trans (lane_word fstp L k 5 (by decide))
theorem word6 (fstp : S4096.Idx → BitVec 32) (L : grid0.Coords) (k : Fin k0_t1_loop.trips) :
    extractAt ![0] (k0_pay8 (k0_pay1 (F := F) (V8 (F := F) k (slabOf (F := F) fstp L)))) inpos_S1_p0 = wordAt fstp L k.val 6 (k_lt k) (by decide) := by
  unfold k0_pay8 k0_pay1
  exact (extract_lane _ 6 (by decide) _ _ _).trans (lane_word fstp L k 6 (by decide))
theorem word7 (fstp : S4096.Idx → BitVec 32) (L : grid0.Coords) (k : Fin k0_t1_loop.trips) :
    extractAt ![0] (k0_pay9 (k0_pay1 (F := F) (V8 (F := F) k (slabOf (F := F) fstp L)))) inpos_S1_p0 = wordAt fstp L k.val 7 (k_lt k) (by decide) := by
  unfold k0_pay9 k0_pay1
  exact (extract_lane _ 7 (by decide) _ _ _).trans (lane_word fstp L k 7 (by decide))
theorem word8 (fstp : S4096.Idx → BitVec 32) (L : grid0.Coords) (k : Fin k0_t1_loop.trips) :
    extractAt ![0] (k0_pay10 (k0_pay1 (F := F) (V8 (F := F) k (slabOf (F := F) fstp L)))) inpos_S1_p0 = wordAt fstp L k.val 8 (k_lt k) (by decide) := by
  unfold k0_pay10 k0_pay1
  exact (extract_lane _ 8 (by decide) _ _ _).trans (lane_word fstp L k 8 (by decide))
theorem word9 (fstp : S4096.Idx → BitVec 32) (L : grid0.Coords) (k : Fin k0_t1_loop.trips) :
    extractAt ![0] (k0_pay11 (k0_pay1 (F := F) (V8 (F := F) k (slabOf (F := F) fstp L)))) inpos_S1_p0 = wordAt fstp L k.val 9 (k_lt k) (by decide) := by
  unfold k0_pay11 k0_pay1
  exact (extract_lane _ 9 (by decide) _ _ _).trans (lane_word fstp L k 9 (by decide))
theorem word10 (fstp : S4096.Idx → BitVec 32) (L : grid0.Coords) (k : Fin k0_t1_loop.trips) :
    extractAt ![0] (k0_pay12 (k0_pay1 (F := F) (V8 (F := F) k (slabOf (F := F) fstp L)))) inpos_S1_p0 = wordAt fstp L k.val 10 (k_lt k) (by decide) := by
  unfold k0_pay12 k0_pay1
  exact (extract_lane _ 10 (by decide) _ _ _).trans (lane_word fstp L k 10 (by decide))
theorem word11 (fstp : S4096.Idx → BitVec 32) (L : grid0.Coords) (k : Fin k0_t1_loop.trips) :
    extractAt ![0] (k0_pay13 (k0_pay1 (F := F) (V8 (F := F) k (slabOf (F := F) fstp L)))) inpos_S1_p0 = wordAt fstp L k.val 11 (k_lt k) (by decide) := by
  unfold k0_pay13 k0_pay1
  exact (extract_lane _ 11 (by decide) _ _ _).trans (lane_word fstp L k 11 (by decide))
theorem word12 (fstp : S4096.Idx → BitVec 32) (L : grid0.Coords) (k : Fin k0_t1_loop.trips) :
    extractAt ![0] (k0_pay14 (k0_pay1 (F := F) (V8 (F := F) k (slabOf (F := F) fstp L)))) inpos_S1_p0 = wordAt fstp L k.val 12 (k_lt k) (by decide) := by
  unfold k0_pay14 k0_pay1
  exact (extract_lane _ 12 (by decide) _ _ _).trans (lane_word fstp L k 12 (by decide))
theorem word13 (fstp : S4096.Idx → BitVec 32) (L : grid0.Coords) (k : Fin k0_t1_loop.trips) :
    extractAt ![0] (k0_pay15 (k0_pay1 (F := F) (V8 (F := F) k (slabOf (F := F) fstp L)))) inpos_S1_p0 = wordAt fstp L k.val 13 (k_lt k) (by decide) := by
  unfold k0_pay15 k0_pay1
  exact (extract_lane _ 13 (by decide) _ _ _).trans (lane_word fstp L k 13 (by decide))
theorem word14 (fstp : S4096.Idx → BitVec 32) (L : grid0.Coords) (k : Fin k0_t1_loop.trips) :
    extractAt ![0] (k0_pay16 (k0_pay1 (F := F) (V8 (F := F) k (slabOf (F := F) fstp L)))) inpos_S1_p0 = wordAt fstp L k.val 14 (k_lt k) (by decide) := by
  unfold k0_pay16 k0_pay1
  exact (extract_lane _ 14 (by decide) _ _ _).trans (lane_word fstp L k 14 (by decide))
theorem word15 (fstp : S4096.Idx → BitVec 32) (L : grid0.Coords) (k : Fin k0_t1_loop.trips) :
    extractAt ![0] (k0_pay17 (k0_pay1 (F := F) (V8 (F := F) k (slabOf (F := F) fstp L)))) inpos_S1_p0 = wordAt fstp L k.val 15 (k_lt k) (by decide) := by
  unfold k0_pay17 k0_pay1
  exact (extract_lane _ 15 (by decide) _ _ _).trans (lane_word fstp L k 15 (by decide))

/-! ## A row of the table, read through the source of a lane's copy -/

/-- The source of a lane's copy: one row of the table, sliced and its unit axis dropped. -/
abbrev srcRow (off : Fin 3 → ℕ) (h : ∀ a, off a + S1x20x64.size a ≤ S45056x20x64.size a) : Memref sig .scVector .hbm S20x64 .f32 :=
  ((tblV).slice (Rect.unit (s := S45056x20x64) off S1x20x64.size h) (fun _ => rfl)).squeeze S20x64 squeezes_S1x20x64_S20x64

theorem srcRow_read (ftb : S45056x20x64.Idx → Elt F .f32) (r : ℕ) (hr : r < 45056) (off : Fin 3 → ℕ) (hoff : off = ![r, 0, 0])
    (h : ∀ a, off a + S1x20x64.size a ≤ S45056x20x64.size a) (z : S20x64.Idx) :
    ReadAs.same.apply ((srcRow off h).view.read (Elt F) ftb) z = ftb (ix3 ⟨r, hr⟩ (z 0) (z 1)) := by
  subst hoff
  refine (View.read_apply _ _).trans ((cast_eq _ _).trans (congrArg ftb ?_))
  show (Rect.unit (s := S45056x20x64) ![r, 0, 0] S1x20x64.size h).emb
      (Shape.reshapeEquiv squeezes_S1x20x64_S20x64.numel_eq z) = _
  have e : Shape.reshapeEquiv squeezes_S1x20x64_S20x64.numel_eq z = (ix3 (0 : Fin 1) (z 0) (z 1) : S1x20x64.Idx) := by
    refine Shape.reshapeEquiv_eq_of_rowMajor _ ?_
    rw [Shape.rowMajor_val_three, Shape.rowMajor_val_two]
    show (0 * 20 + (z 0).val) * 64 + (z 1).val = (z 0).val * 64 + (z 1).val
    omega
  rw [e]
  refine funext fun (a : Fin 3) => Fin.ext ?_
  match a with
  | ⟨0, _⟩ => show r + 1 * 0 = r; omega
  | ⟨1, _⟩ => show 0 + 1 * (z 0).val = (z 0).val; omega
  | ⟨2, _⟩ => show 0 + 1 * (z 1).val = (z 1).val; omega

/-! ## The sixteen rows in the second scratch

Lane `J`'s copy lands in row `J` of the second scratch; after the sixteen have landed, row `y 0` of the scratch is what
lane `y 0` copied. -/

theorem squeeze_idx (z : S20x64.Idx) :
    Shape.reshapeEquiv squeezes_S1x20x64_S20x64.numel_eq z = (ix3 (0 : Fin 1) (z 0) (z 1) : S1x20x64.Idx) := by
  refine Shape.reshapeEquiv_eq_of_rowMajor _ ?_
  rw [Shape.rowMajor_val_three, Shape.rowMajor_val_two]
  show (0 * 20 + (z 0).val) * 64 + (z 1).val = (z 0).val * 64 + (z 1).val
  omega

/-- Row `J` of the second scratch, as a lane's copy names its destination. -/
abbrev dstRow (J : ℕ) (h : ∀ a, (![J, 0, 0] : Fin 3 → ℕ) a + S1x20x64.size a ≤ S16x20x64.size a) : Memref sig .scVector .vmem S20x64 .f32 :=
  ((sR).slice (Rect.unit (s := S16x20x64) ![J, 0, 0] S1x20x64.size h) (fun _ => rfl)).squeeze S20x64 squeezes_S1x20x64_S20x64

theorem J_lt {J : ℕ} (h : ∀ a, (![J, 0, 0] : Fin 3 → ℕ) a + S1x20x64.size a ≤ S16x20x64.size a) : J < 16 := by
  have := h 0; show J < 16; have e : (![J, 0, 0] : Fin 3 → ℕ) 0 + S1x20x64.size 0 = J + 1 := rfl; rw [e] at this
  exact this

theorem dstRow_emb (J : ℕ) (h : ∀ a, (![J, 0, 0] : Fin 3 → ℕ) a + S1x20x64.size a ≤ S16x20x64.size a) (z : S20x64.Idx) :
    (dstRow J h).view.emb z = (ix3 ⟨J, J_lt h⟩ (z 0) (z 1) : S16x20x64.Idx) := by
  show (Rect.unit (s := S16x20x64) ![J, 0, 0] S1x20x64.size h).emb (Shape.reshapeEquiv squeezes_S1x20x64_S20x64.numel_eq z) = _
  rw [squeeze_idx]
  refine funext fun (a : Fin 3) => Fin.ext ?_
  match a with
  | ⟨0, _⟩ => show J + 1 * 0 = J; omega
  | ⟨1, _⟩ => show 0 + 1 * (z 0).val = (z 0).val; omega
  | ⟨2, _⟩ => show 0 + 1 * (z 1).val = (z 1).val; omega

theorem dstRow_write (J : ℕ) (h : ∀ a, (![J, 0, 0] : Fin 3 → ℕ) a + S1x20x64.size a ≤ S16x20x64.size a)
    (f : S16x20x64.Idx → Elt F .f32) (p : S20x64.Idx → Elt F .f32) (y : S16x20x64.Idx) :
    (dstRow J h).view.write (Elt F) f p Finset.univ y = if (y 0).val = J then p (ix2 (y 1) (y 2)) else f y := by
  by_cases hy : (y 0).val = J
  · rw [if_pos hy]
    have e : y = (dstRow J h).view.emb (ix2 (y 1) (y 2)) := by
      rw [dstRow_emb]
      refine funext fun (a : Fin 3) => Fin.ext ?_
      match a with
      | ⟨0, _⟩ => exact hy
      | ⟨1, _⟩ => rfl
      | ⟨2, _⟩ => rfl
    conv_lhs => rw [e]
    exact (View.write_emb_of_mem _ _ (Finset.mem_univ _)).trans (cast_eq _ _)
  · rw [if_neg hy]
    refine View.write_of_not_mem _ _ _ ?_
    rw [View.setOn_univ]
    show y ∉ (((View.whole (cc0_scratch1 : Ref sig .scVector)).slice (Rect.unit (s := S16x20x64) ![J, 0, 0] S1x20x64.size h)).reshape S20x64 squeezes_S1x20x64_S20x64.numel_eq).set
    rw [View.set_reshape, View.set_slice_whole, Rect.mem_set_unit]
    intro hm
    have := hm 0
    have e1 : (![J, 0, 0] : Fin 3 → ℕ) 0 = J := rfl
    have e2 : S1x20x64.size 0 = 1 := rfl
    rw [e1, e2] at this
    omega

/-- Rows below `J` of the scratch hold what their lanes copied. -/
def RowsDone (G : ℕ → S20x64.Idx → Elt F .f32) (J : ℕ) (f : S16x20x64.Idx → Elt F .f32) : Prop :=
  ∀ y : S16x20x64.Idx, (y 0).val < J → f y = G (y 0).val (ix2 (y 1) (y 2))

theorem rows_zero (G : ℕ → S20x64.Idx → Elt F .f32) (f : S16x20x64.Idx → Elt F .f32) : RowsDone G 0 f :=
  fun _ h => absurd h (Nat.not_lt_zero _)

/-- Lane `J`'s copy lands in row `J` and leaves the rows below it alone. -/
theorem rows_step (G : ℕ → S20x64.Idx → Elt F .f32) (J : ℕ) (h : ∀ a, (![J, 0, 0] : Fin 3 → ℕ) a + S1x20x64.size a ≤ S16x20x64.size a)
    (f : S16x20x64.Idx → Elt F .f32) (p : S20x64.Idx → Elt F .f32) (e : ∀ z, p z = G J z) (hf : RowsDone G J f) :
    RowsDone G (J + 1) ((dstRow J h).view.write (Elt F) f p Finset.univ) := by
  intro y hy
  rw [dstRow_write]
  by_cases hJ : (y 0).val = J
  · rw [if_pos hJ, e, hJ]
  · rw [if_neg hJ]; exact hf y (by omega)

/-- After the sixteen lanes' copies, the second scratch read at `y` is what lane `y 0` copied, at `(y 1, y 2)`. -/
theorem rows_value (fr : S16x20x64.Idx → Elt F .f32)
    (p0 : S20x64.Idx → Elt F .f32) (p1 : S20x64.Idx → Elt F .f32) (p2 : S20x64.Idx → Elt F .f32) (p3 : S20x64.Idx → Elt F .f32) (p4 : S20x64.Idx → Elt F .f32) (p5 : S20x64.Idx → Elt F .f32) (p6 : S20x64.Idx → Elt F .f32) (p7 : S20x64.Idx → Elt F .f32) (p8 : S20x64.Idx → Elt F .f32) (p9 : S20x64.Idx → Elt F .f32) (p10 : S20x64.Idx → Elt F .f32) (p11 : S20x64.Idx → Elt F .f32) (p12 : S20x64.Idx → Elt F .f32) (p13 : S20x64.Idx → Elt F .f32) (p14 : S20x64.Idx → Elt F .f32) (p15 : S20x64.Idx → Elt F .f32)
    (h0 : ∀ a, (![0, 0, 0] : Fin 3 → ℕ) a + S1x20x64.size a ≤ S16x20x64.size a)
    (h1 : ∀ a, (![1, 0, 0] : Fin 3 → ℕ) a + S1x20x64.size a ≤ S16x20x64.size a)
    (h2 : ∀ a, (![2, 0, 0] : Fin 3 → ℕ) a + S1x20x64.size a ≤ S16x20x64.size a)
    (h3 : ∀ a, (![3, 0, 0] : Fin 3 → ℕ) a + S1x20x64.size a ≤ S16x20x64.size a)
    (h4 : ∀ a, (![4, 0, 0] : Fin 3 → ℕ) a + S1x20x64.size a ≤ S16x20x64.size a)
    (h5 : ∀ a, (![5, 0, 0] : Fin 3 → ℕ) a + S1x20x64.size a ≤ S16x20x64.size a)
    (h6 : ∀ a, (![6, 0, 0] : Fin 3 → ℕ) a + S1x20x64.size a ≤ S16x20x64.size a)
    (h7 : ∀ a, (![7, 0, 0] : Fin 3 → ℕ) a + S1x20x64.size a ≤ S16x20x64.size a)
    (h8 : ∀ a, (![8, 0, 0] : Fin 3 → ℕ) a + S1x20x64.size a ≤ S16x20x64.size a)
    (h9 : ∀ a, (![9, 0, 0] : Fin 3 → ℕ) a + S1x20x64.size a ≤ S16x20x64.size a)
    (h10 : ∀ a, (![10, 0, 0] : Fin 3 → ℕ) a + S1x20x64.size a ≤ S16x20x64.size a)
    (h11 : ∀ a, (![11, 0, 0] : Fin 3 → ℕ) a + S1x20x64.size a ≤ S16x20x64.size a)
    (h12 : ∀ a, (![12, 0, 0] : Fin 3 → ℕ) a + S1x20x64.size a ≤ S16x20x64.size a)
    (h13 : ∀ a, (![13, 0, 0] : Fin 3 → ℕ) a + S1x20x64.size a ≤ S16x20x64.size a)
    (h14 : ∀ a, (![14, 0, 0] : Fin 3 → ℕ) a + S1x20x64.size a ≤ S16x20x64.size a)
    (h15 : ∀ a, (![15, 0, 0] : Fin 3 → ℕ) a + S1x20x64.size a ≤ S16x20x64.size a)
    (G : ℕ → S20x64.Idx → Elt F .f32)
    (e0 : ∀ z, p0 z = G 0 z) (e1 : ∀ z, p1 z = G 1 z) (e2 : ∀ z, p2 z = G 2 z) (e3 : ∀ z, p3 z = G 3 z) (e4 : ∀ z, p4 z = G 4 z) (e5 : ∀ z, p5 z = G 5 z) (e6 : ∀ z, p6 z = G 6 z) (e7 : ∀ z, p7 z = G 7 z) (e8 : ∀ z, p8 z = G 8 z) (e9 : ∀ z, p9 z = G 9 z) (e10 : ∀ z, p10 z = G 10 z) (e11 : ∀ z, p11 z = G 11 z) (e12 : ∀ z, p12 z = G 12 z) (e13 : ∀ z, p13 z = G 13 z) (e14 : ∀ z, p14 z = G 14 z) (e15 : ∀ z, p15 z = G 15 z)
    (y : S16x20x64.Idx) :
    ReadAs.same.apply ((sR).view.read (Elt F) ((dstRow 15 h15).view.write (Elt F) ((dstRow 14 h14).view.write (Elt F) ((dstRow 13 h13).view.write (Elt F) ((dstRow 12 h12).view.write (Elt F) ((dstRow 11 h11).view.write (Elt F) ((dstRow 10 h10).view.write (Elt F) ((dstRow 9 h9).view.write (Elt F) ((dstRow 8 h8).view.write (Elt F) ((dstRow 7 h7).view.write (Elt F) ((dstRow 6 h6).view.write (Elt F) ((dstRow 5 h5).view.write (Elt F) ((dstRow 4 h4).view.write (Elt F) ((dstRow 3 h3).view.write (Elt F) ((dstRow 2 h2).view.write (Elt F) ((dstRow 1 h1).view.write (Elt F) ((dstRow 0 h0).view.write (Elt F) fr p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)) y = G (y 0).val (ix2 (y 1) (y 2)) :=
  (rows_step G 15 h15 _ p15 e15 (rows_step G 14 h14 _ p14 e14 (rows_step G 13 h13 _ p13 e13 (rows_step G 12 h12 _ p12 e12 (rows_step G 11 h11 _ p11 e11 (rows_step G 10 h10 _ p10 e10 (rows_step G 9 h9 _ p9 e9 (rows_step G 8 h8 _ p8 e8 (rows_step G 7 h7 _ p7 e7 (rows_step G 6 h6 _ p6 e6 (rows_step G 5 h5 _ p5 e5 (rows_step G 4 h4 _ p4 e4 (rows_step G 3 h3 _ p3 e3 (rows_step G 2 h2 _ p2 e2 (rows_step G 1 h1 _ p1 e1 (rows_step G 0 h0 _ p0 e0 (rows_zero G fr))))))))))))))))) y (y 0).isLt

/-! ## The chunk a trip writes -/

/-- Element `n` of trip `k` of tile `L`, as an index of the batch axis. -/
def elemF (L : grid0.Coords) (k n : ℕ) : Fin 4096 := ⟨elem L k n % 4096, Nat.mod_lt _ (by decide)⟩

theorem elemF_val (L : grid0.Coords) {k n : ℕ} (hk : k < 8) (hn : n < 16) : (elemF L k n).val = elem L k n :=
  Nat.mod_eq_of_lt (elem_lt L hk hn)

/-- The row a lane copies is the row the result wants: eleven times the element plus its step. -/
theorem row_eq (fstp : S4096.Idx → BitVec 32) (hs : Cert.Spec.StepsOK fstp) (L : grid0.Coords) {k J : ℕ} (hk : k < 8) (hJ : J < 16)
    (v : BitVec 32) (hv : v = wordAt fstp L k J hk hJ) :
    rowOf L k J v = (elemF L k J).val * 11 + (Cert.Spec.stepOf fstp (elemF L k J)).val := by
  subst hv
  have e : elemF L k J = ⟨elem L k J, elem_lt L hk hJ⟩ := Fin.ext (elemF_val L hk hJ)
  rw [e, Cert.Spec.stepOf_val hs]
  rfl

theorem chunk_emb (L : grid0.Coords) (k : Fin k0_t1_loop.trips) (y : S16x20x64.Idx) :
    (outChunk L k).view.emb y = (ix3 (elemF L k.val (y 0).val) (y 1) (y 2) : S4096x20x64.Idx) := by
  show (Rect.unit (s := S4096x20x64) (k0_off34 L k) S16x20x64.size (k0_off34_inb L k)).emb y = _
  refine funext fun (a : Fin 3) => Fin.ext ?_
  have hy : (y 0).val < 16 := (y 0).isLt
  match a with
  | ⟨0, _⟩ =>
    show (k0_off34 L k) 0 + 1 * (y 0).val = (elemF L k.val (y 0).val).val
    rw [k0_off34_eq, elemF_val L (k_lt k) hy]; unfold elem; simp
  | ⟨1, _⟩ => show (k0_off34 L k) 1 + 1 * (y 1).val = (y 1).val; rw [k0_off34_eq]; simp
  | ⟨2, _⟩ => show (k0_off34 L k) 2 + 1 * (y 2).val = (y 2).val; rw [k0_off34_eq]; simp

/-- What the copy-out leaves in the trip's chunk of the result is the gathered rows there. -/
theorem chunk_value (ftb : S45056x20x64.Idx → Elt F .f32) (fstp : S4096.Idx → BitVec 32) (L : grid0.Coords) (k : Fin k0_t1_loop.trips)
    (fo : S4096x20x64.Idx → Elt F .f32) (X : S16x20x64.Idx → Elt F .f32)
    (hX : ∀ y : S16x20x64.Idx, X y = rowsOf ftb fstp (ix3 (elemF L k.val (y 0).val) (y 1) (y 2))) :
    ∀ i ∈ (outChunk L k).view.set, (outChunk L k).view.writes (Elt F) fo [⟨Rect.whole S16x20x64, X⟩] i = rowsOf ftb fstp i := by
  intro i hi
  obtain ⟨y, -, rfl⟩ := Finset.mem_map.mp hi
  have h1 := View.read_writes_cons_emb (v := (outChunk L k).view) (f := fo) (Rect.whole S16x20x64) X [] y
  rw [Rect.emb_whole_apply] at h1
  have h2 := (View.read_apply (v := (outChunk L k).view) ((outChunk L k).view.writes (Elt F) fo [⟨Rect.whole S16x20x64, X⟩]) y).symm.trans h1
  rw [cast_eq] at h2
  rw [h2, hX y, chunk_emb]

end Cert.Proof.WordsB
end
-- ==== Proof.LanesB.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.Kernel
import proofs.«205373_g65798898975314_cont_9to1c4b_285_22_alg».proof.Proof.Gen.Kernel.Skeleton
import proofs.«205373_g65798898975314_cont_9to1c4b_285_22_alg».proof.Proof.Spec
import proofs.«205373_g65798898975314_cont_9to1c4b_285_22_alg».proof.Proof.SetupB
import proofs.«205373_g65798898975314_cont_9to1c4b_285_22_alg».proof.Proof.Words
import proofs.«205373_g65798898975314_cont_9to1c4b_285_22_alg».proof.Proof.WordsB
import Idealize.ShloMosaic.Lib.Pipeline.Value
import Idealize.ShloMosaic.Lib.ValueIdx

noncomputable section

namespace Cert.Proof.LanesB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Cert.Proof.SetupB
open Idealize.ShloMosaic.ValueIdx
open Cert.Proof.WordsB

local notation "𝕄" => MT nD τ sig (HIx 1) (Elt F) ℕ UU ℕ

variable (m : (ℓ : Loc nD τ sig) → Buf (Elt F) ℓ) (ρ : Dev nD → PrngReg)

/-! ## Lane by lane: the word is in range, and the copy reads the wanted row -/

/-- A word that is some lane's step is at most ten. -/
theorem wle_of (fstp : S4096.Idx → BitVec 32) (hs : Cert.Spec.StepsOK fstp) (L : grid0.Coords) {k J : ℕ} (hk : k < 8) (hJ : J < 16)
    (v : BitVec 32) (hv : v = wordAt fstp L k J hk hJ) : v.toNat ≤ 10 := by
  subst hv; exact hs _

theorem lane0 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 0 (k_lt k) (by decide))
    (h : ∀ a, (k0_off3 L k v) a + S1x20x64.size a ≤ S45056x20x64.size a) (z : S20x64.Idx) :
    ReadAs.same.apply ((srcRow (k0_off3 L k v) h).view.read (Elt F) ftb) z
      = rowsOf ftb fstp (ix3 (elemF L k.val 0) (z 0) (z 1)) := by
  have hle := wle_of fstp hs L (k_lt k) (by decide : 0 < 16) v hv
  refine (srcRow_read ftb (rowOf L k.val 0 v) (rowOf_lt L (k_lt k) (by decide) hle) _ (k0_off3_row L k v hle) h z).trans ?_
  unfold rowsOf
  exact congrArg ftb (congrArg (fun r => ix3 r (z 0) (z 1)) (Fin.ext (row_eq fstp hs L (k_lt k) (by decide) v hv)))
theorem lane1 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 1 (k_lt k) (by decide))
    (h : ∀ a, (k0_off4 L k v) a + S1x20x64.size a ≤ S45056x20x64.size a) (z : S20x64.Idx) :
    ReadAs.same.apply ((srcRow (k0_off4 L k v) h).view.read (Elt F) ftb) z
      = rowsOf ftb fstp (ix3 (elemF L k.val 1) (z 0) (z 1)) := by
  have hle := wle_of fstp hs L (k_lt k) (by decide : 1 < 16) v hv
  refine (srcRow_read ftb (rowOf L k.val 1 v) (rowOf_lt L (k_lt k) (by decide) hle) _ (k0_off4_row L k v hle) h z).trans ?_
  unfold rowsOf
  exact congrArg ftb (congrArg (fun r => ix3 r (z 0) (z 1)) (Fin.ext (row_eq fstp hs L (k_lt k) (by decide) v hv)))
theorem lane2 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 2 (k_lt k) (by decide))
    (h : ∀ a, (k0_off5 L k v) a + S1x20x64.size a ≤ S45056x20x64.size a) (z : S20x64.Idx) :
    ReadAs.same.apply ((srcRow (k0_off5 L k v) h).view.read (Elt F) ftb) z
      = rowsOf ftb fstp (ix3 (elemF L k.val 2) (z 0) (z 1)) := by
  have hle := wle_of fstp hs L (k_lt k) (by decide : 2 < 16) v hv
  refine (srcRow_read ftb (rowOf L k.val 2 v) (rowOf_lt L (k_lt k) (by decide) hle) _ (k0_off5_row L k v hle) h z).trans ?_
  unfold rowsOf
  exact congrArg ftb (congrArg (fun r => ix3 r (z 0) (z 1)) (Fin.ext (row_eq fstp hs L (k_lt k) (by decide) v hv)))
theorem lane3 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 3 (k_lt k) (by decide))
    (h : ∀ a, (k0_off6 L k v) a + S1x20x64.size a ≤ S45056x20x64.size a) (z : S20x64.Idx) :
    ReadAs.same.apply ((srcRow (k0_off6 L k v) h).view.read (Elt F) ftb) z
      = rowsOf ftb fstp (ix3 (elemF L k.val 3) (z 0) (z 1)) := by
  have hle := wle_of fstp hs L (k_lt k) (by decide : 3 < 16) v hv
  refine (srcRow_read ftb (rowOf L k.val 3 v) (rowOf_lt L (k_lt k) (by decide) hle) _ (k0_off6_row L k v hle) h z).trans ?_
  unfold rowsOf
  exact congrArg ftb (congrArg (fun r => ix3 r (z 0) (z 1)) (Fin.ext (row_eq fstp hs L (k_lt k) (by decide) v hv)))
theorem lane4 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 4 (k_lt k) (by decide))
    (h : ∀ a, (k0_off7 L k v) a + S1x20x64.size a ≤ S45056x20x64.size a) (z : S20x64.Idx) :
    ReadAs.same.apply ((srcRow (k0_off7 L k v) h).view.read (Elt F) ftb) z
      = rowsOf ftb fstp (ix3 (elemF L k.val 4) (z 0) (z 1)) := by
  have hle := wle_of fstp hs L (k_lt k) (by decide : 4 < 16) v hv
  refine (srcRow_read ftb (rowOf L k.val 4 v) (rowOf_lt L (k_lt k) (by decide) hle) _ (k0_off7_row L k v hle) h z).trans ?_
  unfold rowsOf
  exact congrArg ftb (congrArg (fun r => ix3 r (z 0) (z 1)) (Fin.ext (row_eq fstp hs L (k_lt k) (by decide) v hv)))
theorem lane5 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 5 (k_lt k) (by decide))
    (h : ∀ a, (k0_off8 L k v) a + S1x20x64.size a ≤ S45056x20x64.size a) (z : S20x64.Idx) :
    ReadAs.same.apply ((srcRow (k0_off8 L k v) h).view.read (Elt F) ftb) z
      = rowsOf ftb fstp (ix3 (elemF L k.val 5) (z 0) (z 1)) := by
  have hle := wle_of fstp hs L (k_lt k) (by decide : 5 < 16) v hv
  refine (srcRow_read ftb (rowOf L k.val 5 v) (rowOf_lt L (k_lt k) (by decide) hle) _ (k0_off8_row L k v hle) h z).trans ?_
  unfold rowsOf
  exact congrArg ftb (congrArg (fun r => ix3 r (z 0) (z 1)) (Fin.ext (row_eq fstp hs L (k_lt k) (by decide) v hv)))
theorem lane6 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 6 (k_lt k) (by decide))
    (h : ∀ a, (k0_off9 L k v) a + S1x20x64.size a ≤ S45056x20x64.size a) (z : S20x64.Idx) :
    ReadAs.same.apply ((srcRow (k0_off9 L k v) h).view.read (Elt F) ftb) z
      = rowsOf ftb fstp (ix3 (elemF L k.val 6) (z 0) (z 1)) := by
  have hle := wle_of fstp hs L (k_lt k) (by decide : 6 < 16) v hv
  refine (srcRow_read ftb (rowOf L k.val 6 v) (rowOf_lt L (k_lt k) (by decide) hle) _ (k0_off9_row L k v hle) h z).trans ?_
  unfold rowsOf
  exact congrArg ftb (congrArg (fun r => ix3 r (z 0) (z 1)) (Fin.ext (row_eq fstp hs L (k_lt k) (by decide) v hv)))
theorem lane7 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 7 (k_lt k) (by decide))
    (h : ∀ a, (k0_off10 L k v) a + S1x20x64.size a ≤ S45056x20x64.size a) (z : S20x64.Idx) :
    ReadAs.same.apply ((srcRow (k0_off10 L k v) h).view.read (Elt F) ftb) z
      = rowsOf ftb fstp (ix3 (elemF L k.val 7) (z 0) (z 1)) := by
  have hle := wle_of fstp hs L (k_lt k) (by decide : 7 < 16) v hv
  refine (srcRow_read ftb (rowOf L k.val 7 v) (rowOf_lt L (k_lt k) (by decide) hle) _ (k0_off10_row L k v hle) h z).trans ?_
  unfold rowsOf
  exact congrArg ftb (congrArg (fun r => ix3 r (z 0) (z 1)) (Fin.ext (row_eq fstp hs L (k_lt k) (by decide) v hv)))
theorem lane8 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 8 (k_lt k) (by decide))
    (h : ∀ a, (k0_off11 L k v) a + S1x20x64.size a ≤ S45056x20x64.size a) (z : S20x64.Idx) :
    ReadAs.same.apply ((srcRow (k0_off11 L k v) h).view.read (Elt F) ftb) z
      = rowsOf ftb fstp (ix3 (elemF L k.val 8) (z 0) (z 1)) := by
  have hle := wle_of fstp hs L (k_lt k) (by decide : 8 < 16) v hv
  refine (srcRow_read ftb (rowOf L k.val 8 v) (rowOf_lt L (k_lt k) (by decide) hle) _ (k0_off11_row L k v hle) h z).trans ?_
  unfold rowsOf
  exact congrArg ftb (congrArg (fun r => ix3 r (z 0) (z 1)) (Fin.ext (row_eq fstp hs L (k_lt k) (by decide) v hv)))
theorem lane9 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 9 (k_lt k) (by decide))
    (h : ∀ a, (k0_off12 L k v) a + S1x20x64.size a ≤ S45056x20x64.size a) (z : S20x64.Idx) :
    ReadAs.same.apply ((srcRow (k0_off12 L k v) h).view.read (Elt F) ftb) z
      = rowsOf ftb fstp (ix3 (elemF L k.val 9) (z 0) (z 1)) := by
  have hle := wle_of fstp hs L (k_lt k) (by decide : 9 < 16) v hv
  refine (srcRow_read ftb (rowOf L k.val 9 v) (rowOf_lt L (k_lt k) (by decide) hle) _ (k0_off12_row L k v hle) h z).trans ?_
  unfold rowsOf
  exact congrArg ftb (congrArg (fun r => ix3 r (z 0) (z 1)) (Fin.ext (row_eq fstp hs L (k_lt k) (by decide) v hv)))
theorem lane10 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 10 (k_lt k) (by decide))
    (h : ∀ a, (k0_off13 L k v) a + S1x20x64.size a ≤ S45056x20x64.size a) (z : S20x64.Idx) :
    ReadAs.same.apply ((srcRow (k0_off13 L k v) h).view.read (Elt F) ftb) z
      = rowsOf ftb fstp (ix3 (elemF L k.val 10) (z 0) (z 1)) := by
  have hle := wle_of fstp hs L (k_lt k) (by decide : 10 < 16) v hv
  refine (srcRow_read ftb (rowOf L k.val 10 v) (rowOf_lt L (k_lt k) (by decide) hle) _ (k0_off13_row L k v hle) h z).trans ?_
  unfold rowsOf
  exact congrArg ftb (congrArg (fun r => ix3 r (z 0) (z 1)) (Fin.ext (row_eq fstp hs L (k_lt k) (by decide) v hv)))
theorem lane11 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 11 (k_lt k) (by decide))
    (h : ∀ a, (k0_off14 L k v) a + S1x20x64.size a ≤ S45056x20x64.size a) (z : S20x64.Idx) :
    ReadAs.same.apply ((srcRow (k0_off14 L k v) h).view.read (Elt F) ftb) z
      = rowsOf ftb fstp (ix3 (elemF L k.val 11) (z 0) (z 1)) := by
  have hle := wle_of fstp hs L (k_lt k) (by decide : 11 < 16) v hv
  refine (srcRow_read ftb (rowOf L k.val 11 v) (rowOf_lt L (k_lt k) (by decide) hle) _ (k0_off14_row L k v hle) h z).trans ?_
  unfold rowsOf
  exact congrArg ftb (congrArg (fun r => ix3 r (z 0) (z 1)) (Fin.ext (row_eq fstp hs L (k_lt k) (by decide) v hv)))
theorem lane12 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 12 (k_lt k) (by decide))
    (h : ∀ a, (k0_off15 L k v) a + S1x20x64.size a ≤ S45056x20x64.size a) (z : S20x64.Idx) :
    ReadAs.same.apply ((srcRow (k0_off15 L k v) h).view.read (Elt F) ftb) z
      = rowsOf ftb fstp (ix3 (elemF L k.val 12) (z 0) (z 1)) := by
  have hle := wle_of fstp hs L (k_lt k) (by decide : 12 < 16) v hv
  refine (srcRow_read ftb (rowOf L k.val 12 v) (rowOf_lt L (k_lt k) (by decide) hle) _ (k0_off15_row L k v hle) h z).trans ?_
  unfold rowsOf
  exact congrArg ftb (congrArg (fun r => ix3 r (z 0) (z 1)) (Fin.ext (row_eq fstp hs L (k_lt k) (by decide) v hv)))
theorem lane13 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 13 (k_lt k) (by decide))
    (h : ∀ a, (k0_off16 L k v) a + S1x20x64.size a ≤ S45056x20x64.size a) (z : S20x64.Idx) :
    ReadAs.same.apply ((srcRow (k0_off16 L k v) h).view.read (Elt F) ftb) z
      = rowsOf ftb fstp (ix3 (elemF L k.val 13) (z 0) (z 1)) := by
  have hle := wle_of fstp hs L (k_lt k) (by decide : 13 < 16) v hv
  refine (srcRow_read ftb (rowOf L k.val 13 v) (rowOf_lt L (k_lt k) (by decide) hle) _ (k0_off16_row L k v hle) h z).trans ?_
  unfold rowsOf
  exact congrArg ftb (congrArg (fun r => ix3 r (z 0) (z 1)) (Fin.ext (row_eq fstp hs L (k_lt k) (by decide) v hv)))
theorem lane14 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 14 (k_lt k) (by decide))
    (h : ∀ a, (k0_off17 L k v) a + S1x20x64.size a ≤ S45056x20x64.size a) (z : S20x64.Idx) :
    ReadAs.same.apply ((srcRow (k0_off17 L k v) h).view.read (Elt F) ftb) z
      = rowsOf ftb fstp (ix3 (elemF L k.val 14) (z 0) (z 1)) := by
  have hle := wle_of fstp hs L (k_lt k) (by decide : 14 < 16) v hv
  refine (srcRow_read ftb (rowOf L k.val 14 v) (rowOf_lt L (k_lt k) (by decide) hle) _ (k0_off17_row L k v hle) h z).trans ?_
  unfold rowsOf
  exact congrArg ftb (congrArg (fun r => ix3 r (z 0) (z 1)) (Fin.ext (row_eq fstp hs L (k_lt k) (by decide) v hv)))
theorem lane15 (ftb : S45056x20x64.Idx → Elt F .f32) (fstp : S4096.Idx → BitVec 32) (hs : Cert.Spec.StepsOK fstp) (L : grid0.Coords) (k : Fin k0_t1_loop.trips)
    (v : BitVec 32) (hv : v = wordAt fstp L k.val 15 (k_lt k) (by decide))
    (h : ∀ a, (k0_off18 L k v) a + S1x20x64.size a ≤ S45056x20x64.size a) (z : S20x64.Idx) :
    ReadAs.same.apply ((srcRow (k0_off18 L k v) h).view.read (Elt F) ftb) z
      = rowsOf ftb fstp (ix3 (elemF L k.val 15) (z 0) (z 1)) := by
  have hle := wle_of fstp hs L (k_lt k) (by decide : 15 < 16) v hv
  refine (srcRow_read ftb (rowOf L k.val 15 v) (rowOf_lt L (k_lt k) (by decide) hle) _ (k0_off18_row L k v hle) h z).trans ?_
  unfold rowsOf
  exact congrArg ftb (congrArg (fun r => ix3 r (z 0) (z 1)) (Fin.ext (row_eq fstp hs L (k_lt k) (by decide) v hv)))

end Cert.Proof.LanesB
end
-- ==== Proof.PlumbB.lean ====
/-
  A tile's own storage, unpacked: its scoped semaphores at zero are the kernel's three DMA semaphores at zero and the
  rest; its own buffers are the two scratches, at some contents, and the rest. And a read share halves: what remains
  after `j` tokens is what remains after `j + 1` and token `j`.
-/
import proofs.«205373_g65798898975314_cont_9to1c4b_285_22_alg».proof.Proof.SetupB

noncomputable section

namespace Cert.Proof.PlumbB

open Cert.Kernel Cert.Kernel.Gen
open Cert.Proof.SetupB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid0.Coords)

/-- The tile's scoped semaphores at zero: the kernel's three DMA semaphores, and the rest. -/
theorem ownSems0_V :
    (ownSems0 (thr d L) : sProp 𝕄)
      = iprop(semVal (thr d L, SemLoc.dma cc0_scratch2.sem) 0 ∗ semVal (thr d L, SemLoc.dma cc0_scoped0.sem) 0 ∗ semVal (thr d L, SemLoc.dma cc0_scoped1.sem) 0
          ∗ bigSep ((((ownCells (thr d L)).erase (thr d L, SemLoc.dma cc0_scratch2.sem)).erase (thr d L, SemLoc.dma cc0_scoped0.sem)).erase (thr d L, SemLoc.dma cc0_scoped1.sem))
              fun g => semVal g 0) := by
  unfold SparseCore.Cfg.ownSems0
  rw [SparseCore.bigSep_erase' ((mem_ownCells (g := (thr d L, SemLoc.dma cc0_scratch2.sem))).mpr ⟨rfl, by
      show (SemLoc.dma cc0_scratch2.sem : SemLoc sig).isScoped .scVector = true; decide⟩),
    SparseCore.bigSep_erase' (Finset.mem_erase.mpr ⟨fun e => absurd (Prod.mk.inj e).2 (by decide),
      (mem_ownCells (g := (thr d L, SemLoc.dma cc0_scoped0.sem))).mpr ⟨rfl, by
        show (SemLoc.dma cc0_scoped0.sem : SemLoc sig).isScoped .scVector = true; decide⟩⟩),
    SparseCore.bigSep_erase' (Finset.mem_erase.mpr ⟨fun e => absurd (Prod.mk.inj e).2 (by decide),
      Finset.mem_erase.mpr ⟨fun e => absurd (Prod.mk.inj e).2 (by decide),
        (mem_ownCells (g := (thr d L, SemLoc.dma cc0_scoped1.sem))).mpr ⟨rfl, by
          show (SemLoc.dma cc0_scoped1.sem : SemLoc sig).isScoped .scVector = true; decide⟩⟩⟩)]

/-- The tile's own buffers: the two scratches, each at some contents, and the rest. -/
theorem ownBufs_V :
    (ownBufs (thr d L) : sProp 𝕄)
      = iprop((∃ f, (sS).view.loc (thr d L) ↦{fullShare} f) ∗ (∃ f, (sR).view.loc (thr d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  show (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What remains of a read share after `j` tokens is what remains after `j + 1`, and token `j`. -/
theorem lane_split {ℓ : Loc nD τ sig} {S : Finset (Idx ℓ)} {f : Buf (Elt F) ℓ} (q : PosShare TreeShare) (j : ℕ) :
    (ℓ ↦[S]{Transfers.shareDrop q j} f : sProp 𝕄) ⊢ iprop((ℓ ↦[S]{Transfers.shareDrop q (j + 1)} f) ∗ ℓ ↦[S]{Transfers.shareTokN q j} f) :=
  (pointsTo_share (PosShare.mem_left_op_right _)).1

end Cert.Proof.PlumbB

end
-- ==== Proof.TileB.lean ====
import proofs.«205373_g65798898975314_cont_9to1c4b_285_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«205373_g65798898975314_cont_9to1c4b_285_22_alg».proof.Proof.Gen.Kernel
import proofs.«205373_g65798898975314_cont_9to1c4b_285_22_alg».proof.Proof.Gen.Kernel.Skeleton
import proofs.«205373_g65798898975314_cont_9to1c4b_285_22_alg».proof.Proof.Spec
import proofs.«205373_g65798898975314_cont_9to1c4b_285_22_alg».proof.Proof.SetupB
import proofs.«205373_g65798898975314_cont_9to1c4b_285_22_alg».proof.Proof.Words
import proofs.«205373_g65798898975314_cont_9to1c4b_285_22_alg».proof.Proof.WordsB
import proofs.«205373_g65798898975314_cont_9to1c4b_285_22_alg».proof.Proof.LanesB
import proofs.«205373_g65798898975314_cont_9to1c4b_285_22_alg».proof.Proof.LaunchB
import proofs.«205373_g65798898975314_cont_9to1c4b_285_22_alg».proof.Proof.PlumbB
import Idealize.ShloMosaic.Lib.Pipeline.Value
import Idealize.ShloMosaic.Lib.ValueIdx

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

open Cert.Proof.SetupB
open Idealize.ShloMosaic.ValueIdx
open Cert.Proof.WordsB Cert.Proof.LanesB

local notation "𝕄" => MT nD τ sig (HIx 1) (Elt F) ℕ UU ℕ

variable (m : (ℓ : Loc nD τ sig) → Buf (Elt F) ℓ) (ρ : Dev nD → PrngReg)

/-! ## The tile's task

The tile stages its 128 steps, then in eight trips loads sixteen of them, starts the sixteen row copies on one semaphore,
waits for the sixteen, and copies the gathered rows out to its chunk of the result. Before trip `n` the chunks below
`n` hold the gathered rows and the others their launch contents. -/

section Tile
variable (d : Dev nD) (L : grid0.Coords)

/-- The tile's sixteen shares of the table, one per lane of a trip. -/
def tbl16 (ftb : S45056x20x64.Idx → Elt F .f32) : sProp 𝕄 :=
  iprop(((tblV).view.loc (thr d L) ↦{qLane (L 0).val (L 1).val 0} ftb)
      ∗ ((tblV).view.loc (thr d L) ↦{qLane (L 0).val (L 1).val 1} ftb)
      ∗ ((tblV).view.loc (thr d L) ↦{qLane (L 0).val (L 1).val 2} ftb)
      ∗ ((tblV).view.loc (thr d L) ↦{qLane (L 0).val (L 1).val 3} ftb)
      ∗ ((tblV).view.loc (thr d L) ↦{qLane (L 0).val (L 1).val 4} ftb)
      ∗ ((tblV).view.loc (thr d L) ↦{qLane (L 0).val (L 1).val 5} ftb)
      ∗ ((tblV).view.loc (thr d L) ↦{qLane (L 0).val (L 1).val 6} ftb)
      ∗ ((tblV).view.loc (thr d L) ↦{qLane (L 0).val (L 1).val 7} ftb)
      ∗ ((tblV).view.loc (thr d L) ↦{qLane (L 0).val (L 1).val 8} ftb)
      ∗ ((tblV).view.loc (thr d L) ↦{qLane (L 0).val (L 1).val 9} ftb)
      ∗ ((tblV).view.loc (thr d L) ↦{qLane (L 0).val (L 1).val 10} ftb)
      ∗ ((tblV).view.loc (thr d L) ↦{qLane (L 0).val (L 1).val 11} ftb)
      ∗ ((tblV).view.loc (thr d L) ↦{qLane (L 0).val (L 1).val 12} ftb)
      ∗ ((tblV).view.loc (thr d L) ↦{qLane (L 0).val (L 1).val 13} ftb)
      ∗ ((tblV).view.loc (thr d L) ↦{qLane (L 0).val (L 1).val 14} ftb)
      ∗ ((tblV).view.loc (thr d L) ↦{qLane (L 0).val (L 1).val 15} ftb))

theorem ins_ok {thrW : Type} [DecidableEq thrW] {W' W : Finset (thrW × HIx 1)} {a : thrW × HIx 1} (ha : a.2 = none)
    (h : ∀ p ∈ W', p ∈ W ∨ p.2 = none) : ∀ p ∈ insert a W', p ∈ W ∨ p.2 = none :=
  fun p hp => (Finset.mem_insert.mp hp).elim (fun e => .inr (e ▸ ha)) (h p)

variable [FloatOps F]

/-- Before trip `n`. -/
def inv (O : CellTallies nD τ sig (HIx 1)) (W : Waits sig (HIx 1)) (n : ℕ) (_ : PUnit) : sProp 𝕄 :=
  iprop(Transfers.MayWaits (thr d L) (none : HIx 1) O
    ∗ tbl16 d L (tblOf m d)
    ∗ ((sS).view.loc (thr d L) ↦{fullShare} slabOf (F := F) (stpOf m d) L)
    ∗ (∃ fr, (sR).view.loc (thr d L) ↦{fullShare} fr)
    ∗ semVal (thr d L, SemLoc.dma cc0_scratch2.sem) 0 ∗ semVal (thr d L, SemLoc.dma cc0_scoped0.sem) 0 ∗ semVal (thr d L, SemLoc.dma cc0_scoped1.sem) 0
    ∗ (bigSep Finset.univ fun k' : Fin k0_t1_loop.trips =>
        (outChunk L k').view.loc (thr d L) ↦[(outChunk L k').view.set]{fullShare} (if k'.val < n then rowsOf (tblOf m d) (stpOf m d) else outOf m d))
    ∗ ∃ W', ⌜∀ p ∈ W', p ∈ W ∨ p.2 = none⌝ ∗ owes (thr d L) O W')

end Tile

variable [FloatOps F]

set_option sl_exec.dischHeartbeats 400000 in
set_option maxHeartbeats 4000000 in
theorem tile_body (hs : ∀ d, Cert.Spec.StepsOK (stpOf m d)) : Cert.Proof.LaunchB.TileBody m := by
  intro d L O W hO
  have _plan : Transfers.BatchOf (thr d L) (SemLoc.dma (sig := sig) cc0_scratch2.sem) 16 (windows := true) := trivial
  have hsd := hs d
  simp only [cc0_k_eq_skeleton]; unfold cc0_k_skel
  rw [(K (F := F)).scopedBufs_V facts d (cV L) (jV L), SparseCore.Cfg.scopedSems0_V (Val := Elt F) d (cV L) (jV L),
    Cert.Proof.PlumbB.ownSems0_V, Cert.Proof.PlumbB.ownBufs_V]
  unfold goRes
  iintro ⟨#Hlv, -, ⟨Hstp, Htb, Hout⟩, ⟨⟨%fs, Hs⟩, ⟨%fr, Hr⟩, Hbufs⟩, ⟨Hsem, Hsem0, Hsem1, Hsems⟩, HO⟩
  ihave Hmw := ((K (F := F)).mayWaits_none (thr := thr d L) hO) $$ Hlv
  -- the tile's share of the table, one part per lane
  ihave Hd := (Entails.of_eq (show (((tblV).view.loc (thr d L) ↦{qTile (L 0).val (L 1).val} tblOf m d : sProp 𝕄))
      = ((tblV).view.loc (thr d L) ↦{Transfers.shareDrop (qTile (L 0).val (L 1).val) 0} tblOf m d) from rfl)) $$ Htb
  ihave H := (Cert.Proof.PlumbB.lane_split (qTile (L 0).val (L 1).val) 0) $$ Hd
  icases H with ⟨Hd, Htb0⟩
  ihave Htb0 := (Entails.of_eq (show (((tblV).view.loc (thr d L) ↦{Transfers.shareTokN (qTile (L 0).val (L 1).val) 0} tblOf m d : sProp 𝕄))
      = ((tblV).view.loc (thr d L) ↦{qLane (L 0).val (L 1).val 0} tblOf m d) from rfl)) $$ Htb0
  ihave H := (Cert.Proof.PlumbB.lane_split (qTile (L 0).val (L 1).val) 1) $$ Hd
  icases H with ⟨Hd, Htb1⟩
  ihave Htb1 := (Entails.of_eq (show (((tblV).view.loc (thr d L) ↦{Transfers.shareTokN (qTile (L 0).val (L 1).val) 1} tblOf m d : sProp 𝕄))
      = ((tblV).view.loc (thr d L) ↦{qLane (L 0).val (L 1).val 1} tblOf m d) from rfl)) $$ Htb1
  ihave H := (Cert.Proof.PlumbB.lane_split (qTile (L 0).val (L 1).val) 2) $$ Hd
  icases H with ⟨Hd, Htb2⟩
  ihave Htb2 := (Entails.of_eq (show (((tblV).view.loc (thr d L) ↦{Transfers.shareTokN (qTile (L 0).val (L 1).val) 2} tblOf m d : sProp 𝕄))
      = ((tblV).view.loc (thr d L) ↦{qLane (L 0).val (L 1).val 2} tblOf m d) from rfl)) $$ Htb2
  ihave H := (Cert.Proof.PlumbB.lane_split (qTile (L 0).val (L 1).val) 3) $$ Hd
  icases H with ⟨Hd, Htb3⟩
  ihave Htb3 := (Entails.of_eq (show (((tblV).view.loc (thr d L) ↦{Transfers.shareTokN (qTile (L 0).val (L 1).val) 3} tblOf m d : sProp 𝕄))
      = ((tblV).view.loc (thr d L) ↦{qLane (L 0).val (L 1).val 3} tblOf m d) from rfl)) $$ Htb3
  ihave H := (Cert.Proof.PlumbB.lane_split (qTile (L 0).val (L 1).val) 4) $$ Hd
  icases H with ⟨Hd, Htb4⟩
  ihave Htb4 := (Entails.of_eq (show (((tblV).view.loc (thr d L) ↦{Transfers.shareTokN (qTile (L 0).val (L 1).val) 4} tblOf m d : sProp 𝕄))
      = ((tblV).view.loc (thr d L) ↦{qLane (L 0).val (L 1).val 4} tblOf m d) from rfl)) $$ Htb4
  ihave H := (Cert.Proof.PlumbB.lane_split (qTile (L 0).val (L 1).val) 5) $$ Hd
  icases H with ⟨Hd, Htb5⟩
  ihave Htb5 := (Entails.of_eq (show (((tblV).view.loc (thr d L) ↦{Transfers.shareTokN (qTile (L 0).val (L 1).val) 5} tblOf m d : sProp 𝕄))
      = ((tblV).view.loc (thr d L) ↦{qLane (L 0).val (L 1).val 5} tblOf m d) from rfl)) $$ Htb5
  ihave H := (Cert.Proof.PlumbB.lane_split (qTile (L 0).val (L 1).val) 6) $$ Hd
  icases H with ⟨Hd, Htb6⟩
  ihave Htb6 := (Entails.of_eq (show (((tblV).view.loc (thr d L) ↦{Transfers.shareTokN (qTile (L 0).val (L 1).val) 6} tblOf m d : sProp 𝕄))
      = ((tblV).view.loc (thr d L) ↦{qLane (L 0).val (L 1).val 6} tblOf m d) from rfl)) $$ Htb6
  ihave H := (Cert.Proof.PlumbB.lane_split (qTile (L 0).val (L 1).val) 7) $$ Hd
  icases H with ⟨Hd, Htb7⟩
  ihave Htb7 := (Entails.of_eq (show (((tblV).view.loc (thr d L) ↦{Transfers.shareTokN (qTile (L 0).val (L 1).val) 7} tblOf m d : sProp 𝕄))
      = ((tblV).view.loc (thr d L) ↦{qLane (L 0).val (L 1).val 7} tblOf m d) from rfl)) $$ Htb7
  ihave H := (Cert.Proof.PlumbB.lane_split (qTile (L 0).val (L 1).val) 8) $$ Hd
  icases H with ⟨Hd, Htb8⟩
  ihave Htb8 := (Entails.of_eq (show (((tblV).view.loc (thr d L) ↦{Transfers.shareTokN (qTile (L 0).val (L 1).val) 8} tblOf m d : sProp 𝕄))
      = ((tblV).view.loc (thr d L) ↦{qLane (L 0).val (L 1).val 8} tblOf m d) from rfl)) $$ Htb8
  ihave H := (Cert.Proof.PlumbB.lane_split (qTile (L 0).val (L 1).val) 9) $$ Hd
  icases H with ⟨Hd, Htb9⟩
  ihave Htb9 := (Entails.of_eq (show (((tblV).view.loc (thr d L) ↦{Transfers.shareTokN (qTile (L 0).val (L 1).val) 9} tblOf m d : sProp 𝕄))
      = ((tblV).view.loc (thr d L) ↦{qLane (L 0).val (L 1).val 9} tblOf m d) from rfl)) $$ Htb9
  ihave H := (Cert.Proof.PlumbB.lane_split (qTile (L 0).val (L 1).val) 10) $$ Hd
  icases H with ⟨Hd, Htb10⟩
  ihave Htb10 := (Entails.of_eq (show (((tblV).view.loc (thr d L) ↦{Transfers.shareTokN (qTile (L 0).val (L 1).val) 10} tblOf m d : sProp 𝕄))
      = ((tblV).view.loc (thr d L) ↦{qLane (L 0).val (L 1).val 10} tblOf m d) from rfl)) $$ Htb10
  ihave H := (Cert.Proof.PlumbB.lane_split (qTile (L 0).val (L 1).val) 11) $$ Hd
  icases H with ⟨Hd, Htb11⟩
  ihave Htb11 := (Entails.of_eq (show (((tblV).view.loc (thr d L) ↦{Transfers.shareTokN (qTile (L 0).val (L 1).val) 11} tblOf m d : sProp 𝕄))
      = ((tblV).view.loc (thr d L) ↦{qLane (L 0).val (L 1).val 11} tblOf m d) from rfl)) $$ Htb11
  ihave H := (Cert.Proof.PlumbB.lane_split (qTile (L 0).val (L 1).val) 12) $$ Hd
  icases H with ⟨Hd, Htb12⟩
  ihave Htb12 := (Entails.of_eq (show (((tblV).view.loc (thr d L) ↦{Transfers.shareTokN (qTile (L 0).val (L 1).val) 12} tblOf m d : sProp 𝕄))
      = ((tblV).view.loc (thr d L) ↦{qLane (L 0).val (L 1).val 12} tblOf m d) from rfl)) $$ Htb12
  ihave H := (Cert.Proof.PlumbB.lane_split (qTile (L 0).val (L 1).val) 13) $$ Hd
  icases H with ⟨Hd, Htb13⟩
  ihave Htb13 := (Entails.of_eq (show (((tblV).view.loc (thr d L) ↦{Transfers.shareTokN (qTile (L 0).val (L 1).val) 13} tblOf m d : sProp 𝕄))
      = ((tblV).view.loc (thr d L) ↦{qLane (L 0).val (L 1).val 13} tblOf m d) from rfl)) $$ Htb13
  ihave H := (Cert.Proof.PlumbB.lane_split (qTile (L 0).val (L 1).val) 14) $$ Hd
  icases H with ⟨Hd, Htb14⟩
  ihave Htb14 := (Entails.of_eq (show (((tblV).view.loc (thr d L) ↦{Transfers.shareTokN (qTile (L 0).val (L 1).val) 14} tblOf m d : sProp 𝕄))
      = ((tblV).view.loc (thr d L) ↦{qLane (L 0).val (L 1).val 14} tblOf m d) from rfl)) $$ Htb14
  ihave H := (Cert.Proof.PlumbB.lane_split (qTile (L 0).val (L 1).val) 15) $$ Hd
  icases H with ⟨Hd, Htb15⟩
  ihave Htb15 := (Entails.of_eq (show (((tblV).view.loc (thr d L) ↦{Transfers.shareTokN (qTile (L 0).val (L 1).val) 15} tblOf m d : sProp 𝕄))
      = ((tblV).view.loc (thr d L) ↦{qLane (L 0).val (L 1).val 15} tblOf m d) from rfl)) $$ Htb15
  -- the staging copy and its wait
  sl_exec
  ihave Hs := (Entails.of_eq (congrArg (fun f => ((sS).view.loc (thr d L) ↦{fullShare} f : sProp 𝕄)) (View.write_whole_univ _ _ _))) $$ Hs
  sl_for (inv m d L O W) $$ [Hmw Htb0 Htb1 Htb2 Htb3 Htb4 Htb5 Htb6 Htb7 Htb8 Htb9 Htb10 Htb11 Htb12 Htb13 Htb14 Htb15 Hs Hr Hsem Hsem0 Hsem1 Hout HO]
  case region =>
    intro k _
    unfold inv tbl16
    iintro ⟨#Hmw, ⟨Htb0, Htb1, Htb2, Htb3, Htb4, Htb5, Htb6, Htb7, Htb8, Htb9, Htb10, Htb11, Htb12, Htb13, Htb14, Htb15⟩, Hs, ⟨%fr, Hr⟩, Hsem, Hsem0, Hsem1, Hout, %W', %hW', HO⟩
    ihave H := (Entails.of_eq (SparseCore.bigSep_erase' (Finset.mem_univ k))) $$ Hout
    icases H with ⟨Ho, Hrest⟩
    ihave Ho := (Entails.of_eq (by rw [if_neg (Nat.lt_irrefl _)] :
      (((outChunk L k).view.loc (thr d L) ↦[(outChunk L k).view.set]{fullShare} (if k.val < k.val then rowsOf (tblOf m d) (stpOf m d) else outOf m d) : sProp 𝕄))
        = ((outChunk L k).view.loc (thr d L) ↦[(outChunk L k).view.set]{fullShare} outOf m d))) $$ Ho
    sl_exec (disch := first
      | sl_exact (k0_chk1_of_le L k _ (wle_of (stpOf m d) hsd L (k_lt k) (by decide : 0 < 16) _ (word0 (F := F) (stpOf m d) L k)))
      | sl_exact (k0_chk2_of_le L k _ (wle_of (stpOf m d) hsd L (k_lt k) (by decide : 1 < 16) _ (word1 (F := F) (stpOf m d) L k)))
      | sl_exact (k0_chk3_of_le L k _ (wle_of (stpOf m d) hsd L (k_lt k) (by decide : 2 < 16) _ (word2 (F := F) (stpOf m d) L k)))
      | sl_exact (k0_chk4_of_le L k _ (wle_of (stpOf m d) hsd L (k_lt k) (by decide : 3 < 16) _ (word3 (F := F) (stpOf m d) L k)))
      | sl_exact (k0_chk5_of_le L k _ (wle_of (stpOf m d) hsd L (k_lt k) (by decide : 4 < 16) _ (word4 (F := F) (stpOf m d) L k)))
      | sl_exact (k0_chk6_of_le L k _ (wle_of (stpOf m d) hsd L (k_lt k) (by decide : 5 < 16) _ (word5 (F := F) (stpOf m d) L k)))
      | sl_exact (k0_chk7_of_le L k _ (wle_of (stpOf m d) hsd L (k_lt k) (by decide : 6 < 16) _ (word6 (F := F) (stpOf m d) L k)))
      | sl_exact (k0_chk8_of_le L k _ (wle_of (stpOf m d) hsd L (k_lt k) (by decide : 7 < 16) _ (word7 (F := F) (stpOf m d) L k)))
      | sl_exact (k0_chk9_of_le L k _ (wle_of (stpOf m d) hsd L (k_lt k) (by decide : 8 < 16) _ (word8 (F := F) (stpOf m d) L k)))
      | sl_exact (k0_chk10_of_le L k _ (wle_of (stpOf m d) hsd L (k_lt k) (by decide : 9 < 16) _ (word9 (F := F) (stpOf m d) L k)))
      | sl_exact (k0_chk11_of_le L k _ (wle_of (stpOf m d) hsd L (k_lt k) (by decide : 10 < 16) _ (word10 (F := F) (stpOf m d) L k)))
      | sl_exact (k0_chk12_of_le L k _ (wle_of (stpOf m d) hsd L (k_lt k) (by decide : 11 < 16) _ (word11 (F := F) (stpOf m d) L k)))
      | sl_exact (k0_chk13_of_le L k _ (wle_of (stpOf m d) hsd L (k_lt k) (by decide : 12 < 16) _ (word12 (F := F) (stpOf m d) L k)))
      | sl_exact (k0_chk14_of_le L k _ (wle_of (stpOf m d) hsd L (k_lt k) (by decide : 13 < 16) _ (word13 (F := F) (stpOf m d) L k)))
      | sl_exact (k0_chk15_of_le L k _ (wle_of (stpOf m d) hsd L (k_lt k) (by decide : 14 < 16) _ (word14 (F := F) (stpOf m d) L k)))
      | sl_exact (k0_chk16_of_le L k _ (wle_of (stpOf m d) hsd L (k_lt k) (by decide : 15 < 16) _ (word15 (F := F) (stpOf m d) L k))))
    sl_step
    ihave Ho := (Entails.of_eq (pointsTo_congr (chunk_value (tblOf m d) (stpOf m d) L k (outOf m d) _ (fun y =>
      rows_value fr _ _ _ _ _ _ _ _ _ _ _ _ _ _ _ _ _ _ _ _ _ _ _ _ _ _ _ _ _ _ _ _
        (fun n z => rowsOf (tblOf m d) (stpOf m d) (ix3 (elemF L k.val n) (z 0) (z 1)))
        (fun z => lane0 (tblOf m d) (stpOf m d) hsd L k _ (word0 (F := F) (stpOf m d) L k) _ z)
        (fun z => lane1 (tblOf m d) (stpOf m d) hsd L k _ (word1 (F := F) (stpOf m d) L k) _ z)
        (fun z => lane2 (tblOf m d) (stpOf m d) hsd L k _ (word2 (F := F) (stpOf m d) L k) _ z)
        (fun z => lane3 (tblOf m d) (stpOf m d) hsd L k _ (word3 (F := F) (stpOf m d) L k) _ z)
        (fun z => lane4 (tblOf m d) (stpOf m d) hsd L k _ (word4 (F := F) (stpOf m d) L k) _ z)
        (fun z => lane5 (tblOf m d) (stpOf m d) hsd L k _ (word5 (F := F) (stpOf m d) L k) _ z)
        (fun z => lane6 (tblOf m d) (stpOf m d) hsd L k _ (word6 (F := F) (stpOf m d) L k) _ z)
        (fun z => lane7 (tblOf m d) (stpOf m d) hsd L k _ (word7 (F := F) (stpOf m d) L k) _ z)
        (fun z => lane8 (tblOf m d) (stpOf m d) hsd L k _ (word8 (F := F) (stpOf m d) L k) _ z)
        (fun z => lane9 (tblOf m d) (stpOf m d) hsd L k _ (word9 (F := F) (stpOf m d) L k) _ z)
        (fun z => lane10 (tblOf m d) (stpOf m d) hsd L k _ (word10 (F := F) (stpOf m d) L k) _ z)
        (fun z => lane11 (tblOf m d) (stpOf m d) hsd L k _ (word11 (F := F) (stpOf m d) L k) _ z)
        (fun z => lane12 (tblOf m d) (stpOf m d) hsd L k _ (word12 (F := F) (stpOf m d) L k) _ z)
        (fun z => lane13 (tblOf m d) (stpOf m d) hsd L k _ (word13 (F := F) (stpOf m d) L k) _ z)
        (fun z => lane14 (tblOf m d) (stpOf m d) hsd L k _ (word14 (F := F) (stpOf m d) L k) _ z)
        (fun z => lane15 (tblOf m d) (stpOf m d) hsd L k _ (word15 (F := F) (stpOf m d) L k) _ z) y)))) $$ Ho
    try unfold inv tbl16
    isplitl [Hmw]; · iexact Hmw
    isplitl [Htb0 Htb1 Htb2 Htb3 Htb4 Htb5 Htb6 Htb7 Htb8 Htb9 Htb10 Htb11 Htb12 Htb13 Htb14 Htb15]
    · isplitl [Htb0]; · iexact Htb0
      isplitl [Htb1]; · iexact Htb1
      isplitl [Htb2]; · iexact Htb2
      isplitl [Htb3]; · iexact Htb3
      isplitl [Htb4]; · iexact Htb4
      isplitl [Htb5]; · iexact Htb5
      isplitl [Htb6]; · iexact Htb6
      isplitl [Htb7]; · iexact Htb7
      isplitl [Htb8]; · iexact Htb8
      isplitl [Htb9]; · iexact Htb9
      isplitl [Htb10]; · iexact Htb10
      isplitl [Htb11]; · iexact Htb11
      isplitl [Htb12]; · iexact Htb12
      isplitl [Htb13]; · iexact Htb13
      isplitl [Htb14]; · iexact Htb14
      iexact Htb15
    isplitl [Hs]; · iexact Hs
    isplitl [Hr]; · iexists _; iexact Hr
    isplitl [Hsem]; · iexact Hsem
    isplitl [Hsem0]; · iexact Hsem0
    isplitl [Hsem1]; · iexact Hsem1
    ihave Hrest := (Entails.of_eq (bigSep_congr (Ψ := (fun k' : Fin k0_t1_loop.trips => ((outChunk L k').view.loc (thr d L) ↦[(outChunk L k').view.set]{fullShare} (if k'.val < k.val + 1 then rowsOf (tblOf m d) (stpOf m d) else outOf m d) : sProp 𝕄))) fun k' hk' => by
      have hne : k'.val ≠ k.val := fun e => (Finset.mem_erase.mp hk').1 (Fin.ext e)
      by_cases h1 : k'.val < k.val
      · rw [if_pos h1, if_pos (Nat.lt_succ_of_lt h1)]
      · rw [if_neg h1, if_neg (by omega)])) $$ Hrest
    ihave Ho := (Entails.of_eq (by beta_reduce; rw [if_pos (Nat.lt_add_one _)] :
      (((outChunk L k).view.loc (thr d L) ↦[(outChunk L k).view.set]{fullShare} rowsOf (tblOf m d) (stpOf m d) : sProp 𝕄))
        = (fun k' : Fin k0_t1_loop.trips => ((outChunk L k').view.loc (thr d L) ↦[(outChunk L k').view.set]{fullShare} (if k'.val < k.val + 1 then rowsOf (tblOf m d) (stpOf m d) else outOf m d) : sProp 𝕄)) k)) $$ Ho
    isplitl [Ho Hrest]
    · iapply (Entails.of_eq (SparseCore.bigSep_erase' (Φ := (fun k' : Fin k0_t1_loop.trips => ((outChunk L k').view.loc (thr d L) ↦[(outChunk L k').view.set]{fullShare} (if k'.val < k.val + 1 then rowsOf (tblOf m d) (stpOf m d) else outOf m d) : sProp 𝕄))) (Finset.mem_univ k)).symm)
      isplitl [Ho]; · iexact Ho
      iexact Hrest
    iexists _; isplitr
    rotate_left
    · iexact HO
    · ipureintro
      repeat (first | exact hW' | refine ins_ok rfl ?_)
  · try unfold inv tbl16
    isplitl [Hmw]; · iexact Hmw
    isplitl [Htb0 Htb1 Htb2 Htb3 Htb4 Htb5 Htb6 Htb7 Htb8 Htb9 Htb10 Htb11 Htb12 Htb13 Htb14 Htb15]
    · isplitl [Htb0]; · iexact Htb0
      isplitl [Htb1]; · iexact Htb1
      isplitl [Htb2]; · iexact Htb2
      isplitl [Htb3]; · iexact Htb3
      isplitl [Htb4]; · iexact Htb4
      isplitl [Htb5]; · iexact Htb5
      isplitl [Htb6]; · iexact Htb6
      isplitl [Htb7]; · iexact Htb7
      isplitl [Htb8]; · iexact Htb8
      isplitl [Htb9]; · iexact Htb9
      isplitl [Htb10]; · iexact Htb10
      isplitl [Htb11]; · iexact Htb11
      isplitl [Htb12]; · iexact Htb12
      isplitl [Htb13]; · iexact Htb13
      isplitl [Htb14]; · iexact Htb14
      iexact Htb15
    isplitl [Hs]; · iexact Hs
    isplitl [Hr]; · iexists _; iexact Hr
    isplitl [Hsem]; · iexact Hsem
    isplitl [Hsem0]; · iexact Hsem0
    isplitl [Hsem1]; · iexact Hsem1
    ihave Hout := (Entails.of_eq (bigSep_congr (Ψ := (fun k' : Fin k0_t1_loop.trips => ((outChunk L k').view.loc (thr d L) ↦[(outChunk L k').view.set]{fullShare} (if k'.val < 0 then rowsOf (tblOf m d) (stpOf m d) else outOf m d) : sProp 𝕄))) fun k' _ => by rw [if_neg (Nat.not_lt_zero _)])) $$ Hout
    isplitl [Hout]; · iexact Hout
    iexists _; isplitr
    rotate_left
    · iexact HO
    · ipureintro
      repeat (first | exact (fun p hp => Or.inl hp) | refine ins_ok rfl ?_)
  iintro %_ HI
  try unfold inv tbl16
  icases HI with ⟨-, -, Hs, ⟨%fr', Hr⟩, Hsem, Hsem0, Hsem1, Hout, %W', %hW', HO⟩
  sl_exec
  sl_step
  unfold tdRes
  ihave Hout := (Entails.of_eq (bigSep_congr (Ψ := fun k' : Fin k0_t1_loop.trips => ((outChunk L k').view.loc (thr d L) ↦[(outChunk L k').view.set]{fullShare} rowsOf (tblOf m d) (stpOf m d) : sProp 𝕄)) fun k' _ => by rw [if_pos k'.isLt])) $$ Hout
  isplitl [Hout]; · iexact Hout
  isplitl [Hs Hr Hbufs]
  · isplitl [Hs]; · iexists _; iexact Hs
    isplitl [Hr]; · iexists _; iexact Hr
    iexact Hbufs
  isplitl [Hsem Hsem0 Hsem1 Hsems]
  · isplitl [Hsem]; · iexact Hsem
    isplitl [Hsem0]; · iexact Hsem0
    isplitl [Hsem1]; · iexact Hsem1
    iexact Hsems
  iexists W'; isplitr
  · ipureintro; exact hW'
  · iexact HO

end Cert.Proof.TileB
end
-- ==== Proof.lean ====
/-
  A gather of rows on the SparseCore against `take_along_axis`.

  The weights are an array `[4096, 11, 20, 64]` and the steps an array of 4096 words, each between 0 and 10. The reference
  takes, for every batch element `b`, the slab `weights[b, steps[b]]`. The kernel flattens the first two axes of the weights
  into a table of 45056 rows and lets each of 32 vector subcores copy, for each of its 128 batch elements, row
  `11 b + steps[b]` of the table into row `b` of the result: sixteen copies at a time on one semaphore, all waited for
  before the sixteen rows are written out. Row `11 b + s` of the flattened table is the slab `(b, s)` of the weights (the
  same row-major position), so both programs compute one function of the arguments, `Cert.Spec.gathered`.

  Each kernel frame is the kernel's run with the values dropped; the reference's frame is its run likewise; at the ideal
  instance both runs end at one value. The steps' range comes from the precondition; nothing is asked of the floats.
-/
import proofs.«205373_g65798898975314_cont_9to1c4b_285_22_alg».proof.Defs
import proofs.«205373_g65798898975314_cont_9to1c4b_285_22_alg».proof.Proof.Gen.Kernel
import proofs.«205373_g65798898975314_cont_9to1c4b_285_22_alg».proof.Proof.Gen.Kernel.Skeleton
import proofs.«205373_g65798898975314_cont_9to1c4b_285_22_alg».proof.Proof.Gen.KernelIdeal
import proofs.«205373_g65798898975314_cont_9to1c4b_285_22_alg».proof.Proof.Gen.KernelIdeal.Skeleton
import proofs.«205373_g65798898975314_cont_9to1c4b_285_22_alg».proof.Proof.Gen.ReferenceIdeal
import proofs.«205373_g65798898975314_cont_9to1c4b_285_22_alg».proof.Proof.Gen.Pre_input_domain
import proofs.«205373_g65798898975314_cont_9to1c4b_285_22_alg».proof.Proof.Gen.ReferenceIdeal.Run
import proofs.«205373_g65798898975314_cont_9to1c4b_285_22_alg».proof.Proof.Gen.ReferenceIdeal.Read
import Idealize.ShloMosaic.Adequacy
import Idealize.ShloMosaic.Init
import proofs.«205373_g65798898975314_cont_9to1c4b_285_22_alg».proof.Proof.PreSteps
import proofs.«205373_g65798898975314_cont_9to1c4b_285_22_alg».proof.Proof.RefSide
import proofs.«205373_g65798898975314_cont_9to1c4b_285_22_alg».proof.Proof.Reshape
import proofs.«205373_g65798898975314_cont_9to1c4b_285_22_alg».proof.Proof.LaunchI
import proofs.«205373_g65798898975314_cont_9to1c4b_285_22_alg».proof.Proof.LaunchB
import proofs.«205373_g65798898975314_cont_9to1c4b_285_22_alg».proof.Proof.TileI
import proofs.«205373_g65798898975314_cont_9to1c4b_285_22_alg».proof.Proof.TileB

noncomputable section

namespace Cert.Proof

open Idealize.ShloMosaic Idealize.SL.Sem

/-! ## The steps' range, from the precondition -/

/-- The precondition of the kernel at the word-level instance gives every device's steps in range. -/
theorem stepsB (m : (ℓ : Loc Cert.Kernel.nD Cert.Kernel.τ Cert.Kernel.sig) → Buf (Elt Bits) ℓ)
    (h : Cert.Pre_Kernel (hPre_input_domain := Cert.Pre_input_domain.Gen.facts) m) :
    ∀ d : Dev Cert.Kernel.nD, Cert.Spec.StepsOK (Cert.Proof.SetupB.stpOf m d) :=
  fun d => Cert.Proof.PreSteps.steps_ok (F := Bits) _ _ _ _ _ (h d)

/-- The same at the ideal instance. -/
theorem stepsI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) :
    ∀ d : Dev Cert.KernelIdeal.nD, Cert.Spec.StepsOK (Cert.Proof.SetupI.stpOf m d) :=
  fun d => Cert.Proof.PreSteps.steps_ok (F := Ideal) _ _ _ _ _ (h d)

/-! ## The reference's frame -/

theorem frameR : Cert.frame_ReferenceIdeal (hReferenceIdeal := Cert.ReferenceIdeal.Gen.facts) (hPre_input_domain := Cert.Pre_input_domain.Gen.facts) :=
  fun m g _ =>
    (θ_run Cert.ReferenceIdeal.defs _ _).mono
      (fun _ h c => ⟨(h c).2.2.1, (h c).2.2.2.1, (h c).2.2.2.2.1, (h c).2.2.2.2.2.1, (h c).2.2.2.2.2.2⟩)
      (Cert.ReferenceIdeal.Value.run (F := Ideal) m g)

/-! ## The two results are one value -/

/-- The reference's gather of the reference's arguments is the kernel's rows of the kernel's, where the arguments agree. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Spec.gathered (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg2))
      = Cert.Proof.SetupI.rowsOf (Cert.Proof.SetupI.tblOf m c) (Cert.Proof.SetupI.stpOf m c) := by
  rw [h2, h3]
  exact (Cert.Proof.Reshape.rows_eq_gathered _ _ _).symm

/-! ## The kernel's frames -/

theorem frameB : Cert.frame_Kernel (hKernel := Cert.Kernel.Gen.facts) (hPre_input_domain := Cert.Pre_input_domain.Gen.facts) :=
  fun m g hpre =>
    (θ_run Cert.Kernel.defs _ _).mono
      (fun _ h c => ⟨(h c).2.2.1, (h c).2.2.2.1, (h c).2.2.2.2.1, (h c).2.2.2.2.2.1, (h c).2.2.2.2.2.2⟩)
      (Cert.Proof.LaunchB.run_main (F := Bits) m g (Cert.Proof.TileB.tile_body m (stepsB m hpre)))

theorem frameI : Cert.frame_KernelIdeal (hKernelIdeal := Cert.KernelIdeal.Gen.facts) (hPre_input_domain := Cert.Pre_input_domain.Gen.facts) :=
  fun m g hpre =>
    (θ_run Cert.KernelIdeal.defs _ _).mono
      (fun _ h c => ⟨(h c).2.2.1, (h c).2.2.2.1, (h c).2.2.2.2.1, (h c).2.2.2.2.2.1, (h c).2.2.2.2.2.2⟩)
      (Cert.Proof.LaunchI.run_main (F := Ideal) m g (Cert.Proof.TileI.tile_body m (stepsI m hpre)))

/-! ## At the ideal instance the kernel and the reference end with equal results -/

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hagree =>
    ⟨fun c => Cert.Proof.SetupI.rowsOf (Cert.Proof.SetupI.tblOf m c) (Cert.Proof.SetupI.stpOf m c),
      fun c => m ((c.tc : Thread Cert.KernelIdeal.nD Cert.KernelIdeal.τ).loc Cert.KernelIdeal.main_arg4),
      Cert.Proof.LaunchI.run_main (F := Ideal) m g (Cert.Proof.TileI.tile_body m (stepsI m hpre)),
      (θ_run Cert.ReferenceIdeal.defs _ _).mono
        (fun _ h c => ⟨(h c).1.trans (value_eq m m' c (hagree c).2.2.1 (hagree c).2.2.2.1),
          (h c).2.1.trans (hagree c).2.2.2.2, (h c).2.2⟩)
        (Cert.Proof.RefSide.run m' g' (fun c => by rw [(hagree c).2.2.1]; exact stepsI m hpre c))⟩

theorem claim : Cert.Claim :=
  ⟨Cert.Kernel.Gen.facts, Cert.KernelIdeal.Gen.facts, Cert.ReferenceIdeal.Gen.facts, Cert.Pre_input_domain.Gen.facts,
    frameB, frameI, frameR, trivial, algebraic⟩

end Cert.Proof

end
